-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S1600000x2 : Shape := ⟨2, ![1600000, 2]⟩
abbrev S2x64 : Shape := ⟨2, ![2, 64]⟩
abbrev S64 : Shape := ⟨1, ![64]⟩
abbrev S64x32 : Shape := ⟨2, ![64, 32]⟩
abbrev S32 : Shape := ⟨1, ![32]⟩
abbrev S66x16 : Shape := ⟨2, ![66, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S1600000x2 : S_.BroadcastsInDim S1600000x2 (![] : Fin 0 → Fin S1600000x2.rank)
  reducesTo_S1600000x2_S_d0_1 : S1600000x2.ReducesTo [0, 1] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S66x16 : S_.BroadcastsInDim S66x16 (![] : Fin 0 → Fin S66x16.rank)
  reducesTo_S66x16_S_d0_1 : S66x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S16 .f32) (main_arg9 : FVec F S16x1 .f32) (main_arg10 : FVec F S1 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x1 .f32 := Host.absf main_arg9
  let main_cst_14 : FVec F S_ .f32 := constant S_ .f32 0x7F800000#32
  let main_v40 : FVec F S16x1 .f32 := broadcastInDim S16x1 ![] bcast_S_S16x1 main_cst_14
  let main_v41 : IVec S16x1 1 := cmpf .olt main_v39 main_v40
  let main_c_15 : IVec S_ 1 := constantI S_ 1 1#1
  let main_v42 : IVec S_ 1 := (fun x v => Host.reduce IntOp.andi x v reducesTo_S16x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S64x32 .f32) (main_arg6 : FVec F S32 .f32) (main_arg7 : FVec F S66x16 .f32) (main_arg8 : FVec F S16 .f32) (main_arg9 : FVec F S16x1 .f32) (main_arg10 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S66x16 .f32 := Host.absf main_arg7
  let main_cst_10 : FVec F S_ .f32 := constant S_ .f32 0x7F800000#32
  let main_v30 : FVec F S66x16 .f32 := broadcastInDim S66x16 ![] bcast_S_S66x16 main_cst_10
  let main_v31 : IVec S66x16 1 := cmpf .olt main_v29 main_v30
  let main_c_11 : IVec S_ 1 := constantI S_ 1 1#1
  let main_v32 : IVec S_ 1 := (fun x v => Host.reduce IntOp.andi x v reducesTo_S66x16_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x2 .f32) (main_arg1 : IVec S2x1600000 32) (main_arg2 : FVec F S1600000x2 .f32) (main_arg3 : FVec F S2x64 .f32) (main_arg4 : FVec F S64 .f32) (main_arg5 : FVec F S64x32 .f32) (main_arg6 : FVec F S32 .f32) (main_arg7 : FVec F S66x16 .f32) (main_arg8 : FVec F S16 .f32) (main_arg9 : FVec F S16x1 .f32) (main_arg10 : FVec F S1 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S1600000x2 .f32 := Host.absf main_arg2
  let main_cst_0 : FVec F S_ .f32 := constant S_ .f32 0x7F800000#32
  let main_v5 : FVec F S1600000x2 .f32 := broadcastInDim S1600000x2 ![] bcast_S_S1600000x2 main_cst_0
  let main_v6 : IVec S1600000x2 1 := cmpf .olt main_v4 main_v5
  let main_c_1 : IVec S_ 1 := constantI S_ 1 1#1
  let main_v7 : IVec S_ 1 := (fun x v => Host.reduce IntOp.andi x v reducesTo_S1600000x2_S_d0_1 h_S_) main_v6 main_c_1
  let main_v8 : IVec S_ 1 := andi main_v3 main_v7
  let main_v9 : FVec F S2x64 .f32 := Host.absf main_arg3
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x2 : Shape := ⟨2, ![100000, 2]⟩
abbrev S2x1600000 : Shape := ⟨2, ![2, 1600000]⟩
abbrev S1600000x2 : Shape := ⟨2, ![1600000, 2]⟩
abbrev S2x64 : Shape := ⟨2, ![2, 64]⟩
abbrev S64 : Shape := ⟨1, ![64]⟩
abbrev S64x32 : Shape := ⟨2, ![64, 32]⟩
abbrev S32 : Shape := ⟨1, ![32]⟩
abbrev S66x16 : Shape := ⟨2, ![66, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x2 : Shape := ⟨2, ![10000, 2]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩
abbrev S1600000x1 : Shape := ⟨2, ![1600000, 1]⟩
abbrev S1600000x32 : Shape := ⟨2, ![1600000, 32]⟩
abbrev S1600000x66 : Shape := ⟨2, ![1600000, 66]⟩
abbrev S1x16 : Shape := ⟨2, ![1, 16]⟩
abbrev S1x1 : Shape := ⟨2, ![1, 1]⟩
abbrev S20000x66 : Shape := ⟨2, ![20000, 66]⟩
abbrev S20000x1 : Shape := ⟨2, ![20000, 1]⟩
abbrev S20000x16 : Shape := ⟨2, ![20000, 16]⟩

abbrev nBuf : Space → Nat
  | .hbm => 152
  | .vmem => 28
  | .smem => 0
  | _ => 0

abbrev hbmTy0_0 (i : Nat) : BufTy := match i % 128 with
  | 0 => ⟨S100000x2, .f32⟩
  | 1 => ⟨S2x1600000, .i32⟩
  | 2 => ⟨S1600000x2, .f32⟩
  | 3 => ⟨S2x64, .f32⟩
  | 4 => ⟨S64, .f32⟩
  | 5 => ⟨S64x32, .f32⟩
  | 6 => ⟨S32, .f32⟩
  | 7 => ⟨S66x16, .f32⟩
  | 8 => ⟨S16, .f32⟩
  | 9 => ⟨S16x1, .f32⟩
  | 10 => ⟨S1, .f32⟩
  | 11 => ⟨S1x1600000, .i32⟩
  | 12 => ⟨S1600000, .i32⟩
  | 13 => ⟨S1x1600000, .i32⟩
  | 14 => ⟨S1600000, .i32⟩
  | 15 => ⟨S100000, .i32⟩
  | 16 => ⟨S1700000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x64, .f32⟩
  | 54 => ⟨S1700000x1, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x64, .f32⟩
  | 65 => ⟨S1700000x64, .f32⟩
  | 66 => ⟨S_, .f32⟩
  | 67 => ⟨S100000x64, .f32⟩
  | 68 => ⟨S1700000x1, .i32⟩
  | 69 => ⟨S100000x64, .f32⟩
  | 70 => ⟨S1x64, .f32⟩
  | 71 => ⟨S100000x64, .f32⟩
  | 72 => ⟨S100000, .i32⟩
  | 73 => ⟨S1700000, .i32⟩
  | 74 => ⟨S1700000, .i32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S_, .f32⟩
  | 85 => ⟨S100000, .f32⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S100000x32, .f32⟩
  | 111 => ⟨S1700000x1, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x32, .f32⟩
  | 121 => ⟨S1700000x32, .f32⟩
  | 122 => ⟨S1700000x32, .f32⟩
  | 123 => ⟨S_, .f32⟩
  | 124 => ⟨S100000x32, .f32⟩
  | 125 => ⟨S1700000x1, .i32⟩
  | 126 => ⟨S100000x32, .f32⟩
  | 127 => ⟨S1x32, .f32⟩
  | _ => ⟨S100000x2, .f32⟩

abbrev hbmTy0_1 (i : Nat) : BufTy := match i % 128 with
  | 0 => ⟨S100000x32, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x32, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x32, .f32⟩
  | 19 => ⟨S1600000x66, .f32⟩
  | 20 => ⟨S1x16, .f32⟩
  | 21 => ⟨S1x1, .f32⟩
  | 22 => ⟨S1600000x1, .f32⟩
  | 23 => ⟨S1600000, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | .local _ .vmem, ⟨0, _⟩ => ⟨S10000x2, .f32⟩
  | .local _ .vmem, ⟨1, _⟩ => ⟨S10000x2, .f32⟩
  | .local _ .vmem, ⟨2, _⟩ => ⟨S2x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | .local _ .vmem, ⟨20, _⟩ => ⟨S20000x66, .f32⟩
  | .local _ .vmem, ⟨21, _⟩ => ⟨S20000x66, .f32⟩
  | .local _ .vmem, ⟨22, _⟩ => ⟨S66x16, .f32⟩
  | .local _ .vmem, ⟨23, _⟩ => ⟨S1x16, .f32⟩
  | .local _ .vmem, ⟨24, _⟩ => ⟨S16x1, .f32⟩
  | .local _ .vmem, ⟨25, _⟩ => ⟨S1x1, .f32⟩
  | .local _ .vmem, ⟨26, _⟩ => ⟨S20000x1, .f32⟩
  | .local _ .vmem, ⟨27, _⟩ => ⟨S20000x1, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_12 : Ref sig .tc := ⟨.hbm, 81, rfl⟩
abbrev main_v54 : Ref sig .tc := ⟨.hbm, 82, rfl⟩
abbrev main_v55 : Ref sig .tc := ⟨.hbm, 83, rfl⟩
abbrev main_cst_13 : Ref sig .tc := ⟨.hbm, 84, rfl⟩
abbrev main_v56 : Ref sig .tc := ⟨.hbm, 85, rfl⟩
abbrev main_v57 : Ref sig .tc := ⟨.hbm, 86, rfl⟩
abbrev main_cst_14 : Ref sig .tc := ⟨.hbm, 87, rfl⟩
abbrev main_call1_v0 : Ref sig .tc := ⟨.hbm, 88, rfl⟩
abbrev main_call1_v1 : Ref sig .tc := ⟨.hbm, 89, rfl⟩
abbrev main_v58 : Ref sig .tc := ⟨.hbm, 90, rfl⟩
abbrev main_c_15 : Ref sig .tc := ⟨.hbm, 91, rfl⟩
abbrev main_v59 : Ref sig .tc := ⟨.hbm, 92, rfl⟩
abbrev main_v60 : Ref sig .tc := ⟨.hbm, 93, rfl⟩
abbrev main_c_16 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_17 : Ref sig .tc := ⟨.hbm, 100, rfl⟩
abbrev main_v66 : Ref sig .tc := ⟨.hbm, 101, rfl⟩
abbrev main_v67 : Ref sig .tc := ⟨.hbm, 102, rfl⟩
abbrev main_c_18 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_19 : Ref sig .tc := ⟨.hbm, 112, rfl⟩
abbrev main_v76 : Ref sig .tc := ⟨.hbm, 113, rfl⟩
abbrev main_v77 : Ref sig .tc := ⟨.hbm, 114, rfl⟩
abbrev main_c_20 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_21 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_22 : Ref sig .tc := ⟨.hbm, 129, rfl⟩
abbrev main_v90 : Ref sig .tc := ⟨.hbm, 130, rfl⟩
abbrev main_v91 : Ref sig .tc := ⟨.hbm, 131, rfl⟩
abbrev main_c_23 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_c_24 : Ref sig .tc := ⟨.hbm, 138, rfl⟩
abbrev main_v97 : Ref sig .tc := ⟨.hbm, 139, rfl⟩
abbrev main_v98 : Ref sig .tc := ⟨.hbm, 140, rfl⟩
abbrev main_c_25 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg5_0 : Ref sig .tc := ⟨.vmem, 26, rfl⟩
abbrev cc4_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem4_0 : DmaSem sig := 25
abbrev cc4_sem5_0 : DmaSem sig := 26
abbrev cc4_sem5_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x66 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S66x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S16x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S20000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x2_S10000x2_0_0 : ∀ a, (![0, 0] : Fin 2 → Nat) a + S10000x2.size a ≤ S10000x2.size a
  h_S10000x2 : 0 < S10000x2.numel
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x2_S1600000x66_d1 : Shape.Concatenates [S1600000x32, S1600000x32, S1600000x2] S1600000x66 1
  shapeCasts_S16_S1x16 : S16.ShapeCasts S1x16
  shapeCasts_S1_S1x1 : S1.ShapeCasts S1x1
  inb_S20000x66_S20000x66_0_0 : ∀ a, (![0, 0] : Fin 2 → Nat) a + S20000x66.size a ≤ S20000x66.size a
  h_S20000x66 : 0 < S20000x66.numel
  shapeCasts_S20000x66_S20000x66 : S20000x66.ShapeCasts S20000x66
  inb_S66x16_S66x16_0_0 : ∀ a, (![0, 0] : Fin 2 → Nat) a + S66x16.size a ≤ S66x16.size a
  h_S66x16 : 0 < S66x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S20000x16 : S1x16.Broadcasts S20000x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S20000x1 : S1x1.Broadcasts S20000x1
  inb_S20000x1_S20000x1_0_0 : ∀ a, (![0, 0] : Fin 2 → Nat) a + S20000x1.size a ≤ S20000x1.size a
  h_S20000x1 : 0 < S20000x1.numel
  shapeCasts_S1600000x1_S1600000 : S1600000x1.ShapeCasts S1600000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x2_S2x64_S10000x64_1_0_0_1_n_n_wf : DotDims.WF S10000x2 S2x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  gather_S100000x32_S1600000x1_S1600000x32_1_0_n_n_0_1_132_wf : GatherDims.WF S100000x32 S1600000x1 S1600000x32 [1] [0] [] [0] [] 1 ![1, 32]
  dot_S20000x66_S66x16_S20000x16_1_0_0_1_n_n_wf : DotDims.WF S20000x66 S66x16 S20000x16 [1] [0] [0] [1] [] []
  dot_S20000x16_S16x1_S20000x1_1_0_0_1_n_n_wf : DotDims.WF S20000x16 S16x1 S20000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .f32 = 32 ∨ (Rect.block (s := S100000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x66.size a ≤ S1600000x66.size a
  hwx4_0 : ∀ i : grid4.Coords, EltTy.bits .f32 = 32 ∨ (Rect.block (s := S1600000x66) S20000x66.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S66x16.size a ≤ S66x16.size a
  hwx4_1 : ∀ i : grid4.Coords, EltTy.bits .f32 = 32 ∨ (Rect.block (s := S66x16) S66x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16x1.size a ≤ S16x1.size a
  hwx4_3 : ∀ i : grid4.Coords, EltTy.bits .f32 = 32 ∨ (Rect.block (s := S16x1) S16x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S20000x1.size a ≤ S1600000x1.size a
  hwx4_5 : ∀ i : grid4.Coords, EltTy.bits .f32 = 32 ∨ (Rect.block (s := S1600000x1) S20000x1.size (cc4_transform_5 i) (hinb4_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x2_S2x64_S10000x64_1_0_0_1_n_n : DotDims S10000x2 S2x64 S10000x64 where
  lhsContracting := [1]
  rhsContracting := [0]
  lhsNonContracting := [0]
  rhsNonContracting := [1]
  lhsBatch := []
  rhsBatch := []
  wf := dot_S10000x2_S2x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S20000x66_S66x16_S20000x16_1_0_0_1_n_n : DotDims S20000x66 S66x16 S20000x16 where
  lhsContracting := [1]
  rhsContracting := [0]
  lhsNonContracting := [0]
  rhsNonContracting := [1]
  lhsBatch := []
  rhsBatch := []
  wf := dot_S20000x66_S66x16_S20000x16_1_0_0_1_n_n_wf
def dot_S20000x16_S16x1_S20000x1_1_0_0_1_n_n : DotDims S20000x16 S16x1 S20000x1 where
  lhsContracting := [1]
  rhsContracting := [0]
  lhsNonContracting := [0]
  rhsNonContracting := [1]
  lhsBatch := []
  rhsBatch := []
  wf := dot_S20000x16_S16x1_S20000x1_1_0_0_1_n_n_wf

abbrev win0_0 : Pipeline.Window sig grid0 :=
  Pipeline.Window.ofSpec (Memref.whole main_arg0) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v74) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v87) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v104) S20000x66.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S66x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v105) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S16x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v106) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v107) S20000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x2 : Shape := ⟨2, ![100000, 2]⟩
abbrev S2x1600000 : Shape := ⟨2, ![2, 1600000]⟩
abbrev S1600000x2 : Shape := ⟨2, ![1600000, 2]⟩
abbrev S2x64 : Shape := ⟨2, ![2, 64]⟩
abbrev S64 : Shape := ⟨1, ![64]⟩
abbrev S64x32 : Shape := ⟨2, ![64, 32]⟩
abbrev S32 : Shape := ⟨1, ![32]⟩
abbrev S66x16 : Shape := ⟨2, ![66, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S1600000x1 : Shape := ⟨2, ![1600000, 1]⟩
abbrev S1600000x32 : Shape := ⟨2, ![1600000, 32]⟩
abbrev S1600000x66 : Shape := ⟨2, ![1600000, 66]⟩
abbrev S1600000x16 : Shape := ⟨2, ![1600000, 16]⟩
abbrev S1x16 : Shape := ⟨2, ![1, 16]⟩
abbrev S1x1 : Shape := ⟨2, ![1, 1]⟩

abbrev nBuf : Space → Nat
  | .hbm => 168
  | .vmem => 0
  | .smem => 0
  | _ => 0

abbrev hbmTy0_0 (i : Nat) : BufTy := match i % 128 with
  | 0 => ⟨S100000x2, .f32⟩
  | 1 => ⟨S2x1600000, .i32⟩
  | 2 => ⟨S1600000x2, .f32⟩
  | 3 => ⟨S2x64, .f32⟩
  | 4 => ⟨S64, .f32⟩
  | 5 => ⟨S64x32, .f32⟩
  | 6 => ⟨S32, .f32⟩
  | 7 => ⟨S66x16, .f32⟩
  | 8 => ⟨S16, .f32⟩
  | 9 => ⟨S16x1, .f32⟩
  | 10 => ⟨S1, .f32⟩
  | 11 => ⟨S1x1600000, .i32⟩
  | 12 => ⟨S1600000, .i32⟩
  | 13 => ⟨S1x1600000, .i32⟩
  | 14 => ⟨S1600000, .i32⟩
  | 15 => ⟨S100000x64, .f32⟩
  | 16 => ⟨S100000, .i32⟩
  | 17 => ⟨S1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S1700000x1, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x64, .f32⟩
  | 65 => ⟨S1700000x64, .f32⟩
  | 66 => ⟨S_, .f32⟩
  | 67 => ⟨S100000x64, .f32⟩
  | 68 => ⟨S1700000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x32, .f32⟩
  | 77 => ⟨S100000, .i32⟩
  | 78 => ⟨S1700000, .i32⟩
  | 79 => ⟨S1700000, .i32⟩
  | 80 => ⟨S_, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S_, .f32⟩
  | 90 => ⟨S100000, .f32⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S1700000, .f32⟩
  | 115 => ⟨S1700000x1, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000x32, .f32⟩
  | 125 => ⟨S1700000x32, .f32⟩
  | 126 => ⟨S1700000x32, .f32⟩
  | 127 => ⟨S_, .f32⟩
  | _ => ⟨S100000x2, .f32⟩

abbrev hbmTy0_1 (i : Nat) : BufTy := match i % 128 with
  | 0 => ⟨S100000x32, .f32⟩
  | 1 => ⟨S1700000x1, .i32⟩
  | 2 => ⟨S100000x32, .f32⟩
  | 3 => ⟨S1x32, .f32⟩
  | 4 => ⟨S100000x32, .f32⟩
  | 5 => ⟨S100000x32, .f32⟩
  | 6 => ⟨S_, .f32⟩
  | 7 => ⟨S100000x32, .f32⟩
  | 8 => ⟨S100000x32, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x32, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x32, .f32⟩
  | 27 => ⟨S1600000x66, .f32⟩
  | 28 => ⟨S1600000x16, .f32⟩
  | 29 => ⟨S1x16, .f32⟩
  | 30 => ⟨S1600000x16, .f32⟩
  | 31 => ⟨S1600000x16, .f32⟩
  | 32 => ⟨S_, .f32⟩
  | 33 => ⟨S1600000x16, .f32⟩
  | 34 => ⟨S1600000x16, .f32⟩
  | 35 => ⟨S1600000x1, .f32⟩
  | 36 => ⟨S1x1, .f32⟩
  | 37 => ⟨S1600000x1, .f32⟩
  | 38 => ⟨S1600000x1, .f32⟩
  | 39 => ⟨S1600000, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call1_cst : Ref sig .tc := ⟨.hbm, 73, rfl⟩
abbrev main_call1_v0 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_cst_11 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_12 : Ref sig .tc := ⟨.hbm, 86, rfl⟩
abbrev main_v57 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_v60 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v61 : Ref sig .tc := ⟨.hbm, 95, rfl⟩
abbrev main_c_15 : Ref sig .tc := ⟨.hbm, 96, rfl⟩
abbrev main_v62 : Ref sig .tc := ⟨.hbm, 97, rfl⟩
abbrev main_v63 : Ref sig .tc := ⟨.hbm, 98, rfl⟩
abbrev main_c_16 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c_17 : Ref sig .tc := ⟨.hbm, 105, rfl⟩
abbrev main_v69 : Ref sig .tc := ⟨.hbm, 106, rfl⟩
abbrev main_v70 : Ref sig .tc := ⟨.hbm, 107, rfl⟩
abbrev main_c_18 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_19 : Ref sig .tc := ⟨.hbm, 116, rfl⟩
abbrev main_v78 : Ref sig .tc := ⟨.hbm, 117, rfl⟩
abbrev main_v79 : Ref sig .tc := ⟨.hbm, 118, rfl⟩
abbrev main_c_20 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_21 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_call3_cst : Ref sig .tc := ⟨.hbm, 134, rfl⟩
abbrev main_call3_v0 : Ref sig .tc := ⟨.hbm, 135, rfl⟩
abbrev main_v93 : Ref sig .tc := ⟨.hbm, 136, rfl⟩
abbrev main_c_22 : Ref sig .tc := ⟨.hbm, 137, rfl⟩
abbrev main_v94 : Ref sig .tc := ⟨.hbm, 138, rfl⟩
abbrev main_v95 : Ref sig .tc := ⟨.hbm, 139, rfl⟩
abbrev main_c_23 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_c_24 : Ref sig .tc := ⟨.hbm, 146, rfl⟩
abbrev main_v101 : Ref sig .tc := ⟨.hbm, 147, rfl⟩
abbrev main_v102 : Ref sig .tc := ⟨.hbm, 148, rfl⟩
abbrev main_c_25 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_call4_cst : Ref sig .tc := ⟨.hbm, 160, rfl⟩
abbrev main_call4_v0 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x32_S1600000x32_S1600000x2_S1600000x66_d1 : Shape.Concatenates [S1600000x32, S1600000x32, S1600000x2] S1600000x66 1
  bcast_S16_S1x16_1 : S16.BroadcastsInDim S1x16 (![1] : Fin 1 → Fin S1x16.rank)
  bcast_S1x16_S1600000x16_0_1 : S1x16.BroadcastsInDim S1600000x16 (![0, 1] : Fin 2 → Fin S1600000x16.rank)
  bcast_S_S1600000x16 : S_.BroadcastsInDim S1600000x16 (![] : Fin 0 → Fin S1600000x16.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  dot_S100000x2_S2x64_S100000x64_1_0_0_1_n_n_wf : DotDims.WF S100000x2 S2x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  gather_S100000x32_S1600000x1_S1600000x32_1_0_n_n_0_1_132_wf : GatherDims.WF S100000x32 S1600000x1 S1600000x32 [1] [0] [] [0] [] 1 ![1, 32]
  dot_S1600000x66_S66x16_S1600000x16_1_0_0_1_n_n_wf : DotDims.WF S1600000x66 S66x16 S1600000x16 [1] [0] [0] [1] [] []
  dot_S1600000x16_S16x1_S1600000x1_1_0_0_1_n_n_wf : DotDims.WF S1600000x16 S16x1 S1600000x1 [1] [0] [0] [1] [] []

variable [Facts₀]

def dot_S100000x2_S2x64_S100000x64_1_0_0_1_n_n : DotDims S100000x2 S2x64 S100000x64 where
  lhsContracting := [1]
  rhsContracting := [0]
  lhsNonContracting := [0]
  rhsNonContracting := [1]
  lhsBatch := []
  rhsBatch := []
  wf := dot_S100000x2_S2x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x66_S66x16_S1600000x16_1_0_0_1_n_n : DotDims S1600000x66 S66x16 S1600000x16 where
  lhsContracting := [1]
  rhsContracting := [0]
  lhsNonContracting := [0]
  rhsNonContracting := [1]
  lhsBatch := []
  rhsBatch := []
  wf := dot_S1600000x66_S66x16_S1600000x16_1_0_0_1_n_n_wf
def dot_S1600000x16_S16x1_S1600000x1_1_0_0_1_n_n : DotDims S1600000x16 S16x1 S1600000x1 where
  lhsContracting := [1]
  rhsContracting := [0]
  lhsNonContracting := [0]
  rhsNonContracting := [1]
  lhsBatch := []
  rhsBatch := []
  wf := dot_S1600000x16_S16x1_S1600000x1_1_0_0_1_n_n_wf

class Facts : Prop extends Facts₀ where

variable [Facts]
-- ==== Proof.KReg0.lean ====
/-
  The first dense product, `x · W1`, as one launch over ten blocks of 10000 node rows: each grid point reads its block of
  `x` and the whole of `W1` and writes its block of the product. This module states what one run of the body leaves
  (the product of the two blocks, into a zero accumulator) and that the launch's bookkeeping is met at every grid point,
  for the buffers' contents `V` at the moment the launch is entered, whatever they are.
-/
import proofs.«149904_j79456894976559_1_alg».proof.Proof.Gen.Kernel.Launch
import proofs.«149904_j79456894976559_1_alg».proof.Proof.Gen.Kernel.Skeleton
import proofs.«149904_j79456894976559_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s buffers when this launch is entered: a parameter. -/
variable (V : (c : Dev nD) → (b : Ref sig .tc) → Buf (Elt F) ((c : Thread nD τ).loc b))

/-- Operand `w`'s block at grid point `t`: the rows of its array that the point works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand 0 is only read: whether or not it was copied in afresh at point `t`, its buffer holds its block there
    (a block that is not copied again is one whose position did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Operand 1 is only read: whether or not it was copied in afresh at point `t`, its buffer holds its block there
    (a block that is not copied again is one whose position did not move). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! The body reads and writes every buffer whole: one rectangle per shape, the whole of it. -/

abbrev r0_S10000x2 : Rect S10000x2 := Rect.unit (s := S10000x2) ![0, 0] S10000x2.size inb_S10000x2_S10000x2_0_0
abbrev r0_S2x64 : Rect S2x64 := Rect.unit (s := S2x64) ![0, 0] S2x64.size inb_S2x64_S2x64_0_0
abbrev r0_S10000x64 : Rect S10000x64 := Rect.unit (s := S10000x64) ![0, 0] S10000x64.size inb_S10000x64_S10000x64_0_0

/-- What one grid point leaves in the result's buffer: the body's one store, covering the whole buffer, of the body's
    arithmetic on the operands' blocks. -/
def out0 (x0 : Vec F S10000x2 .f32) (x1 : Vec F S2x64 .f32) : Vec F S10000x64 .f32 :=
  View.canon [⟨r0_S10000x64, k0_pay1 (View.ld x0 r0_S10000x2) (View.ld x1 r0_S2x64)⟩]

/-- The one store covers the result's buffer. -/
theorem cover0 (p0 : Vec F S10000x64 .f32) (y : S10000x64.Idx) :
    ∃ pc ∈ ([⟨r0_S10000x64, p0⟩] : List (View.Piece (Elt F) S10000x64 .f32)), y ∈ pc.1.set :=
  View.cover_of_tiled [⟨r0_S10000x64, p0⟩] S10000x64.size (by rfl) y

set_option maxHeartbeats 4000000 in
/-- One run of the body: the operands' buffers are read and left as they were; the result's buffer, whatever it held,
    ends at `out0` of the operands' contents. -/
theorem sound_kernel0 (c : Dev nD) (E : Set ℕ) (i : grid0.Coords) (arg1 : Memref sig .tc .vmem S10000x2 .f32) (harg1 : arg1.IsWhole) (arg2 : Memref sig .tc .vmem S2x64 .f32) (harg2 : arg2.IsWhole) (arg3 : Memref sig .tc .vmem S10000x64 .f32) (harg3 : arg3.IsWhole)
    (x0 : Vec F S10000x2 .f32) (x1 : Vec F S2x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The bookkeeping of this launch on core `c`: the arrays as the launch finds them; after the body at point `t` each
    operand's buffer still at its block and the result's at `out0` of the operands' blocks; nothing owed to another core. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is entered with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the operands' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
/-
  The first layer's epilogue, `max(agg + b1, 0)`, as one launch over ten blocks of 10000 node rows: each grid point reads
  its block of the aggregated messages and the bias row and writes its block of the activations. What one run of the
  body leaves, and the launch's bookkeeping at every grid point, for the buffers' contents `V` at entry.
-/
import proofs.«149904_j79456894976559_1_alg».proof.Proof.Gen.Kernel.Launch
import proofs.«149904_j79456894976559_1_alg».proof.Proof.Gen.Kernel.Skeleton
import proofs.«149904_j79456894976559_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s buffers when this launch is entered: a parameter. -/
variable (V : (c : Dev nD) → (b : Ref sig .tc) → Buf (Elt F) ((c : Thread nD τ).loc b))

/-- Operand `w`'s block at grid point `t`: the rows of its array that the point works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Operand 0 is only read: whether or not it was copied in afresh at point `t`, its buffer holds its block there
    (a block that is not copied again is one whose position did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Operand 1 is only read: whether or not it was copied in afresh at point `t`, its buffer holds its block there
    (a block that is not copied again is one whose position did not move). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! The body reads and writes every buffer whole: one rectangle per shape, the whole of it. -/

abbrev r1_S10000x64 : Rect S10000x64 := Rect.unit (s := S10000x64) ![0, 0] S10000x64.size inb_S10000x64_S10000x64_0_0
abbrev r1_S1x64 : Rect S1x64 := Rect.unit (s := S1x64) ![0, 0] S1x64.size inb_S1x64_S1x64_0_0

/-- What one grid point leaves in the result's buffer: the body's one store, covering the whole buffer, of the body's
    arithmetic on the operands' blocks. -/
def out1 (x0 : Vec F S10000x64 .f32) (x1 : Vec F S1x64 .f32) : Vec F S10000x64 .f32 :=
  View.canon [⟨r1_S10000x64, k1_pay1 (View.ld x0 r1_S10000x64) (View.ld x1 r1_S1x64)⟩]

/-- The one store covers the result's buffer. -/
theorem cover1 (p0 : Vec F S10000x64 .f32) (y : S10000x64.Idx) :
    ∃ pc ∈ ([⟨r1_S10000x64, p0⟩] : List (View.Piece (Elt F) S10000x64 .f32)), y ∈ pc.1.set :=
  View.cover_of_tiled [⟨r1_S10000x64, p0⟩] S10000x64.size (by rfl) y

set_option maxHeartbeats 4000000 in
/-- One run of the body: the operands' buffers are read and left as they were; the result's buffer, whatever it held,
    ends at `out1` of the operands' contents. -/
theorem sound_kernel1 (c : Dev nD) (E : Set ℕ) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The bookkeeping of this launch on core `c`: the arrays as the launch finds them; after the body at point `t` each
    operand's buffer still at its block and the result's at `out1` of the operands' blocks; nothing owed to another core. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is entered with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any grid point: the operands' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2.lean ====
/-
  The second dense product, `h · W2`, as one launch over ten blocks of 10000 node rows: each grid point reads its block
  of the first layer's activations and the whole of `W2` and writes its block of the product. What one run of the body
  leaves, and the launch's bookkeeping at every grid point, for the buffers' contents `V` at entry.
-/
import proofs.«149904_j79456894976559_1_alg».proof.Proof.Gen.Kernel.Launch
import proofs.«149904_j79456894976559_1_alg».proof.Proof.Gen.Kernel.Skeleton
import proofs.«149904_j79456894976559_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s buffers when this launch is entered: a parameter. -/
variable (V : (c : Dev nD) → (b : Ref sig .tc) → Buf (Elt F) ((c : Thread nD τ).loc b))

/-- Operand `w`'s block at grid point `t`: the rows of its array that the point works on. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Operand 0 is only read: whether or not it was copied in afresh at point `t`, its buffer holds its block there
    (a block that is not copied again is one whose position did not move). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Operand 1 is only read: whether or not it was copied in afresh at point `t`, its buffer holds its block there
    (a block that is not copied again is one whose position did not move). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! The body reads and writes every buffer whole: one rectangle per shape, the whole of it. -/

abbrev r2_S10000x64 : Rect S10000x64 := Rect.unit (s := S10000x64) ![0, 0] S10000x64.size inb_S10000x64_S10000x64_0_0
abbrev r2_S64x32 : Rect S64x32 := Rect.unit (s := S64x32) ![0, 0] S64x32.size inb_S64x32_S64x32_0_0
abbrev r2_S10000x32 : Rect S10000x32 := Rect.unit (s := S10000x32) ![0, 0] S10000x32.size inb_S10000x32_S10000x32_0_0

/-- What one grid point leaves in the result's buffer: the body's one store, covering the whole buffer, of the body's
    arithmetic on the operands' blocks. -/
def out2 (x0 : Vec F S10000x64 .f32) (x1 : Vec F S64x32 .f32) : Vec F S10000x32 .f32 :=
  View.canon [⟨r2_S10000x32, k2_pay1 (View.ld x0 r2_S10000x64) (View.ld x1 r2_S64x32)⟩]

/-- The one store covers the result's buffer. -/
theorem cover2 (p0 : Vec F S10000x32 .f32) (y : S10000x32.Idx) :
    ∃ pc ∈ ([⟨r2_S10000x32, p0⟩] : List (View.Piece (Elt F) S10000x32 .f32)), y ∈ pc.1.set :=
  View.cover_of_tiled [⟨r2_S10000x32, p0⟩] S10000x32.size (by rfl) y

set_option maxHeartbeats 4000000 in
/-- One run of the body: the operands' buffers are read and left as they were; the result's buffer, whatever it held,
    ends at `out2` of the operands' contents. -/
theorem sound_kernel2 (c : Dev nD) (E : Set ℕ) (i : grid2.Coords) (arg1 : Memref sig .tc .vmem S10000x64 .f32) (harg1 : arg1.IsWhole) (arg2 : Memref sig .tc .vmem S64x32 .f32) (harg2 : arg2.IsWhole) (arg3 : Memref sig .tc .vmem S10000x32 .f32) (harg3 : arg3.IsWhole)
    (x0 : Vec F S10000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The bookkeeping of this launch on core `c`: the arrays as the launch finds them; after the body at point `t` each
    operand's buffer still at its block and the result's at `out2` of the operands' blocks; nothing owed to another core. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is entered with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point: the operands' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KReg3.lean ====
/-
  The second layer's epilogue, `max(agg + b2, 0)`, as one launch over ten blocks of 10000 node rows. What one run of the
  body leaves, and the launch's bookkeeping at every grid point, for the buffers' contents `V` at entry.
-/
import proofs.«149904_j79456894976559_1_alg».proof.Proof.Gen.Kernel.Launch
import proofs.«149904_j79456894976559_1_alg».proof.Proof.Gen.Kernel.Skeleton
import proofs.«149904_j79456894976559_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s buffers when this launch is entered: a parameter. -/
variable (V : (c : Dev nD) → (b : Ref sig .tc) → Buf (Elt F) ((c : Thread nD τ).loc b))

/-- Operand `w`'s block at grid point `t`: the rows of its array that the point works on. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Operand 0 is only read: whether or not it was copied in afresh at point `t`, its buffer holds its block there
    (a block that is not copied again is one whose position did not move). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Operand 1 is only read: whether or not it was copied in afresh at point `t`, its buffer holds its block there
    (a block that is not copied again is one whose position did not move). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! The body reads and writes every buffer whole: one rectangle per shape, the whole of it. -/

abbrev r3_S10000x32 : Rect S10000x32 := Rect.unit (s := S10000x32) ![0, 0] S10000x32.size inb_S10000x32_S10000x32_0_0
abbrev r3_S1x32 : Rect S1x32 := Rect.unit (s := S1x32) ![0, 0] S1x32.size inb_S1x32_S1x32_0_0

/-- What one grid point leaves in the result's buffer: the body's one store, covering the whole buffer, of the body's
    arithmetic on the operands' blocks. -/
def out3 (x0 : Vec F S10000x32 .f32) (x1 : Vec F S1x32 .f32) : Vec F S10000x32 .f32 :=
  View.canon [⟨r3_S10000x32, k3_pay1 (View.ld x0 r3_S10000x32) (View.ld x1 r3_S1x32)⟩]

/-- The one store covers the result's buffer. -/
theorem cover3 (p0 : Vec F S10000x32 .f32) (y : S10000x32.Idx) :
    ∃ pc ∈ ([⟨r3_S10000x32, p0⟩] : List (View.Piece (Elt F) S10000x32 .f32)), y ∈ pc.1.set :=
  View.cover_of_tiled [⟨r3_S10000x32, p0⟩] S10000x32.size (by rfl) y

set_option maxHeartbeats 4000000 in
/-- One run of the body: the operands' buffers are read and left as they were; the result's buffer, whatever it held,
    ends at `out3` of the operands' contents. -/
theorem sound_kernel3 (c : Dev nD) (E : Set ℕ) (i : grid3.Coords) (arg1 : Memref sig .tc .vmem S10000x32 .f32) (harg1 : arg1.IsWhole) (arg2 : Memref sig .tc .vmem S1x32 .f32) (harg2 : arg2.IsWhole) (arg3 : Memref sig .tc .vmem S10000x32 .f32) (harg3 : arg3.IsWhole)
    (x0 : Vec F S10000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-- The bookkeeping of this launch on core `c`: the arrays as the launch finds them; after the body at point `t` each
    operand's buffer still at its block and the result's at `out3` of the operands' blocks; nothing owed to another core. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is entered with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any grid point: the operands' buffers hold their blocks, so `sound_kernel3` applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KReg4.lean ====
/-
  The edge network, `max(ef · Wm1 + bm1, 0) · Wm2 + bm2`, as one launch over eighty blocks of 20000 edge rows: each grid
  point reads its block of the edge features and the four small parameter arrays whole and writes its block of the
  scores. What one run of the body leaves, and the launch's bookkeeping at every grid point, for the buffers' contents
  `V` at entry.
-/
import proofs.«149904_j79456894976559_1_alg».proof.Proof.Gen.Kernel.Launch
import proofs.«149904_j79456894976559_1_alg».proof.Proof.Gen.Kernel.Skeleton
import proofs.«149904_j79456894976559_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s buffers when this launch is entered: a parameter. -/
variable (V : (c : Dev nD) → (b : Ref sig .tc) → Buf (Elt F) ((c : Thread nD τ).loc b))

/-- Operand `w`'s block at grid point `t`: the rows of its array that the point works on. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Operand 0 is only read: whether or not it was copied in afresh at point `t`, its buffer holds its block there
    (a block that is not copied again is one whose position did not move). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Operand 1 is only read: whether or not it was copied in afresh at point `t`, its buffer holds its block there
    (a block that is not copied again is one whose position did not move). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Operand 2 is only read: whether or not it was copied in afresh at point `t`, its buffer holds its block there
    (a block that is not copied again is one whose position did not move). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Operand 3 is only read: whether or not it was copied in afresh at point `t`, its buffer holds its block there
    (a block that is not copied again is one whose position did not move). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Operand 4 is only read: whether or not it was copied in afresh at point `t`, its buffer holds its block there
    (a block that is not copied again is one whose position did not move). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! The body reads and writes every buffer whole: one rectangle per shape, the whole of it. -/

abbrev r4_S20000x66 : Rect S20000x66 := Rect.unit (s := S20000x66) ![0, 0] S20000x66.size inb_S20000x66_S20000x66_0_0
abbrev r4_S66x16 : Rect S66x16 := Rect.unit (s := S66x16) ![0, 0] S66x16.size inb_S66x16_S66x16_0_0
abbrev r4_S1x16 : Rect S1x16 := Rect.unit (s := S1x16) ![0, 0] S1x16.size inb_S1x16_S1x16_0_0
abbrev r4_S16x1 : Rect S16x1 := Rect.unit (s := S16x1) ![0, 0] S16x1.size inb_S16x1_S16x1_0_0
abbrev r4_S1x1 : Rect S1x1 := Rect.unit (s := S1x1) ![0, 0] S1x1.size inb_S1x1_S1x1_0_0
abbrev r4_S20000x1 : Rect S20000x1 := Rect.unit (s := S20000x1) ![0, 0] S20000x1.size inb_S20000x1_S20000x1_0_0

/-- What one grid point leaves in the result's buffer: the body's one store, covering the whole buffer, of the body's
    arithmetic on the operands' blocks. -/
def out4 (x0 : Vec F S20000x66 .f32) (x1 : Vec F S66x16 .f32) (x2 : Vec F S1x16 .f32) (x3 : Vec F S16x1 .f32) (x4 : Vec F S1x1 .f32) : Vec F S20000x1 .f32 :=
  View.canon [⟨r4_S20000x1, k4_pay1 (View.ld x0 r4_S20000x66) (View.ld x1 r4_S66x16) (View.ld x2 r4_S1x16) (View.ld x3 r4_S16x1) (View.ld x4 r4_S1x1)⟩]

/-- The one store covers the result's buffer. -/
theorem cover4 (p0 : Vec F S20000x1 .f32) (y : S20000x1.Idx) :
    ∃ pc ∈ ([⟨r4_S20000x1, p0⟩] : List (View.Piece (Elt F) S20000x1 .f32)), y ∈ pc.1.set :=
  View.cover_of_tiled [⟨r4_S20000x1, p0⟩] S20000x1.size (by rfl) y

set_option maxHeartbeats 4000000 in
/-- One run of the body: the operands' buffers are read and left as they were; the result's buffer, whatever it held,
    ends at `out4` of the operands' contents. -/
theorem sound_kernel4 (c : Dev nD) (E : Set ℕ) (i : grid4.Coords) (arg1 : Memref sig .tc .vmem S20000x66 .f32) (harg1 : arg1.IsWhole) (arg2 : Memref sig .tc .vmem S66x16 .f32) (harg2 : arg2.IsWhole) (arg3 : Memref sig .tc .vmem S1x16 .f32) (harg3 : arg3.IsWhole) (arg4 : Memref sig .tc .vmem S16x1 .f32) (harg4 : arg4.IsWhole) (arg5 : Memref sig .tc .vmem S1x1 .f32) (harg5 : arg5.IsWhole) (arg6 : Memref sig .tc .vmem S20000x1 .f32) (harg6 : arg6.IsWhole)
    (x0 : Vec F S20000x66 .f32) (x1 : Vec F S66x16 .f32) (x2 : Vec F S1x16 .f32) (x3 : Vec F S16x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4 x0 x1 x2 x3 x4)) -∗ K ⟨⟩))
      ⊢ wp frame (wpE (defs₀ (F := F)) Variants.none c none) E (cc4__edge_mlp_kernel i arg1 harg1 arg2 harg2 arg3 harg3 arg4 harg4 arg5 harg5 arg6 harg6) K := by
  simp only [cc4__edge_mlp_kernel_eq_skeleton]; unfold cc4__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4 _)

/-- The bookkeeping of this launch on core `c`: the arrays as the launch finds them; after the body at point `t` each
    operand's buffer still at its block and the result's at `out4` of the operands' blocks; nothing owed to another core. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is entered with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any grid point: the operands' buffers hold their blocks, so `sound_kernel4` applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KRun.lean ====
/-
  The whole program as fifteen stretches in order — stretches of host operations and the five kernel launches — and its
  run: the contents of every buffer after each stretch as a fold from the launch memory, each launch entered with the
  buffers at the fold's value and left with its result array at what its grid points wrote back, and from that the run
  of the program to the last value of the fold. No stretch writes an argument array, so the arguments end as launched.
-/
import proofs.«149904_j79456894976559_1_alg».proof.Proof.KReg0
import proofs.«149904_j79456894976559_1_alg».proof.Proof.KReg1
import proofs.«149904_j79456894976559_1_alg».proof.Proof.KReg2
import proofs.«149904_j79456894976559_1_alg».proof.Proof.KReg3
import proofs.«149904_j79456894976559_1_alg».proof.Proof.KReg4
import proofs.«149904_j79456894976559_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the program's fifteen stretches

`W j c` is what core `c`'s buffers hold after the first `j` stretches: the launch memory, then each stretch of host
operations applied in order, and after a kernel launch the launch's arrays at what its grid points wrote back (every
other buffer as it was). -/

abbrev W0 : Dev nD → Valuation τ sig (Elt F) := fun c b => (s₀ m ρ).mem ((c : Dev nD), b)
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h

abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h

/-- The same, read at the TensorCore's references: what launch 0 is entered with. -/
abbrev B3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (B3 m ρ) c).arrAt w cfg0.N
theorem W4_arr (c : Dev nD) (w : Fin cfg0.W) :
    W4 m ρ c (Proc.devRef .tc (Pipeline.arrRef spec0 w)) = (dat0 (B3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- An operand the launch only reads ends as it was. -/
theorem W4_in (c : Dev nD) (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((dat0 (B3 m ρ) c).arrAt_in w hw _).trans (A_eq0 (B3 m ρ) c w))
abbrev B4 : (c : Dev nD) → (b : Ref sig .tc) → Buf (Elt F) ((c : Thread nD τ).loc b) := fun c b => W4 m ρ c b
theorem hF0 (c : Dev nD) (w : Fin cfg0.W) : (dat0 (B3 m ρ) c).arrAt w cfg0.N = B4 m ρ c (Pipeline.arrRef spec0 w) :=
  (W4_arr m ρ c w).symm
theorem hrest0 (c : Dev nD) : ∀ b, b ∉ Finset.univ.image (Pipeline.arrRef spec0) → B4 m ρ c b = B3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h

/-- The same, read at the TensorCore's references: what launch 1 is entered with. -/
abbrev B5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (B5 m ρ) c).arrAt w cfg1.N
theorem W6_arr (c : Dev nD) (w : Fin cfg1.W) :
    W6 m ρ c (Proc.devRef .tc (Pipeline.arrRef spec1 w)) = (dat1 (B5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- An operand the launch only reads ends as it was. -/
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (B5 m ρ) c).arrAt_in w hw _).trans (A_eq1 (B5 m ρ) c w))
abbrev B6 : (c : Dev nD) → (b : Ref sig .tc) → Buf (Elt F) ((c : Thread nD τ).loc b) := fun c b => W6 m ρ c b
theorem hF1 (c : Dev nD) (w : Fin cfg1.W) : (dat1 (B5 m ρ) c).arrAt w cfg1.N = B6 m ρ c (Pipeline.arrRef spec1 w) :=
  (W6_arr m ρ c w).symm
theorem hrest1 (c : Dev nD) : ∀ b, b ∉ Finset.univ.image (Pipeline.arrRef spec1) → B6 m ρ c b = B5 m ρ c b :=
  fun b hb => W6_of_ne m ρ c b fun w e => hb (Finset.mem_image.mpr ⟨w, Finset.mem_univ _, e⟩)

abbrev W7 : Dev nD → Valuation τ sig (Elt F) := fun c => StableHlo.after hostOps2 (W6 m ρ c)
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h

abbrev W8 : Dev nD → Valuation τ sig (Elt F) := fun c => StableHlo.after hostOps2_1 (W7 m ρ c)
theorem W8_of (c : Dev nD) (r : Ref sig .tc) (h : r ∉ hostOps2_1_W) : W8 m ρ c (Proc.devRef .tc r) = W7 m ρ c (Proc.devRef .tc r) :=
  StableHlo.after_of_writes_sub hostOps2_1 _ hostOps2_1_writes h

abbrev W9 : Dev nD → Valuation τ sig (Elt F) := fun c => StableHlo.after hostOps2_2 (W8 m ρ c)
theorem W9_of (c : Dev nD) (r : Ref sig .tc) (h : r ∉ hostOps2_2_W) : W9 m ρ c (Proc.devRef .tc r) = W8 m ρ c (Proc.devRef .tc r) :=
  StableHlo.after_of_writes_sub hostOps2_2 _ hostOps2_2_writes h

/-- The same, read at the TensorCore's references: what launch 2 is entered with. -/
abbrev B9 : (c : Dev nD) → (b : Ref sig .tc) → Buf (Elt F) ((c : Thread nD τ).loc b) := fun c b => W9 m ρ c b
def W10 (c : Dev nD) : Valuation τ sig (Elt F) :=
  Pipeline.withArrays spec2 c (W9 m ρ c) fun w => (dat2 (B9 m ρ) c).arrAt w cfg2.N
theorem W10_arr (c : Dev nD) (w : Fin cfg2.W) :
    W10 m ρ c (Proc.devRef .tc (Pipeline.arrRef spec2 w)) = (dat2 (B9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- An operand the launch only reads ends as it was. -/
theorem W10_in (c : Dev nD) (w : Fin cfg2.W) (hw : (cfg2.win w).isOut = false) :
    W10 m ρ c (Proc.devRef .tc (Pipeline.arrRef spec2 w)) = W9 m ρ c (Proc.devRef .tc (Pipeline.arrRef spec2 w)) :=
  (W10_arr m ρ c w).trans (((dat2 (B9 m ρ) c).arrAt_in w hw _).trans (A_eq2 (B9 m ρ) c w))
abbrev B10 : (c : Dev nD) → (b : Ref sig .tc) → Buf (Elt F) ((c : Thread nD τ).loc b) := fun c b => W10 m ρ c b
theorem hF2 (c : Dev nD) (w : Fin cfg2.W) : (dat2 (B9 m ρ) c).arrAt w cfg2.N = B10 m ρ c (Pipeline.arrRef spec2 w) :=
  (W10_arr m ρ c w).symm
theorem hrest2 (c : Dev nD) : ∀ b, b ∉ Finset.univ.image (Pipeline.arrRef spec2) → B10 m ρ c b = B9 m ρ c b :=
  fun b hb => W10_of_ne m ρ c b fun w e => hb (Finset.mem_image.mpr ⟨w, Finset.mem_univ _, e⟩)

abbrev W11 : Dev nD → Valuation τ sig (Elt F) := fun c => StableHlo.after hostOps3 (W10 m ρ c)
theorem W11_of (c : Dev nD) (r : Ref sig .tc) (h : r ∉ hostOps3_W) : W11 m ρ c (Proc.devRef .tc r) = W10 m ρ c (Proc.devRef .tc r) :=
  StableHlo.after_of_writes_sub hostOps3 _ hostOps3_writes h

/-- The same, read at the TensorCore's references: what launch 3 is entered with. -/
abbrev B11 : (c : Dev nD) → (b : Ref sig .tc) → Buf (Elt F) ((c : Thread nD τ).loc b) := fun c b => W11 m ρ c b
def W12 (c : Dev nD) : Valuation τ sig (Elt F) :=
  Pipeline.withArrays spec3 c (W11 m ρ c) fun w => (dat3 (B11 m ρ) c).arrAt w cfg3.N
theorem W12_arr (c : Dev nD) (w : Fin cfg3.W) :
    W12 m ρ c (Proc.devRef .tc (Pipeline.arrRef spec3 w)) = (dat3 (B11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- An operand the launch only reads ends as it was. -/
theorem W12_in (c : Dev nD) (w : Fin cfg3.W) (hw : (cfg3.win w).isOut = false) :
    W12 m ρ c (Proc.devRef .tc (Pipeline.arrRef spec3 w)) = W11 m ρ c (Proc.devRef .tc (Pipeline.arrRef spec3 w)) :=
  (W12_arr m ρ c w).trans (((dat3 (B11 m ρ) c).arrAt_in w hw _).trans (A_eq3 (B11 m ρ) c w))
abbrev B12 : (c : Dev nD) → (b : Ref sig .tc) → Buf (Elt F) ((c : Thread nD τ).loc b) := fun c b => W12 m ρ c b
theorem hF3 (c : Dev nD) (w : Fin cfg3.W) : (dat3 (B11 m ρ) c).arrAt w cfg3.N = B12 m ρ c (Pipeline.arrRef spec3 w) :=
  (W12_arr m ρ c w).symm
theorem hrest3 (c : Dev nD) : ∀ b, b ∉ Finset.univ.image (Pipeline.arrRef spec3) → B12 m ρ c b = B11 m ρ c b :=
  fun b hb => W12_of_ne m ρ c b fun w e => hb (Finset.mem_image.mpr ⟨w, Finset.mem_univ _, e⟩)

abbrev W13 : Dev nD → Valuation τ sig (Elt F) := fun c => StableHlo.after hostOps4 (W12 m ρ c)
theorem W13_of (c : Dev nD) (r : Ref sig .tc) (h : r ∉ hostOps4_W) : W13 m ρ c (Proc.devRef .tc r) = W12 m ρ c (Proc.devRef .tc r) :=
  StableHlo.after_of_writes_sub hostOps4 _ hostOps4_writes h

/-- The same, read at the TensorCore's references: what launch 4 is entered with. -/
abbrev B13 : (c : Dev nD) → (b : Ref sig .tc) → Buf (Elt F) ((c : Thread nD τ).loc b) := fun c b => W13 m ρ c b
def W14 (c : Dev nD) : Valuation τ sig (Elt F) :=
  Pipeline.withArrays spec4 c (W13 m ρ c) fun w => (dat4 (B13 m ρ) c).arrAt w cfg4.N
theorem W14_arr (c : Dev nD) (w : Fin cfg4.W) :
    W14 m ρ c (Proc.devRef .tc (Pipeline.arrRef spec4 w)) = (dat4 (B13 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
/-- An operand the launch only reads ends as it was. -/
theorem W14_in (c : Dev nD) (w : Fin cfg4.W) (hw : (cfg4.win w).isOut = false) :
    W14 m ρ c (Proc.devRef .tc (Pipeline.arrRef spec4 w)) = W13 m ρ c (Proc.devRef .tc (Pipeline.arrRef spec4 w)) :=
  (W14_arr m ρ c w).trans (((dat4 (B13 m ρ) c).arrAt_in w hw _).trans (A_eq4 (B13 m ρ) c w))
abbrev B14 : (c : Dev nD) → (b : Ref sig .tc) → Buf (Elt F) ((c : Thread nD τ).loc b) := fun c b => W14 m ρ c b
theorem hF4 (c : Dev nD) (w : Fin cfg4.W) : (dat4 (B13 m ρ) c).arrAt w cfg4.N = B14 m ρ c (Pipeline.arrRef spec4 w) :=
  (W14_arr m ρ c w).symm
theorem hrest4 (c : Dev nD) : ∀ b, b ∉ Finset.univ.image (Pipeline.arrRef spec4) → B14 m ρ c b = B13 m ρ c b :=
  fun b hb => W14_of_ne m ρ c b fun w e => hb (Finset.mem_image.mpr ⟨w, Finset.mem_univ _, e⟩)

abbrev W15 : Dev nD → Valuation τ sig (Elt F) := fun c => StableHlo.after hostOps5 (W14 m ρ c)
theorem W15_of (c : Dev nD) (r : Ref sig .tc) (h : r ∉ hostOps5_W) : W15 m ρ c (Proc.devRef .tc r) = W14 m ρ c (Proc.devRef .tc r) :=
  StableHlo.after_of_writes_sub hostOps5 _ hostOps5_writes h

/-! ## No stretch changes an argument array -/

theorem W15_main_arg0 (c : Dev nD) : W15 m ρ c (Proc.devRef .tc main_arg0) = m ((c : Thread nD τ).loc main_arg0) :=
  (W15_of m ρ c main_arg0 (by decide)).trans <|
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of m ρ c main_arg0 (by decide)).trans <|
  (W7_of m ρ c main_arg0 (by decide)).trans <|
  (W6_of_ne m ρ c main_arg0 (by decide)).trans <|
  (W5_of m ρ c main_arg0 (by decide)).trans <|
  (W4_in m ρ c 0 rfl : W4 m ρ c (Proc.devRef .tc main_arg0) = W3 m ρ c (Proc.devRef .tc main_arg0)).trans <|
  (W3_of m ρ c main_arg0 (by decide)).trans <|
  (W2_of m ρ c main_arg0 (by decide)).trans <|
  (W1_of m ρ c main_arg0 (by decide)).trans <| rfl

theorem W15_main_arg1 (c : Dev nD) : W15 m ρ c (Proc.devRef .tc main_arg1) = m ((c : Thread nD τ).loc main_arg1) :=
  (W15_of m ρ c main_arg1 (by decide)).trans <|
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of m ρ c main_arg1 (by decide)).trans <|
  (W1_of m ρ c main_arg1 (by decide)).trans <| rfl

theorem W15_main_arg2 (c : Dev nD) : W15 m ρ c (Proc.devRef .tc main_arg2) = m ((c : Thread nD τ).loc main_arg2) :=
  (W15_of m ρ c main_arg2 (by decide)).trans <|
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of m ρ c main_arg2 (by decide)).trans <|
  (W1_of m ρ c main_arg2 (by decide)).trans <| rfl

theorem W15_main_arg3 (c : Dev nD) : W15 m ρ c (Proc.devRef .tc main_arg3) = m ((c : Thread nD τ).loc main_arg3) :=
  (W15_of m ρ c main_arg3 (by decide)).trans <|
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of m ρ c main_arg3 (by decide)).trans <|
  (W7_of m ρ c main_arg3 (by decide)).trans <|
  (W6_of_ne m ρ c main_arg3 (by decide)).trans <|
  (W5_of m ρ c main_arg3 (by decide)).trans <|
  (W4_in m ρ c 1 rfl : W4 m ρ c (Proc.devRef .tc main_arg3) = W3 m ρ c (Proc.devRef .tc main_arg3)).trans <|
  (W3_of m ρ c main_arg3 (by decide)).trans <|
  (W2_of m ρ c main_arg3 (by decide)).trans <|
  (W1_of m ρ c main_arg3 (by decide)).trans <| rfl

theorem W15_main_arg4 (c : Dev nD) : W15 m ρ c (Proc.devRef .tc main_arg4) = m ((c : Thread nD τ).loc main_arg4) :=
  (W15_of m ρ c main_arg4 (by decide)).trans <|
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of m ρ c main_arg4 (by decide)).trans <|
  (W1_of m ρ c main_arg4 (by decide)).trans <| rfl

theorem W15_main_arg5 (c : Dev nD) : W15 m ρ c (Proc.devRef .tc main_arg5) = m ((c : Thread nD τ).loc main_arg5) :=
  (W15_of m ρ c main_arg5 (by decide)).trans <|
  (W14_of_ne m ρ c main_arg5 (by decide)).trans <|
  (W13_of m ρ c main_arg5 (by decide)).trans <|
  (W12_of_ne m ρ c main_arg5 (by decide)).trans <|
  (W11_of m ρ c main_arg5 (by decide)).trans <|
  (W10_in m ρ c 1 rfl : W10 m ρ c (Proc.devRef .tc main_arg5) = W9 m ρ c (Proc.devRef .tc main_arg5)).trans <|
  (W9_of m ρ c main_arg5 (by decide)).trans <|
  (W8_of m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of m ρ c main_arg5 (by decide)).trans <|
  (W1_of m ρ c main_arg5 (by decide)).trans <| rfl

theorem W15_main_arg6 (c : Dev nD) : W15 m ρ c (Proc.devRef .tc main_arg6) = m ((c : Thread nD τ).loc main_arg6) :=
  (W15_of m ρ c main_arg6 (by decide)).trans <|
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of m ρ c main_arg6 (by decide)).trans <|
  (W1_of m ρ c main_arg6 (by decide)).trans <| rfl

theorem W15_main_arg7 (c : Dev nD) : W15 m ρ c (Proc.devRef .tc main_arg7) = m ((c : Thread nD τ).loc main_arg7) :=
  (W15_of m ρ c main_arg7 (by decide)).trans <|
  (W14_in m ρ c 1 rfl : W14 m ρ c (Proc.devRef .tc main_arg7) = W13 m ρ c (Proc.devRef .tc main_arg7)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of m ρ c main_arg7 (by decide)).trans <|
  (W1_of m ρ c main_arg7 (by decide)).trans <| rfl

theorem W15_main_arg8 (c : Dev nD) : W15 m ρ c (Proc.devRef .tc main_arg8) = m ((c : Thread nD τ).loc main_arg8) :=
  (W15_of m ρ c main_arg8 (by decide)).trans <|
  (W14_of_ne m ρ c main_arg8 (by decide)).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of m ρ c main_arg8 (by decide)).trans <|
  (W1_of m ρ c main_arg8 (by decide)).trans <| rfl

theorem W15_main_arg9 (c : Dev nD) : W15 m ρ c (Proc.devRef .tc main_arg9) = m ((c : Thread nD τ).loc main_arg9) :=
  (W15_of m ρ c main_arg9 (by decide)).trans <|
  (W14_in m ρ c 3 rfl : W14 m ρ c (Proc.devRef .tc main_arg9) = W13 m ρ c (Proc.devRef .tc main_arg9)).trans <|
  (W13_of m ρ c main_arg9 (by decide)).trans <|
  (W12_of_ne m ρ c main_arg9 (by decide)).trans <|
  (W11_of m ρ c main_arg9 (by decide)).trans <|
  (W10_of_ne m ρ c main_arg9 (by decide)).trans <|
  (W9_of m ρ c main_arg9 (by decide)).trans <|
  (W8_of m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of m ρ c main_arg9 (by decide)).trans <|
  (W1_of m ρ c main_arg9 (by decide)).trans <| rfl

theorem W15_main_arg10 (c : Dev nD) : W15 m ρ c (Proc.devRef .tc main_arg10) = m ((c : Thread nD τ).loc main_arg10) :=
  (W15_of m ρ c main_arg10 (by decide)).trans <|
  (W14_of_ne m ρ c main_arg10 (by decide)).trans <|
  (W13_of m ρ c main_arg10 (by decide)).trans <|
  (W12_of_ne m ρ c main_arg10 (by decide)).trans <|
  (W11_of m ρ c main_arg10 (by decide)).trans <|
  (W10_of_ne m ρ c main_arg10 (by decide)).trans <|
  (W9_of m ρ c main_arg10 (by decide)).trans <|
  (W8_of m ρ c main_arg10 (by decide)).trans <|
  (W7_of m ρ c main_arg10 (by decide)).trans <|
  (W6_of_ne m ρ c main_arg10 (by decide)).trans <|
  (W5_of m ρ c main_arg10 (by decide)).trans <|
  (W4_of_ne m ρ c main_arg10 (by decide)).trans <|
  (W3_of m ρ c main_arg10 (by decide)).trans <|
  (W2_of m ρ c main_arg10 (by decide)).trans <|
  (W1_of m ρ c main_arg10 (by decide)).trans <| rfl

/-! ## The launches' bookkeeping as one family, and what rides along -/

abbrev admH : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) admH p) c
  | ⟨0, _⟩ => fun c => dat0 (B3 m ρ) c
  | ⟨1, _⟩ => fun c => dat1 (B5 m ρ) c
  | ⟨2, _⟩ => fun c => dat2 (B9 m ρ) c
  | ⟨3, _⟩ => fun c => dat3 (B11 m ρ) c
  | ⟨4, _⟩ => fun c => dat4 (B13 m ρ) c
abbrev 𝒱h : Variants := Variants.none
abbrev Lh : GSem nD τ sig → Finset Unit := fun _ => ∅
abbrev lvh : GSem nD τ sig → Unit → ℕ := fun _ _ => 0
/-- Beside the buffers, through every stretch: the core's random-number register at some state, and the core owing nothing. -/
abbrev Rest (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Each launch as a stretch: entered with every buffer at `W (j-1)`, left with every buffer at `W j` -/

set_option backward.isDefEq.respectTransparency.types false in
def reg0 : Pipeline.RegionSeg (pcfgs (F := F)) admH (pdats m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (B3 m ρ) c).loose
  hwaits := Pipeline.hwaits_of_owed_zero _ _ _ _ Lh lvh 0 fun _ _ => rfl
  pre c := iprop(StableHlo.held (c : Thread nD τ) (Pipeline.ucRefs τ sig) (W3 m ρ c) ∗ Rest c)
  post c := iprop(StableHlo.held (c : Thread nD τ) (Pipeline.ucRefs τ sig) (W4 m ρ c) ∗ Rest c)
  X c := iprop(∃ r, prngReg c r)
  Y c := iprop(∃ r, prngReg c r)
  Z c := Pipeline.unscopedRest (Ix := Unit) (Name := ℕ) (U := UR sig nD τ) (Lvl := ℕ) spec0 c (B3 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (B3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (B3 m ρ c) (B4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admH (pdats m ρ) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (B5 m ρ) c).loose
  hwaits := Pipeline.hwaits_of_owed_zero _ _ _ _ Lh lvh 1 fun _ _ => rfl
  pre c := iprop(StableHlo.held (c : Thread nD τ) (Pipeline.ucRefs τ sig) (W5 m ρ c) ∗ Rest c)
  post c := iprop(StableHlo.held (c : Thread nD τ) (Pipeline.ucRefs τ sig) (W6 m ρ c) ∗ Rest c)
  X c := iprop(∃ r, prngReg c r)
  Y c := iprop(∃ r, prngReg c r)
  Z c := Pipeline.unscopedRest (Ix := Unit) (Name := ℕ) (U := UR sig nD τ) (Lvl := ℕ) spec1 c (B5 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (B5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (B5 m ρ c) (B6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) admH (pdats m ρ) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (B9 m ρ) c).loose
  hwaits := Pipeline.hwaits_of_owed_zero _ _ _ _ Lh lvh 2 fun _ _ => rfl
  pre c := iprop(StableHlo.held (c : Thread nD τ) (Pipeline.ucRefs τ sig) (W9 m ρ c) ∗ Rest c)
  post c := iprop(StableHlo.held (c : Thread nD τ) (Pipeline.ucRefs τ sig) (W10 m ρ c) ∗ Rest c)
  X c := iprop(∃ r, prngReg c r)
  Y c := iprop(∃ r, prngReg c r)
  Z c := Pipeline.unscopedRest (Ix := Unit) (Name := ℕ) (U := UR sig nD τ) (Lvl := ℕ) spec2 c (B9 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (B9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (B9 m ρ c) (B10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) admH (pdats m ρ) () defs₀ 𝒱h Lh lvh 3 where
  win := launch3.win.to₀
  block_pos := launch3.block_pos
  stage_whole := launch3.stage_whole
  K := PEmpty
  osem k := k.elim
  ho := Pipeline.OwnSemFacts.none _
  hbody c := (body_obligation3 (B11 m ρ) c).loose
  hwaits := Pipeline.hwaits_of_owed_zero _ _ _ _ Lh lvh 3 fun _ _ => rfl
  pre c := iprop(StableHlo.held (c : Thread nD τ) (Pipeline.ucRefs τ sig) (W11 m ρ c) ∗ Rest c)
  post c := iprop(StableHlo.held (c : Thread nD τ) (Pipeline.ucRefs τ sig) (W12 m ρ c) ∗ Rest c)
  X c := iprop(∃ r, prngReg c r)
  Y c := iprop(∃ r, prngReg c r)
  Z c := Pipeline.unscopedRest (Ix := Unit) (Name := ℕ) (U := UR sig nD τ) (Lvl := ℕ) spec3 c (B11 m ρ c)
  hentry c := by
    rw [Pipeline.ownSems0_none]
    have hsplit := Pipeline.arrays_of_unscopedBufs (p := 3) (pcfgs (F := F)) admH (pdats m ρ) launch3.win launch3.arr_whole c
      ((pdats m ρ 3 c).share_full fun _ => rfl) (B11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m ρ) ((pdats m ρ 3 c).share_full fun _ => rfl)
      (B11 m ρ c) (B12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) admH (pdats m ρ) () defs₀ 𝒱h Lh lvh 4 where
  win := launch4.win.to₀
  block_pos := launch4.block_pos
  stage_whole := launch4.stage_whole
  K := PEmpty
  osem k := k.elim
  ho := Pipeline.OwnSemFacts.none _
  hbody c := (body_obligation4 (B13 m ρ) c).loose
  hwaits := Pipeline.hwaits_of_owed_zero _ _ _ _ Lh lvh 4 fun _ _ => rfl
  pre c := iprop(StableHlo.held (c : Thread nD τ) (Pipeline.ucRefs τ sig) (W13 m ρ c) ∗ Rest c)
  post c := iprop(StableHlo.held (c : Thread nD τ) (Pipeline.ucRefs τ sig) (W14 m ρ c) ∗ Rest c)
  X c := iprop(∃ r, prngReg c r)
  Y c := iprop(∃ r, prngReg c r)
  Z c := Pipeline.unscopedRest (Ix := Unit) (Name := ℕ) (U := UR sig nD τ) (Lvl := ℕ) spec4 c (B13 m ρ c)
  hentry c := by
    rw [Pipeline.ownSems0_none]
    have hsplit := Pipeline.arrays_of_unscopedBufs (p := 4) (pcfgs (F := F)) admH (pdats m ρ) launch4.win launch4.arr_whole c
      ((pdats m ρ 4 c).share_full fun _ => rfl) (B13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m ρ) ((pdats m ρ 4 c).share_full fun _ => rfl)
      (B13 m ρ c) (B14 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its fifteen stretches, and its run -/

abbrev segs : List (Pipeline.Seg (pcfgs (F := F)) admH (pdats m ρ) () defs₀ 𝒱h Lh lvh) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .host (hseg hostOps2_1 hostOps2_1_sub hostOps2_1_fresh (W7 m ρ)),
    .host (hseg hostOps2_2 hostOps2_2_sub hostOps2_2_fresh (W8 m ρ)),
    .region (reg2 m ρ),
    .host (hseg hostOps3 hostOps3_sub hostOps3_fresh (W10 m ρ)),
    .region (reg3 m ρ),
    .host (hseg hostOps4 hostOps4_sub hostOps4_fresh (W12 m ρ)),
    .region (reg4 m ρ),
    .host (hseg hostOps5 hostOps5_sub hostOps5_fresh (W14 m ρ)) ]

set_option backward.isDefEq.respectTransparency.types false in
/-- From any memory with zero counters every weakly fair execution of the program terminates, nothing faulting, and
    every core ends with every buffer at `W15`: the fold of the fifteen stretches over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) admH (pdats m ρ) () cellOf_inj emb₁ defs₀ 𝒱h Lh lvh m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := fun c => StableHlo.held (c : Thread nD τ) (Pipeline.ucRefs τ sig) (W15 m ρ c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach Lh lvh fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      unfold StableHlo.held
      iintro ⟨Hh, HSI⟩
      imodintro
      iapply (pointsTo_read_all (Pipeline.ucRefs τ sig) (fun b => (((c : Thread nD τ)).1, b)) (W15 m ρ c) s')
      isplitl [Hh] <;> iassumption)
    (hQ := fun s h => h)

/-- The frame: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W15_main_arg0 m ρ c),
    (h c _ (mem_uc main_arg1 (by decide))).trans (W15_main_arg1 m ρ c),
    (h c _ (mem_uc main_arg2 (by decide))).trans (W15_main_arg2 m ρ c),
    (h c _ (mem_uc main_arg3 (by decide))).trans (W15_main_arg3 m ρ c),
    (h c _ (mem_uc main_arg4 (by decide))).trans (W15_main_arg4 m ρ c),
    (h c _ (mem_uc main_arg5 (by decide))).trans (W15_main_arg5 m ρ c),
    (h c _ (mem_uc main_arg6 (by decide))).trans (W15_main_arg6 m ρ c),
    (h c _ (mem_uc main_arg7 (by decide))).trans (W15_main_arg7 m ρ c),
    (h c _ (mem_uc main_arg8 (by decide))).trans (W15_main_arg8 m ρ c),
    (h c _ (mem_uc main_arg9 (by decide))).trans (W15_main_arg9 m ρ c),
    (h c _ (mem_uc main_arg10 (by decide))).trans (W15_main_arg10 m ρ c)⟩) (run_all m ρ)

end Cert.Kernel.Hand

end
-- ==== Proof.KIReg0.lean ====
/-
  The first dense product, `x · W1`, as one launch over ten blocks of 10000 node rows: each grid point reads its block of
  `x` and the whole of `W1` and writes its block of the product. This module states what one run of the body leaves
  (the product of the two blocks, into a zero accumulator) and that the launch's bookkeeping is met at every grid point,
  for the buffers' contents `V` at the moment the launch is entered, whatever they are.
-/
import proofs.«149904_j79456894976559_1_alg».proof.Proof.Gen.KernelIdeal.Launch
import proofs.«149904_j79456894976559_1_alg».proof.Proof.Gen.KernelIdeal.Skeleton
import proofs.«149904_j79456894976559_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s buffers when this launch is entered: a parameter. -/
variable (V : (c : Dev nD) → (b : Ref sig .tc) → Buf (Elt F) ((c : Thread nD τ).loc b))

/-- Operand `w`'s block at grid point `t`: the rows of its array that the point works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand 0 is only read: whether or not it was copied in afresh at point `t`, its buffer holds its block there
    (a block that is not copied again is one whose position did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Operand 1 is only read: whether or not it was copied in afresh at point `t`, its buffer holds its block there
    (a block that is not copied again is one whose position did not move). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! The body reads and writes every buffer whole: one rectangle per shape, the whole of it. -/

abbrev r0_S10000x2 : Rect S10000x2 := Rect.unit (s := S10000x2) ![0, 0] S10000x2.size inb_S10000x2_S10000x2_0_0
abbrev r0_S2x64 : Rect S2x64 := Rect.unit (s := S2x64) ![0, 0] S2x64.size inb_S2x64_S2x64_0_0
abbrev r0_S10000x64 : Rect S10000x64 := Rect.unit (s := S10000x64) ![0, 0] S10000x64.size inb_S10000x64_S10000x64_0_0

/-- What one grid point leaves in the result's buffer: the body's one store, covering the whole buffer, of the body's
    arithmetic on the operands' blocks. -/
def out0 (x0 : Vec F S10000x2 .f32) (x1 : Vec F S2x64 .f32) : Vec F S10000x64 .f32 :=
  View.canon [⟨r0_S10000x64, k0_pay1 (View.ld x0 r0_S10000x2) (View.ld x1 r0_S2x64)⟩]

/-- The one store covers the result's buffer. -/
theorem cover0 (p0 : Vec F S10000x64 .f32) (y : S10000x64.Idx) :
    ∃ pc ∈ ([⟨r0_S10000x64, p0⟩] : List (View.Piece (Elt F) S10000x64 .f32)), y ∈ pc.1.set :=
  View.cover_of_tiled [⟨r0_S10000x64, p0⟩] S10000x64.size (by rfl) y

set_option maxHeartbeats 4000000 in
/-- One run of the body: the operands' buffers are read and left as they were; the result's buffer, whatever it held,
    ends at `out0` of the operands' contents. -/
theorem sound_kernel0 (c : Dev nD) (E : Set ℕ) (i : grid0.Coords) (arg1 : Memref sig .tc .vmem S10000x2 .f32) (harg1 : arg1.IsWhole) (arg2 : Memref sig .tc .vmem S2x64 .f32) (harg2 : arg2.IsWhole) (arg3 : Memref sig .tc .vmem S10000x64 .f32) (harg3 : arg3.IsWhole)
    (x0 : Vec F S10000x2 .f32) (x1 : Vec F S2x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The bookkeeping of this launch on core `c`: the arrays as the launch finds them; after the body at point `t` each
    operand's buffer still at its block and the result's at `out0` of the operands' blocks; nothing owed to another core. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is entered with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the operands' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1.lean ====
/-
  The first layer's epilogue, `max(agg + b1, 0)`, as one launch over ten blocks of 10000 node rows: each grid point reads
  its block of the aggregated messages and the bias row and writes its block of the activations. What one run of the
  body leaves, and the launch's bookkeeping at every grid point, for the buffers' contents `V` at entry.
-/
import proofs.«149904_j79456894976559_1_alg».proof.Proof.Gen.KernelIdeal.Launch
import proofs.«149904_j79456894976559_1_alg».proof.Proof.Gen.KernelIdeal.Skeleton
import proofs.«149904_j79456894976559_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s buffers when this launch is entered: a parameter. -/
variable (V : (c : Dev nD) → (b : Ref sig .tc) → Buf (Elt F) ((c : Thread nD τ).loc b))

/-- Operand `w`'s block at grid point `t`: the rows of its array that the point works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Operand 0 is only read: whether or not it was copied in afresh at point `t`, its buffer holds its block there
    (a block that is not copied again is one whose position did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Operand 1 is only read: whether or not it was copied in afresh at point `t`, its buffer holds its block there
    (a block that is not copied again is one whose position did not move). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! The body reads and writes every buffer whole: one rectangle per shape, the whole of it. -/

abbrev r1_S10000x64 : Rect S10000x64 := Rect.unit (s := S10000x64) ![0, 0] S10000x64.size inb_S10000x64_S10000x64_0_0
abbrev r1_S1x64 : Rect S1x64 := Rect.unit (s := S1x64) ![0, 0] S1x64.size inb_S1x64_S1x64_0_0

/-- What one grid point leaves in the result's buffer: the body's one store, covering the whole buffer, of the body's
    arithmetic on the operands' blocks. -/
def out1 (x0 : Vec F S10000x64 .f32) (x1 : Vec F S1x64 .f32) : Vec F S10000x64 .f32 :=
  View.canon [⟨r1_S10000x64, k1_pay1 (View.ld x0 r1_S10000x64) (View.ld x1 r1_S1x64)⟩]

/-- The one store covers the result's buffer. -/
theorem cover1 (p0 : Vec F S10000x64 .f32) (y : S10000x64.Idx) :
    ∃ pc ∈ ([⟨r1_S10000x64, p0⟩] : List (View.Piece (Elt F) S10000x64 .f32)), y ∈ pc.1.set :=
  View.cover_of_tiled [⟨r1_S10000x64, p0⟩] S10000x64.size (by rfl) y

set_option maxHeartbeats 4000000 in
/-- One run of the body: the operands' buffers are read and left as they were; the result's buffer, whatever it held,
    ends at `out1` of the operands' contents. -/
theorem sound_kernel1 (c : Dev nD) (E : Set ℕ) (i : grid1.Coords) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The bookkeeping of this launch on core `c`: the arrays as the launch finds them; after the body at point `t` each
    operand's buffer still at its block and the result's at `out1` of the operands' blocks; nothing owed to another core. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is entered with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any grid point: the operands' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIReg2.lean ====
/-
  The second dense product, `h · W2`, as one launch over ten blocks of 10000 node rows: each grid point reads its block
  of the first layer's activations and the whole of `W2` and writes its block of the product. What one run of the body
  leaves, and the launch's bookkeeping at every grid point, for the buffers' contents `V` at entry.
-/
import proofs.«149904_j79456894976559_1_alg».proof.Proof.Gen.KernelIdeal.Launch
import proofs.«149904_j79456894976559_1_alg».proof.Proof.Gen.KernelIdeal.Skeleton
import proofs.«149904_j79456894976559_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s buffers when this launch is entered: a parameter. -/
variable (V : (c : Dev nD) → (b : Ref sig .tc) → Buf (Elt F) ((c : Thread nD τ).loc b))

/-- Operand `w`'s block at grid point `t`: the rows of its array that the point works on. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Operand 0 is only read: whether or not it was copied in afresh at point `t`, its buffer holds its block there
    (a block that is not copied again is one whose position did not move). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Operand 1 is only read: whether or not it was copied in afresh at point `t`, its buffer holds its block there
    (a block that is not copied again is one whose position did not move). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! The body reads and writes every buffer whole: one rectangle per shape, the whole of it. -/

abbrev r2_S10000x64 : Rect S10000x64 := Rect.unit (s := S10000x64) ![0, 0] S10000x64.size inb_S10000x64_S10000x64_0_0
abbrev r2_S64x32 : Rect S64x32 := Rect.unit (s := S64x32) ![0, 0] S64x32.size inb_S64x32_S64x32_0_0
abbrev r2_S10000x32 : Rect S10000x32 := Rect.unit (s := S10000x32) ![0, 0] S10000x32.size inb_S10000x32_S10000x32_0_0

/-- What one grid point leaves in the result's buffer: the body's one store, covering the whole buffer, of the body's
    arithmetic on the operands' blocks. -/
def out2 (x0 : Vec F S10000x64 .f32) (x1 : Vec F S64x32 .f32) : Vec F S10000x32 .f32 :=
  View.canon [⟨r2_S10000x32, k2_pay1 (View.ld x0 r2_S10000x64) (View.ld x1 r2_S64x32)⟩]

/-- The one store covers the result's buffer. -/
theorem cover2 (p0 : Vec F S10000x32 .f32) (y : S10000x32.Idx) :
    ∃ pc ∈ ([⟨r2_S10000x32, p0⟩] : List (View.Piece (Elt F) S10000x32 .f32)), y ∈ pc.1.set :=
  View.cover_of_tiled [⟨r2_S10000x32, p0⟩] S10000x32.size (by rfl) y

set_option maxHeartbeats 4000000 in
/-- One run of the body: the operands' buffers are read and left as they were; the result's buffer, whatever it held,
    ends at `out2` of the operands' contents. -/
theorem sound_kernel2 (c : Dev nD) (E : Set ℕ) (i : grid2.Coords) (arg1 : Memref sig .tc .vmem S10000x64 .f32) (harg1 : arg1.IsWhole) (arg2 : Memref sig .tc .vmem S64x32 .f32) (harg2 : arg2.IsWhole) (arg3 : Memref sig .tc .vmem S10000x32 .f32) (harg3 : arg3.IsWhole)
    (x0 : Vec F S10000x64 .f32) (x1 : Vec F S64x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The bookkeeping of this launch on core `c`: the arrays as the launch finds them; after the body at point `t` each
    operand's buffer still at its block and the result's at `out2` of the operands' blocks; nothing owed to another core. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is entered with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point: the operands' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIReg3.lean ====
/-
  The second layer's epilogue, `max(agg + b2, 0)`, as one launch over ten blocks of 10000 node rows. What one run of the
  body leaves, and the launch's bookkeeping at every grid point, for the buffers' contents `V` at entry.
-/
import proofs.«149904_j79456894976559_1_alg».proof.Proof.Gen.KernelIdeal.Launch
import proofs.«149904_j79456894976559_1_alg».proof.Proof.Gen.KernelIdeal.Skeleton
import proofs.«149904_j79456894976559_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s buffers when this launch is entered: a parameter. -/
variable (V : (c : Dev nD) → (b : Ref sig .tc) → Buf (Elt F) ((c : Thread nD τ).loc b))

/-- Operand `w`'s block at grid point `t`: the rows of its array that the point works on. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Operand 0 is only read: whether or not it was copied in afresh at point `t`, its buffer holds its block there
    (a block that is not copied again is one whose position did not move). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Operand 1 is only read: whether or not it was copied in afresh at point `t`, its buffer holds its block there
    (a block that is not copied again is one whose position did not move). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! The body reads and writes every buffer whole: one rectangle per shape, the whole of it. -/

abbrev r3_S10000x32 : Rect S10000x32 := Rect.unit (s := S10000x32) ![0, 0] S10000x32.size inb_S10000x32_S10000x32_0_0
abbrev r3_S1x32 : Rect S1x32 := Rect.unit (s := S1x32) ![0, 0] S1x32.size inb_S1x32_S1x32_0_0

/-- What one grid point leaves in the result's buffer: the body's one store, covering the whole buffer, of the body's
    arithmetic on the operands' blocks. -/
def out3 (x0 : Vec F S10000x32 .f32) (x1 : Vec F S1x32 .f32) : Vec F S10000x32 .f32 :=
  View.canon [⟨r3_S10000x32, k3_pay1 (View.ld x0 r3_S10000x32) (View.ld x1 r3_S1x32)⟩]

/-- The one store covers the result's buffer. -/
theorem cover3 (p0 : Vec F S10000x32 .f32) (y : S10000x32.Idx) :
    ∃ pc ∈ ([⟨r3_S10000x32, p0⟩] : List (View.Piece (Elt F) S10000x32 .f32)), y ∈ pc.1.set :=
  View.cover_of_tiled [⟨r3_S10000x32, p0⟩] S10000x32.size (by rfl) y

set_option maxHeartbeats 4000000 in
/-- One run of the body: the operands' buffers are read and left as they were; the result's buffer, whatever it held,
    ends at `out3` of the operands' contents. -/
theorem sound_kernel3 (c : Dev nD) (E : Set ℕ) (i : grid3.Coords) (arg1 : Memref sig .tc .vmem S10000x32 .f32) (harg1 : arg1.IsWhole) (arg2 : Memref sig .tc .vmem S1x32 .f32) (harg2 : arg2.IsWhole) (arg3 : Memref sig .tc .vmem S10000x32 .f32) (harg3 : arg3.IsWhole)
    (x0 : Vec F S10000x32 .f32) (x1 : Vec F S1x32 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3 _)

/-- The bookkeeping of this launch on core `c`: the arrays as the launch finds them; after the body at point `t` each
    operand's buffer still at its block and the result's at `out3` of the operands' blocks; nothing owed to another core. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is entered with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any grid point: the operands' buffers hold their blocks, so `sound_kernel3` applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIReg4.lean ====
/-
  The edge network, `max(ef · Wm1 + bm1, 0) · Wm2 + bm2`, as one launch over eighty blocks of 20000 edge rows: each grid
  point reads its block of the edge features and the four small parameter arrays whole and writes its block of the
  scores. What one run of the body leaves, and the launch's bookkeeping at every grid point, for the buffers' contents
  `V` at entry.
-/
import proofs.«149904_j79456894976559_1_alg».proof.Proof.Gen.KernelIdeal.Launch
import proofs.«149904_j79456894976559_1_alg».proof.Proof.Gen.KernelIdeal.Skeleton
import proofs.«149904_j79456894976559_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s buffers when this launch is entered: a parameter. -/
variable (V : (c : Dev nD) → (b : Ref sig .tc) → Buf (Elt F) ((c : Thread nD τ).loc b))

/-- Operand `w`'s block at grid point `t`: the rows of its array that the point works on. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Operand 0 is only read: whether or not it was copied in afresh at point `t`, its buffer holds its block there
    (a block that is not copied again is one whose position did not move). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Operand 1 is only read: whether or not it was copied in afresh at point `t`, its buffer holds its block there
    (a block that is not copied again is one whose position did not move). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Operand 2 is only read: whether or not it was copied in afresh at point `t`, its buffer holds its block there
    (a block that is not copied again is one whose position did not move). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Operand 3 is only read: whether or not it was copied in afresh at point `t`, its buffer holds its block there
    (a block that is not copied again is one whose position did not move). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Operand 4 is only read: whether or not it was copied in afresh at point `t`, its buffer holds its block there
    (a block that is not copied again is one whose position did not move). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! The body reads and writes every buffer whole: one rectangle per shape, the whole of it. -/

abbrev r4_S20000x66 : Rect S20000x66 := Rect.unit (s := S20000x66) ![0, 0] S20000x66.size inb_S20000x66_S20000x66_0_0
abbrev r4_S66x16 : Rect S66x16 := Rect.unit (s := S66x16) ![0, 0] S66x16.size inb_S66x16_S66x16_0_0
abbrev r4_S1x16 : Rect S1x16 := Rect.unit (s := S1x16) ![0, 0] S1x16.size inb_S1x16_S1x16_0_0
abbrev r4_S16x1 : Rect S16x1 := Rect.unit (s := S16x1) ![0, 0] S16x1.size inb_S16x1_S16x1_0_0
abbrev r4_S1x1 : Rect S1x1 := Rect.unit (s := S1x1) ![0, 0] S1x1.size inb_S1x1_S1x1_0_0
abbrev r4_S20000x1 : Rect S20000x1 := Rect.unit (s := S20000x1) ![0, 0] S20000x1.size inb_S20000x1_S20000x1_0_0

/-- What one grid point leaves in the result's buffer: the body's one store, covering the whole buffer, of the body's
    arithmetic on the operands' blocks. -/
def out4 (x0 : Vec F S20000x66 .f32) (x1 : Vec F S66x16 .f32) (x2 : Vec F S1x16 .f32) (x3 : Vec F S16x1 .f32) (x4 : Vec F S1x1 .f32) : Vec F S20000x1 .f32 :=
  View.canon [⟨r4_S20000x1, k4_pay1 (View.ld x0 r4_S20000x66) (View.ld x1 r4_S66x16) (View.ld x2 r4_S1x16) (View.ld x3 r4_S16x1) (View.ld x4 r4_S1x1)⟩]

/-- The one store covers the result's buffer. -/
theorem cover4 (p0 : Vec F S20000x1 .f32) (y : S20000x1.Idx) :
    ∃ pc ∈ ([⟨r4_S20000x1, p0⟩] : List (View.Piece (Elt F) S20000x1 .f32)), y ∈ pc.1.set :=
  View.cover_of_tiled [⟨r4_S20000x1, p0⟩] S20000x1.size (by rfl) y

set_option maxHeartbeats 4000000 in
/-- One run of the body: the operands' buffers are read and left as they were; the result's buffer, whatever it held,
    ends at `out4` of the operands' contents. -/
theorem sound_kernel4 (c : Dev nD) (E : Set ℕ) (i : grid4.Coords) (arg1 : Memref sig .tc .vmem S20000x66 .f32) (harg1 : arg1.IsWhole) (arg2 : Memref sig .tc .vmem S66x16 .f32) (harg2 : arg2.IsWhole) (arg3 : Memref sig .tc .vmem S1x16 .f32) (harg3 : arg3.IsWhole) (arg4 : Memref sig .tc .vmem S16x1 .f32) (harg4 : arg4.IsWhole) (arg5 : Memref sig .tc .vmem S1x1 .f32) (harg5 : arg5.IsWhole) (arg6 : Memref sig .tc .vmem S20000x1 .f32) (harg6 : arg6.IsWhole)
    (x0 : Vec F S20000x66 .f32) (x1 : Vec F S66x16 .f32) (x2 : Vec F S1x16 .f32) (x3 : Vec F S16x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4 x0 x1 x2 x3 x4)) -∗ K ⟨⟩))
      ⊢ wp frame (wpE (defs₀ (F := F)) Variants.none c none) E (cc4__edge_mlp_kernel i arg1 harg1 arg2 harg2 arg3 harg3 arg4 harg4 arg5 harg5 arg6 harg6) K := by
  simp only [cc4__edge_mlp_kernel_eq_skeleton]; unfold cc4__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4 _)

/-- The bookkeeping of this launch on core `c`: the arrays as the launch finds them; after the body at point `t` each
    operand's buffer still at its block and the result's at `out4` of the operands' blocks; nothing owed to another core. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is entered with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any grid point: the operands' buffers hold their blocks, so `sound_kernel4` applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KIRun.lean ====
/-
  The whole program as fifteen stretches in order — stretches of host operations and the five kernel launches — and its
  run: the contents of every buffer after each stretch as a fold from the launch memory, each launch entered with the
  buffers at the fold's value and left with its result array at what its grid points wrote back, and from that the run
  of the program to the last value of the fold. No stretch writes an argument array, so the arguments end as launched.
-/
import proofs.«149904_j79456894976559_1_alg».proof.Proof.KIReg0
import proofs.«149904_j79456894976559_1_alg».proof.Proof.KIReg1
import proofs.«149904_j79456894976559_1_alg».proof.Proof.KIReg2
import proofs.«149904_j79456894976559_1_alg».proof.Proof.KIReg3
import proofs.«149904_j79456894976559_1_alg».proof.Proof.KIReg4
import proofs.«149904_j79456894976559_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the program's fifteen stretches

`W j c` is what core `c`'s buffers hold after the first `j` stretches: the launch memory, then each stretch of host
operations applied in order, and after a kernel launch the launch's arrays at what its grid points wrote back (every
other buffer as it was). -/

abbrev W0 : Dev nD → Valuation τ sig (Elt F) := fun c b => (s₀ m ρ).mem ((c : Dev nD), b)
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h

abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h

/-- The same, read at the TensorCore's references: what launch 0 is entered with. -/
abbrev B3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (B3 m ρ) c).arrAt w cfg0.N
theorem W4_arr (c : Dev nD) (w : Fin cfg0.W) :
    W4 m ρ c (Proc.devRef .tc (Pipeline.arrRef spec0 w)) = (dat0 (B3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- An operand the launch only reads ends as it was. -/
theorem W4_in (c : Dev nD) (w : Fin cfg0.W) (hw : (cfg0.win w).isOut = false) :
    W4 m ρ c (Proc.devRef .tc (Pipeline.arrRef spec0 w)) = W3 m ρ c (Proc.devRef .tc (Pipeline.arrRef spec0 w)) :=
  (W4_arr m ρ c w).trans (((dat0 (B3 m ρ) c).arrAt_in w hw _).trans (A_eq0 (B3 m ρ) c w))
abbrev B4 : (c : Dev nD) → (b : Ref sig .tc) → Buf (Elt F) ((c : Thread nD τ).loc b) := fun c b => W4 m ρ c b
theorem hF0 (c : Dev nD) (w : Fin cfg0.W) : (dat0 (B3 m ρ) c).arrAt w cfg0.N = B4 m ρ c (Pipeline.arrRef spec0 w) :=
  (W4_arr m ρ c w).symm
theorem hrest0 (c : Dev nD) : ∀ b, b ∉ Finset.univ.image (Pipeline.arrRef spec0) → B4 m ρ c b = B3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h

/-- The same, read at the TensorCore's references: what launch 1 is entered with. -/
abbrev B5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (B5 m ρ) c).arrAt w cfg1.N
theorem W6_arr (c : Dev nD) (w : Fin cfg1.W) :
    W6 m ρ c (Proc.devRef .tc (Pipeline.arrRef spec1 w)) = (dat1 (B5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- An operand the launch only reads ends as it was. -/
theorem W6_in (c : Dev nD) (w : Fin cfg1.W) (hw : (cfg1.win w).isOut = false) :
    W6 m ρ c (Proc.devRef .tc (Pipeline.arrRef spec1 w)) = W5 m ρ c (Proc.devRef .tc (Pipeline.arrRef spec1 w)) :=
  (W6_arr m ρ c w).trans (((dat1 (B5 m ρ) c).arrAt_in w hw _).trans (A_eq1 (B5 m ρ) c w))
abbrev B6 : (c : Dev nD) → (b : Ref sig .tc) → Buf (Elt F) ((c : Thread nD τ).loc b) := fun c b => W6 m ρ c b
theorem hF1 (c : Dev nD) (w : Fin cfg1.W) : (dat1 (B5 m ρ) c).arrAt w cfg1.N = B6 m ρ c (Pipeline.arrRef spec1 w) :=
  (W6_arr m ρ c w).symm
theorem hrest1 (c : Dev nD) : ∀ b, b ∉ Finset.univ.image (Pipeline.arrRef spec1) → B6 m ρ c b = B5 m ρ c b :=
  fun b hb => W6_of_ne m ρ c b fun w e => hb (Finset.mem_image.mpr ⟨w, Finset.mem_univ _, e⟩)

abbrev W7 : Dev nD → Valuation τ sig (Elt F) := fun c => StableHlo.after hostOps2 (W6 m ρ c)
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h

abbrev W8 : Dev nD → Valuation τ sig (Elt F) := fun c => StableHlo.after hostOps2_1 (W7 m ρ c)
theorem W8_of (c : Dev nD) (r : Ref sig .tc) (h : r ∉ hostOps2_1_W) : W8 m ρ c (Proc.devRef .tc r) = W7 m ρ c (Proc.devRef .tc r) :=
  StableHlo.after_of_writes_sub hostOps2_1 _ hostOps2_1_writes h

abbrev W9 : Dev nD → Valuation τ sig (Elt F) := fun c => StableHlo.after hostOps2_2 (W8 m ρ c)
theorem W9_of (c : Dev nD) (r : Ref sig .tc) (h : r ∉ hostOps2_2_W) : W9 m ρ c (Proc.devRef .tc r) = W8 m ρ c (Proc.devRef .tc r) :=
  StableHlo.after_of_writes_sub hostOps2_2 _ hostOps2_2_writes h

/-- The same, read at the TensorCore's references: what launch 2 is entered with. -/
abbrev B9 : (c : Dev nD) → (b : Ref sig .tc) → Buf (Elt F) ((c : Thread nD τ).loc b) := fun c b => W9 m ρ c b
def W10 (c : Dev nD) : Valuation τ sig (Elt F) :=
  Pipeline.withArrays spec2 c (W9 m ρ c) fun w => (dat2 (B9 m ρ) c).arrAt w cfg2.N
theorem W10_arr (c : Dev nD) (w : Fin cfg2.W) :
    W10 m ρ c (Proc.devRef .tc (Pipeline.arrRef spec2 w)) = (dat2 (B9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- An operand the launch only reads ends as it was. -/
theorem W10_in (c : Dev nD) (w : Fin cfg2.W) (hw : (cfg2.win w).isOut = false) :
    W10 m ρ c (Proc.devRef .tc (Pipeline.arrRef spec2 w)) = W9 m ρ c (Proc.devRef .tc (Pipeline.arrRef spec2 w)) :=
  (W10_arr m ρ c w).trans (((dat2 (B9 m ρ) c).arrAt_in w hw _).trans (A_eq2 (B9 m ρ) c w))
abbrev B10 : (c : Dev nD) → (b : Ref sig .tc) → Buf (Elt F) ((c : Thread nD τ).loc b) := fun c b => W10 m ρ c b
theorem hF2 (c : Dev nD) (w : Fin cfg2.W) : (dat2 (B9 m ρ) c).arrAt w cfg2.N = B10 m ρ c (Pipeline.arrRef spec2 w) :=
  (W10_arr m ρ c w).symm
theorem hrest2 (c : Dev nD) : ∀ b, b ∉ Finset.univ.image (Pipeline.arrRef spec2) → B10 m ρ c b = B9 m ρ c b :=
  fun b hb => W10_of_ne m ρ c b fun w e => hb (Finset.mem_image.mpr ⟨w, Finset.mem_univ _, e⟩)

abbrev W11 : Dev nD → Valuation τ sig (Elt F) := fun c => StableHlo.after hostOps3 (W10 m ρ c)
theorem W11_of (c : Dev nD) (r : Ref sig .tc) (h : r ∉ hostOps3_W) : W11 m ρ c (Proc.devRef .tc r) = W10 m ρ c (Proc.devRef .tc r) :=
  StableHlo.after_of_writes_sub hostOps3 _ hostOps3_writes h

/-- The same, read at the TensorCore's references: what launch 3 is entered with. -/
abbrev B11 : (c : Dev nD) → (b : Ref sig .tc) → Buf (Elt F) ((c : Thread nD τ).loc b) := fun c b => W11 m ρ c b
def W12 (c : Dev nD) : Valuation τ sig (Elt F) :=
  Pipeline.withArrays spec3 c (W11 m ρ c) fun w => (dat3 (B11 m ρ) c).arrAt w cfg3.N
theorem W12_arr (c : Dev nD) (w : Fin cfg3.W) :
    W12 m ρ c (Proc.devRef .tc (Pipeline.arrRef spec3 w)) = (dat3 (B11 m ρ) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m ρ c (Proc.devRef .tc b) = W11 m ρ c (Proc.devRef .tc b) := by
  unfold W12; exact Pipeline.withArrays_of_ne spec3 c _ _ b hb
/-- An operand the launch only reads ends as it was. -/
theorem W12_in (c : Dev nD) (w : Fin cfg3.W) (hw : (cfg3.win w).isOut = false) :
    W12 m ρ c (Proc.devRef .tc (Pipeline.arrRef spec3 w)) = W11 m ρ c (Proc.devRef .tc (Pipeline.arrRef spec3 w)) :=
  (W12_arr m ρ c w).trans (((dat3 (B11 m ρ) c).arrAt_in w hw _).trans (A_eq3 (B11 m ρ) c w))
abbrev B12 : (c : Dev nD) → (b : Ref sig .tc) → Buf (Elt F) ((c : Thread nD τ).loc b) := fun c b => W12 m ρ c b
theorem hF3 (c : Dev nD) (w : Fin cfg3.W) : (dat3 (B11 m ρ) c).arrAt w cfg3.N = B12 m ρ c (Pipeline.arrRef spec3 w) :=
  (W12_arr m ρ c w).symm
theorem hrest3 (c : Dev nD) : ∀ b, b ∉ Finset.univ.image (Pipeline.arrRef spec3) → B12 m ρ c b = B11 m ρ c b :=
  fun b hb => W12_of_ne m ρ c b fun w e => hb (Finset.mem_image.mpr ⟨w, Finset.mem_univ _, e⟩)

abbrev W13 : Dev nD → Valuation τ sig (Elt F) := fun c => StableHlo.after hostOps4 (W12 m ρ c)
theorem W13_of (c : Dev nD) (r : Ref sig .tc) (h : r ∉ hostOps4_W) : W13 m ρ c (Proc.devRef .tc r) = W12 m ρ c (Proc.devRef .tc r) :=
  StableHlo.after_of_writes_sub hostOps4 _ hostOps4_writes h

/-- The same, read at the TensorCore's references: what launch 4 is entered with. -/
abbrev B13 : (c : Dev nD) → (b : Ref sig .tc) → Buf (Elt F) ((c : Thread nD τ).loc b) := fun c b => W13 m ρ c b
def W14 (c : Dev nD) : Valuation τ sig (Elt F) :=
  Pipeline.withArrays spec4 c (W13 m ρ c) fun w => (dat4 (B13 m ρ) c).arrAt w cfg4.N
theorem W14_arr (c : Dev nD) (w : Fin cfg4.W) :
    W14 m ρ c (Proc.devRef .tc (Pipeline.arrRef spec4 w)) = (dat4 (B13 m ρ) c).arrAt w cfg4.N := by
  unfold W14; exact Pipeline.withArrays_arr spec4 launch4.win.arr_inj c _ _ w
theorem W14_of_ne (c : Dev nD) (b : Ref sig .tc) (hb : ∀ w, Pipeline.arrRef spec4 w ≠ b) :
    W14 m ρ c (Proc.devRef .tc b) = W13 m ρ c (Proc.devRef .tc b) := by
  unfold W14; exact Pipeline.withArrays_of_ne spec4 c _ _ b hb
/-- An operand the launch only reads ends as it was. -/
theorem W14_in (c : Dev nD) (w : Fin cfg4.W) (hw : (cfg4.win w).isOut = false) :
    W14 m ρ c (Proc.devRef .tc (Pipeline.arrRef spec4 w)) = W13 m ρ c (Proc.devRef .tc (Pipeline.arrRef spec4 w)) :=
  (W14_arr m ρ c w).trans (((dat4 (B13 m ρ) c).arrAt_in w hw _).trans (A_eq4 (B13 m ρ) c w))
abbrev B14 : (c : Dev nD) → (b : Ref sig .tc) → Buf (Elt F) ((c : Thread nD τ).loc b) := fun c b => W14 m ρ c b
theorem hF4 (c : Dev nD) (w : Fin cfg4.W) : (dat4 (B13 m ρ) c).arrAt w cfg4.N = B14 m ρ c (Pipeline.arrRef spec4 w) :=
  (W14_arr m ρ c w).symm
theorem hrest4 (c : Dev nD) : ∀ b, b ∉ Finset.univ.image (Pipeline.arrRef spec4) → B14 m ρ c b = B13 m ρ c b :=
  fun b hb => W14_of_ne m ρ c b fun w e => hb (Finset.mem_image.mpr ⟨w, Finset.mem_univ _, e⟩)

abbrev W15 : Dev nD → Valuation τ sig (Elt F) := fun c => StableHlo.after hostOps5 (W14 m ρ c)
theorem W15_of (c : Dev nD) (r : Ref sig .tc) (h : r ∉ hostOps5_W) : W15 m ρ c (Proc.devRef .tc r) = W14 m ρ c (Proc.devRef .tc r) :=
  StableHlo.after_of_writes_sub hostOps5 _ hostOps5_writes h

/-! ## No stretch changes an argument array -/

theorem W15_main_arg0 (c : Dev nD) : W15 m ρ c (Proc.devRef .tc main_arg0) = m ((c : Thread nD τ).loc main_arg0) :=
  (W15_of m ρ c main_arg0 (by decide)).trans <|
  (W14_of_ne m ρ c main_arg0 (by decide)).trans <|
  (W13_of m ρ c main_arg0 (by decide)).trans <|
  (W12_of_ne m ρ c main_arg0 (by decide)).trans <|
  (W11_of m ρ c main_arg0 (by decide)).trans <|
  (W10_of_ne m ρ c main_arg0 (by decide)).trans <|
  (W9_of m ρ c main_arg0 (by decide)).trans <|
  (W8_of m ρ c main_arg0 (by decide)).trans <|
  (W7_of m ρ c main_arg0 (by decide)).trans <|
  (W6_of_ne m ρ c main_arg0 (by decide)).trans <|
  (W5_of m ρ c main_arg0 (by decide)).trans <|
  (W4_in m ρ c 0 rfl : W4 m ρ c (Proc.devRef .tc main_arg0) = W3 m ρ c (Proc.devRef .tc main_arg0)).trans <|
  (W3_of m ρ c main_arg0 (by decide)).trans <|
  (W2_of m ρ c main_arg0 (by decide)).trans <|
  (W1_of m ρ c main_arg0 (by decide)).trans <| rfl

theorem W15_main_arg1 (c : Dev nD) : W15 m ρ c (Proc.devRef .tc main_arg1) = m ((c : Thread nD τ).loc main_arg1) :=
  (W15_of m ρ c main_arg1 (by decide)).trans <|
  (W14_of_ne m ρ c main_arg1 (by decide)).trans <|
  (W13_of m ρ c main_arg1 (by decide)).trans <|
  (W12_of_ne m ρ c main_arg1 (by decide)).trans <|
  (W11_of m ρ c main_arg1 (by decide)).trans <|
  (W10_of_ne m ρ c main_arg1 (by decide)).trans <|
  (W9_of m ρ c main_arg1 (by decide)).trans <|
  (W8_of m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of m ρ c main_arg1 (by decide)).trans <|
  (W1_of m ρ c main_arg1 (by decide)).trans <| rfl

theorem W15_main_arg2 (c : Dev nD) : W15 m ρ c (Proc.devRef .tc main_arg2) = m ((c : Thread nD τ).loc main_arg2) :=
  (W15_of m ρ c main_arg2 (by decide)).trans <|
  (W14_of_ne m ρ c main_arg2 (by decide)).trans <|
  (W13_of m ρ c main_arg2 (by decide)).trans <|
  (W12_of_ne m ρ c main_arg2 (by decide)).trans <|
  (W11_of m ρ c main_arg2 (by decide)).trans <|
  (W10_of_ne m ρ c main_arg2 (by decide)).trans <|
  (W9_of m ρ c main_arg2 (by decide)).trans <|
  (W8_of m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of m ρ c main_arg2 (by decide)).trans <|
  (W1_of m ρ c main_arg2 (by decide)).trans <| rfl

theorem W15_main_arg3 (c : Dev nD) : W15 m ρ c (Proc.devRef .tc main_arg3) = m ((c : Thread nD τ).loc main_arg3) :=
  (W15_of m ρ c main_arg3 (by decide)).trans <|
  (W14_of_ne m ρ c main_arg3 (by decide)).trans <|
  (W13_of m ρ c main_arg3 (by decide)).trans <|
  (W12_of_ne m ρ c main_arg3 (by decide)).trans <|
  (W11_of m ρ c main_arg3 (by decide)).trans <|
  (W10_of_ne m ρ c main_arg3 (by decide)).trans <|
  (W9_of m ρ c main_arg3 (by decide)).trans <|
  (W8_of m ρ c main_arg3 (by decide)).trans <|
  (W7_of m ρ c main_arg3 (by decide)).trans <|
  (W6_of_ne m ρ c main_arg3 (by decide)).trans <|
  (W5_of m ρ c main_arg3 (by decide)).trans <|
  (W4_in m ρ c 1 rfl : W4 m ρ c (Proc.devRef .tc main_arg3) = W3 m ρ c (Proc.devRef .tc main_arg3)).trans <|
  (W3_of m ρ c main_arg3 (by decide)).trans <|
  (W2_of m ρ c main_arg3 (by decide)).trans <|
  (W1_of m ρ c main_arg3 (by decide)).trans <| rfl

theorem W15_main_arg4 (c : Dev nD) : W15 m ρ c (Proc.devRef .tc main_arg4) = m ((c : Thread nD τ).loc main_arg4) :=
  (W15_of m ρ c main_arg4 (by decide)).trans <|
  (W14_of_ne m ρ c main_arg4 (by decide)).trans <|
  (W13_of m ρ c main_arg4 (by decide)).trans <|
  (W12_of_ne m ρ c main_arg4 (by decide)).trans <|
  (W11_of m ρ c main_arg4 (by decide)).trans <|
  (W10_of_ne m ρ c main_arg4 (by decide)).trans <|
  (W9_of m ρ c main_arg4 (by decide)).trans <|
  (W8_of m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_of m ρ c main_arg4 (by decide)).trans <|
  (W1_of m ρ c main_arg4 (by decide)).trans <| rfl

theorem W15_main_arg5 (c : Dev nD) : W15 m ρ c (Proc.devRef .tc main_arg5) = m ((c : Thread nD τ).loc main_arg5) :=
  (W15_of m ρ c main_arg5 (by decide)).trans <|
  (W14_of_ne m ρ c main_arg5 (by decide)).trans <|
  (W13_of m ρ c main_arg5 (by decide)).trans <|
  (W12_of_ne m ρ c main_arg5 (by decide)).trans <|
  (W11_of m ρ c main_arg5 (by decide)).trans <|
  (W10_in m ρ c 1 rfl : W10 m ρ c (Proc.devRef .tc main_arg5) = W9 m ρ c (Proc.devRef .tc main_arg5)).trans <|
  (W9_of m ρ c main_arg5 (by decide)).trans <|
  (W8_of m ρ c main_arg5 (by decide)).trans <|
  (W7_of m ρ c main_arg5 (by decide)).trans <|
  (W6_of_ne m ρ c main_arg5 (by decide)).trans <|
  (W5_of m ρ c main_arg5 (by decide)).trans <|
  (W4_of_ne m ρ c main_arg5 (by decide)).trans <|
  (W3_of m ρ c main_arg5 (by decide)).trans <|
  (W2_of m ρ c main_arg5 (by decide)).trans <|
  (W1_of m ρ c main_arg5 (by decide)).trans <| rfl

theorem W15_main_arg6 (c : Dev nD) : W15 m ρ c (Proc.devRef .tc main_arg6) = m ((c : Thread nD τ).loc main_arg6) :=
  (W15_of m ρ c main_arg6 (by decide)).trans <|
  (W14_of_ne m ρ c main_arg6 (by decide)).trans <|
  (W13_of m ρ c main_arg6 (by decide)).trans <|
  (W12_of_ne m ρ c main_arg6 (by decide)).trans <|
  (W11_of m ρ c main_arg6 (by decide)).trans <|
  (W10_of_ne m ρ c main_arg6 (by decide)).trans <|
  (W9_of m ρ c main_arg6 (by decide)).trans <|
  (W8_of m ρ c main_arg6 (by decide)).trans <|
  (W7_of m ρ c main_arg6 (by decide)).trans <|
  (W6_of_ne m ρ c main_arg6 (by decide)).trans <|
  (W5_of m ρ c main_arg6 (by decide)).trans <|
  (W4_of_ne m ρ c main_arg6 (by decide)).trans <|
  (W3_of m ρ c main_arg6 (by decide)).trans <|
  (W2_of m ρ c main_arg6 (by decide)).trans <|
  (W1_of m ρ c main_arg6 (by decide)).trans <| rfl

theorem W15_main_arg7 (c : Dev nD) : W15 m ρ c (Proc.devRef .tc main_arg7) = m ((c : Thread nD τ).loc main_arg7) :=
  (W15_of m ρ c main_arg7 (by decide)).trans <|
  (W14_in m ρ c 1 rfl : W14 m ρ c (Proc.devRef .tc main_arg7) = W13 m ρ c (Proc.devRef .tc main_arg7)).trans <|
  (W13_of m ρ c main_arg7 (by decide)).trans <|
  (W12_of_ne m ρ c main_arg7 (by decide)).trans <|
  (W11_of m ρ c main_arg7 (by decide)).trans <|
  (W10_of_ne m ρ c main_arg7 (by decide)).trans <|
  (W9_of m ρ c main_arg7 (by decide)).trans <|
  (W8_of m ρ c main_arg7 (by decide)).trans <|
  (W7_of m ρ c main_arg7 (by decide)).trans <|
  (W6_of_ne m ρ c main_arg7 (by decide)).trans <|
  (W5_of m ρ c main_arg7 (by decide)).trans <|
  (W4_of_ne m ρ c main_arg7 (by decide)).trans <|
  (W3_of m ρ c main_arg7 (by decide)).trans <|
  (W2_of m ρ c main_arg7 (by decide)).trans <|
  (W1_of m ρ c main_arg7 (by decide)).trans <| rfl

theorem W15_main_arg8 (c : Dev nD) : W15 m ρ c (Proc.devRef .tc main_arg8) = m ((c : Thread nD τ).loc main_arg8) :=
  (W15_of m ρ c main_arg8 (by decide)).trans <|
  (W14_of_ne m ρ c main_arg8 (by decide)).trans <|
  (W13_of m ρ c main_arg8 (by decide)).trans <|
  (W12_of_ne m ρ c main_arg8 (by decide)).trans <|
  (W11_of m ρ c main_arg8 (by decide)).trans <|
  (W10_of_ne m ρ c main_arg8 (by decide)).trans <|
  (W9_of m ρ c main_arg8 (by decide)).trans <|
  (W8_of m ρ c main_arg8 (by decide)).trans <|
  (W7_of m ρ c main_arg8 (by decide)).trans <|
  (W6_of_ne m ρ c main_arg8 (by decide)).trans <|
  (W5_of m ρ c main_arg8 (by decide)).trans <|
  (W4_of_ne m ρ c main_arg8 (by decide)).trans <|
  (W3_of m ρ c main_arg8 (by decide)).trans <|
  (W2_of m ρ c main_arg8 (by decide)).trans <|
  (W1_of m ρ c main_arg8 (by decide)).trans <| rfl

theorem W15_main_arg9 (c : Dev nD) : W15 m ρ c (Proc.devRef .tc main_arg9) = m ((c : Thread nD τ).loc main_arg9) :=
  (W15_of m ρ c main_arg9 (by decide)).trans <|
  (W14_in m ρ c 3 rfl : W14 m ρ c (Proc.devRef .tc main_arg9) = W13 m ρ c (Proc.devRef .tc main_arg9)).trans <|
  (W13_of m ρ c main_arg9 (by decide)).trans <|
  (W12_of_ne m ρ c main_arg9 (by decide)).trans <|
  (W11_of m ρ c main_arg9 (by decide)).trans <|
  (W10_of_ne m ρ c main_arg9 (by decide)).trans <|
  (W9_of m ρ c main_arg9 (by decide)).trans <|
  (W8_of m ρ c main_arg9 (by decide)).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of m ρ c main_arg9 (by decide)).trans <|
  (W1_of m ρ c main_arg9 (by decide)).trans <| rfl

theorem W15_main_arg10 (c : Dev nD) : W15 m ρ c (Proc.devRef .tc main_arg10) = m ((c : Thread nD τ).loc main_arg10) :=
  (W15_of m ρ c main_arg10 (by decide)).trans <|
  (W14_of_ne m ρ c main_arg10 (by decide)).trans <|
  (W13_of m ρ c main_arg10 (by decide)).trans <|
  (W12_of_ne m ρ c main_arg10 (by decide)).trans <|
  (W11_of m ρ c main_arg10 (by decide)).trans <|
  (W10_of_ne m ρ c main_arg10 (by decide)).trans <|
  (W9_of m ρ c main_arg10 (by decide)).trans <|
  (W8_of m ρ c main_arg10 (by decide)).trans <|
  (W7_of m ρ c main_arg10 (by decide)).trans <|
  (W6_of_ne m ρ c main_arg10 (by decide)).trans <|
  (W5_of m ρ c main_arg10 (by decide)).trans <|
  (W4_of_ne m ρ c main_arg10 (by decide)).trans <|
  (W3_of m ρ c main_arg10 (by decide)).trans <|
  (W2_of m ρ c main_arg10 (by decide)).trans <|
  (W1_of m ρ c main_arg10 (by decide)).trans <| rfl

/-! ## The launches' bookkeeping as one family, and what rides along -/

abbrev admH : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) admH p) c
  | ⟨0, _⟩ => fun c => dat0 (B3 m ρ) c
  | ⟨1, _⟩ => fun c => dat1 (B5 m ρ) c
  | ⟨2, _⟩ => fun c => dat2 (B9 m ρ) c
  | ⟨3, _⟩ => fun c => dat3 (B11 m ρ) c
  | ⟨4, _⟩ => fun c => dat4 (B13 m ρ) c
abbrev 𝒱h : Variants := Variants.none
abbrev Lh : GSem nD τ sig → Finset Unit := fun _ => ∅
abbrev lvh : GSem nD τ sig → Unit → ℕ := fun _ _ => 0
/-- Beside the buffers, through every stretch: the core's random-number register at some state, and the core owing nothing. -/
abbrev Rest (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Each launch as a stretch: entered with every buffer at `W (j-1)`, left with every buffer at `W j` -/

set_option backward.isDefEq.respectTransparency.types false in
def reg0 : Pipeline.RegionSeg (pcfgs (F := F)) admH (pdats m ρ) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (B3 m ρ) c).loose
  hwaits := Pipeline.hwaits_of_owed_zero _ _ _ _ Lh lvh 0 fun _ _ => rfl
  pre c := iprop(StableHlo.held (c : Thread nD τ) (Pipeline.ucRefs τ sig) (W3 m ρ c) ∗ Rest c)
  post c := iprop(StableHlo.held (c : Thread nD τ) (Pipeline.ucRefs τ sig) (W4 m ρ c) ∗ Rest c)
  X c := iprop(∃ r, prngReg c r)
  Y c := iprop(∃ r, prngReg c r)
  Z c := Pipeline.unscopedRest (Ix := Unit) (Name := ℕ) (U := UR sig nD τ) (Lvl := ℕ) spec0 c (B3 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (B3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (B3 m ρ c) (B4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) admH (pdats m ρ) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (B5 m ρ) c).loose
  hwaits := Pipeline.hwaits_of_owed_zero _ _ _ _ Lh lvh 1 fun _ _ => rfl
  pre c := iprop(StableHlo.held (c : Thread nD τ) (Pipeline.ucRefs τ sig) (W5 m ρ c) ∗ Rest c)
  post c := iprop(StableHlo.held (c : Thread nD τ) (Pipeline.ucRefs τ sig) (W6 m ρ c) ∗ Rest c)
  X c := iprop(∃ r, prngReg c r)
  Y c := iprop(∃ r, prngReg c r)
  Z c := Pipeline.unscopedRest (Ix := Unit) (Name := ℕ) (U := UR sig nD τ) (Lvl := ℕ) spec1 c (B5 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (B5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (B5 m ρ c) (B6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) admH (pdats m ρ) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (B9 m ρ) c).loose
  hwaits := Pipeline.hwaits_of_owed_zero _ _ _ _ Lh lvh 2 fun _ _ => rfl
  pre c := iprop(StableHlo.held (c : Thread nD τ) (Pipeline.ucRefs τ sig) (W9 m ρ c) ∗ Rest c)
  post c := iprop(StableHlo.held (c : Thread nD τ) (Pipeline.ucRefs τ sig) (W10 m ρ c) ∗ Rest c)
  X c := iprop(∃ r, prngReg c r)
  Y c := iprop(∃ r, prngReg c r)
  Z c := Pipeline.unscopedRest (Ix := Unit) (Name := ℕ) (U := UR sig nD τ) (Lvl := ℕ) spec2 c (B9 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (B9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (B9 m ρ c) (B10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) admH (pdats m ρ) () defs₀ 𝒱h Lh lvh 3 where
  win := launch3.win.to₀
  block_pos := launch3.block_pos
  stage_whole := launch3.stage_whole
  K := PEmpty
  osem k := k.elim
  ho := Pipeline.OwnSemFacts.none _
  hbody c := (body_obligation3 (B11 m ρ) c).loose
  hwaits := Pipeline.hwaits_of_owed_zero _ _ _ _ Lh lvh 3 fun _ _ => rfl
  pre c := iprop(StableHlo.held (c : Thread nD τ) (Pipeline.ucRefs τ sig) (W11 m ρ c) ∗ Rest c)
  post c := iprop(StableHlo.held (c : Thread nD τ) (Pipeline.ucRefs τ sig) (W12 m ρ c) ∗ Rest c)
  X c := iprop(∃ r, prngReg c r)
  Y c := iprop(∃ r, prngReg c r)
  Z c := Pipeline.unscopedRest (Ix := Unit) (Name := ℕ) (U := UR sig nD τ) (Lvl := ℕ) spec3 c (B11 m ρ c)
  hentry c := by
    rw [Pipeline.ownSems0_none]
    have hsplit := Pipeline.arrays_of_unscopedBufs (p := 3) (pcfgs (F := F)) admH (pdats m ρ) launch3.win launch3.arr_whole c
      ((pdats m ρ 3 c).share_full fun _ => rfl) (B11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m ρ) ((pdats m ρ 3 c).share_full fun _ => rfl)
      (B11 m ρ c) (B12 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) admH (pdats m ρ) () defs₀ 𝒱h Lh lvh 4 where
  win := launch4.win.to₀
  block_pos := launch4.block_pos
  stage_whole := launch4.stage_whole
  K := PEmpty
  osem k := k.elim
  ho := Pipeline.OwnSemFacts.none _
  hbody c := (body_obligation4 (B13 m ρ) c).loose
  hwaits := Pipeline.hwaits_of_owed_zero _ _ _ _ Lh lvh 4 fun _ _ => rfl
  pre c := iprop(StableHlo.held (c : Thread nD τ) (Pipeline.ucRefs τ sig) (W13 m ρ c) ∗ Rest c)
  post c := iprop(StableHlo.held (c : Thread nD τ) (Pipeline.ucRefs τ sig) (W14 m ρ c) ∗ Rest c)
  X c := iprop(∃ r, prngReg c r)
  Y c := iprop(∃ r, prngReg c r)
  Z c := Pipeline.unscopedRest (Ix := Unit) (Name := ℕ) (U := UR sig nD τ) (Lvl := ℕ) spec4 c (B13 m ρ c)
  hentry c := by
    rw [Pipeline.ownSems0_none]
    have hsplit := Pipeline.arrays_of_unscopedBufs (p := 4) (pcfgs (F := F)) admH (pdats m ρ) launch4.win launch4.arr_whole c
      ((pdats m ρ 4 c).share_full fun _ => rfl) (B13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m ρ) ((pdats m ρ 4 c).share_full fun _ => rfl)
      (B13 m ρ c) (B14 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its fifteen stretches, and its run -/

abbrev segs : List (Pipeline.Seg (pcfgs (F := F)) admH (pdats m ρ) () defs₀ 𝒱h Lh lvh) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .host (hseg hostOps2_1 hostOps2_1_sub hostOps2_1_fresh (W7 m ρ)),
    .host (hseg hostOps2_2 hostOps2_2_sub hostOps2_2_fresh (W8 m ρ)),
    .region (reg2 m ρ),
    .host (hseg hostOps3 hostOps3_sub hostOps3_fresh (W10 m ρ)),
    .region (reg3 m ρ),
    .host (hseg hostOps4 hostOps4_sub hostOps4_fresh (W12 m ρ)),
    .region (reg4 m ρ),
    .host (hseg hostOps5 hostOps5_sub hostOps5_fresh (W14 m ρ)) ]

set_option backward.isDefEq.respectTransparency.types false in
/-- From any memory with zero counters every weakly fair execution of the program terminates, nothing faulting, and
    every core ends with every buffer at `W15`: the fold of the fifteen stretches over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) admH (pdats m ρ) () cellOf_inj emb₁ defs₀ 𝒱h Lh lvh m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := fun c => StableHlo.held (c : Thread nD τ) (Pipeline.ucRefs τ sig) (W15 m ρ c))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => sep_mono .rfl (by iintro ⟨-, H⟩; iexact H)⟩)
    (hinit := by
      refine Pipeline.initEach Lh lvh fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      unfold StableHlo.held
      iintro ⟨Hh, HSI⟩
      imodintro
      iapply (pointsTo_read_all (Pipeline.ucRefs τ sig) (fun b => (((c : Thread nD τ)).1, b)) (W15 m ρ c) s')
      isplitl [Hh] <;> iassumption)
    (hQ := fun s h => h)

/-- The frame: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_arg0 (by decide))).trans (W15_main_arg0 m ρ c),
    (h c _ (mem_uc main_arg1 (by decide))).trans (W15_main_arg1 m ρ c),
    (h c _ (mem_uc main_arg2 (by decide))).trans (W15_main_arg2 m ρ c),
    (h c _ (mem_uc main_arg3 (by decide))).trans (W15_main_arg3 m ρ c),
    (h c _ (mem_uc main_arg4 (by decide))).trans (W15_main_arg4 m ρ c),
    (h c _ (mem_uc main_arg5 (by decide))).trans (W15_main_arg5 m ρ c),
    (h c _ (mem_uc main_arg6 (by decide))).trans (W15_main_arg6 m ρ c),
    (h c _ (mem_uc main_arg7 (by decide))).trans (W15_main_arg7 m ρ c),
    (h c _ (mem_uc main_arg8 (by decide))).trans (W15_main_arg8 m ρ c),
    (h c _ (mem_uc main_arg9 (by decide))).trans (W15_main_arg9 m ρ c),
    (h c _ (mem_uc main_arg10 (by decide))).trans (W15_main_arg10 m ρ c)⟩) (run_all m ρ)

end Cert.KernelIdeal.Hand

end
-- ==== Proof.LibRowOps.lean ====
/-
  Matrices read at an entry, for any extents: a column [a, 1] laid along every column of [a, b] (a kernel's broadcast);
  a vector [a] stood up as a column [a, 1]; and the product of an [M, K] matrix by a [K, N] matrix, as a kernel computes
  it into a zero accumulator and as a host program computes it, read at entry (a, b) as the sum over the contracted
  coordinate of the products of the entries. The products are stated for any dimension record that is the plain one
  (left operand contracted on its columns, right operand on its rows, no batch axis).
-/
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

noncomputable section

open scoped BigOperators

namespace RowOps

open Idealize.ShloMosaic Idealize.ShloMosaic.ValueIdx

variable {α : Type}

/-- A column [a, 1] laid along every column of [a, b]: entry (p, q) is entry (p, 0). -/
theorem col_to_apply {a b : Nat} (h : (⟨2, ![a, 1]⟩ : Shape).Broadcasts ⟨2, ![a, b]⟩)
    (v : (⟨2, ![a, 1]⟩ : Shape).Idx → α) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] stood up as a column [a, 1]: entry (p, 0) is entry p. -/
theorem vec_col_apply {a : Nat} (h : (⟨1, ![a]⟩ : Shape).BroadcastsInDim ⟨2, ![a, 1]⟩ (![0] : Fin 1 → Fin 2))
    (v : (⟨1, ![a]⟩ : Shape).Idx → α) (p : Fin a) (z : Fin 1) :
    broadcastInDim ⟨2, ![a, 1]⟩ ![0] h v (ix2 p z) = v (ix1 p) :=
  broadcastInDim_apply _ h v (ix2 p z) (ix1 p) (fun ax => match ax with
    | ⟨0, _⟩ => by
      show p.val = if a = 1 then 0 else p.val
      split
      · have := p.isLt; omega
      · rfl)

/-- The host's product of an [M, K] by a [K, N] matrix at entry (a, b): the sum over c of A(a, c) · B(c, b). -/
theorem dotGeneral_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product into a zero accumulator at entry (a, b): the same sum. -/
theorem matmul_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant ⟨2, ![M, N]⟩ .f32 0x00000000#32) (ix2 a b) = ∑ c : Fin K, A (ix2 a c) * B (ix2 c b) := by
  rw [matmul_zero_eq_dotGeneral]
  exact dotGeneral_apply D hD prec A B a b

end RowOps

end
-- ==== Proof.LibSoftLayout.lean ====
/-
  Matrices and vectors read at an entry, for any extents: a block of consecutive rows of a matrix; a transposed
  matrix; a row [1, b] laid along every row of [a, b]; a vector stood up as a row [1, b] or as a column [a, 1] by a
  change of shape; a matrix [a, b] read as [1, a, b] and back; the sum of a matrix's rows' entries (along the columns)
  and of its columns' entries (along the rows), and a row's maximum, each as a sum or a fold over one coordinate.
-/
import Idealize.ShloMosaic.Lib.Pipeline.Value
import Idealize.ShloMosaic.Lib.ValueIdx
import Idealize.ShloMosaic.PureOps.Ideal.Laws

noncomputable section

open scoped BigOperators

namespace SoftLayout

open Idealize.ShloMosaic Idealize.ShloMosaic.ValueIdx

variable {α : Type}

/-- Rows `off`, `off + 1`, … of a matrix: entry (r, q) of the piece is entry (off + r, q). -/
theorem rows_apply {n m c off : Nat} (h : (⟨2, ![n, c]⟩ : Shape).Slices ![off, 0] ⟨2, ![m, c]⟩)
    (v : (⟨2, ![n, c]⟩ : Shape).Idx → α) (r : Fin m) (q : Fin c) (hr : off + r.val < n) :
    extractStridedSlice ⟨2, ![m, c]⟩ ![off, 0] v h (ix2 r q) = v (ix2 ⟨off + r.val, hr⟩ q) :=
  extractStridedSlice_apply ![off, 0] v h (ix2 r q) (ix2 ⟨off + r.val, hr⟩ q) (fun a => match a with
    | ⟨0, _⟩ => rfl
    | ⟨1, _⟩ => (Nat.zero_add _).symm)

/-- A transposed matrix: entry (q, p) is entry (p, q). -/
theorem transpose_apply {a b : Nat} (h : (⟨2, ![a, b]⟩ : Shape).Transposes [1, 0] ⟨2, ![b, a]⟩)
    (v : (⟨2, ![a, b]⟩ : Shape).Idx → α) (q : Fin b) (p : Fin a) :
    transpose ⟨2, ![b, a]⟩ [1, 0] v h (ix2 q p) = v (ix2 p q) :=
  Idealize.ShloMosaic.transpose_apply [1, 0] v h (ix2 q p) (ix2 p q) (fun c => match c with
    | ⟨0, _⟩ => rfl
    | ⟨1, _⟩ => rfl)

/-- A row [1, b] laid along every row of [a, b]: entry (p, q) is entry (0, q). -/
theorem row_to_apply {a b : Nat} (h : (⟨2, ![1, b]⟩ : Shape).Broadcasts ⟨2, ![a, b]⟩)
    (v : (⟨2, ![1, b]⟩ : Shape).Idx → α) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A vector [b] stood up as a row [1, b] by a change of shape: entry (0, q) is entry q. -/
theorem vec_row_cast_apply {b : Nat} (h : (⟨1, ![b]⟩ : Shape).ShapeCasts ⟨2, ![1, b]⟩)
    (v : (⟨1, ![b]⟩ : Shape).Idx → α) (z : Fin 1) (q : Fin b) :
    shapeCast ⟨2, ![1, b]⟩ v h (ix2 z q) = v (ix1 q) := by
  refine shapeCast_apply v h (ix2 z q) (ix1 q) ?_
  rw [Shape.rowMajor_val_one, Shape.rowMajor_val_two]
  show q.val = z.val * b + q.val
  have := z.isLt
  have hz : z.val = 0 := by omega
  rw [hz]; omega

/-- A vector [a] stood up as a column [a, 1] by a change of shape: entry (p, 0) is entry p. -/
theorem vec_col_cast_apply {a : Nat} (h : (⟨1, ![a]⟩ : Shape).ShapeCasts ⟨2, ![a, 1]⟩)
    (v : (⟨1, ![a]⟩ : Shape).Idx → α) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- [1, a, b] read as the matrix [a, b]: entry (p, q) is entry (0, p, q). -/
theorem drop_lead_apply {a b : Nat} (h : (⟨3, ![1, a, b]⟩ : Shape).ShapeCasts ⟨2, ![a, b]⟩)
    (v : (⟨3, ![1, a, b]⟩ : Shape).Idx → α) (p : Fin a) (q : Fin b) :
    shapeCast ⟨2, ![a, b]⟩ v h (ix2 p q) = v (ix3 (0 : Fin 1) p q) := by
  refine shapeCast_apply v h (ix2 p q) (ix3 (0 : Fin 1) p q) ?_
  rw [Shape.rowMajor_val_two, Shape.rowMajor_val_three]
  show (0 * a + p.val) * b + q.val = p.val * b + q.val
  rw [Nat.zero_mul, Nat.zero_add]

/-- The matrix [a, b] read as [1, a, b]: entry (0, p, q) is entry (p, q). -/
theorem add_lead_apply {a b : Nat} (h : (⟨2, ![a, b]⟩ : Shape).ShapeCasts ⟨3, ![1, a, b]⟩)
    (v : (⟨2, ![a, b]⟩ : Shape).Idx → α) (z : Fin 1) (p : Fin a) (q : Fin b) :
    shapeCast ⟨3, ![1, a, b]⟩ v h (ix3 z p q) = v (ix2 p q) := by
  refine shapeCast_apply v h (ix3 z p q) (ix2 p q) ?_
  rw [Shape.rowMajor_val_two, Shape.rowMajor_val_three]
  show p.val * b + q.val = (z.val * a + p.val) * b + q.val
  have := z.isLt
  have hz : z.val = 0 := by omega
  rw [hz, Nat.zero_mul, Nat.zero_add]

/-- The index over row `p` with column coordinate `q` inserted. -/
theorem lift_row {a b : Nat} (h : (⟨2, ![a, b]⟩ : Shape).Reduces [1] ⟨1, ![a]⟩) (p : Fin a) (q : Fin b) :
    h.lift (ix1 p) q = ix2 p q :=
  funext fun c => match c with
    | ⟨0, _⟩ => Fin.ext rfl
    | ⟨1, _⟩ => Fin.ext rfl

/-- The index over column `q` with row coordinate `p` inserted. -/
theorem lift_col {a b : Nat} (h : (⟨2, ![a, b]⟩ : Shape).Reduces [0] ⟨1, ![b]⟩) (q : Fin b) (p : Fin a) :
    h.lift (ix1 q) p = ix2 p q :=
  funext fun c => match c with
    | ⟨0, _⟩ => Fin.ext rfl
    | ⟨1, _⟩ => Fin.ext rfl

/-- The sums of a matrix's rows: entry p is the sum over q of entry (p, q). -/
theorem rowsum_apply {a b : Nat} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ q : Fin b, v (ix2 p q) := by
  refine (Ideal.multiReduction_add_single v 0x00000000#32 h hφ hacc (ix1 p)).trans ?_
  exact Finset.sum_congr rfl fun q _ => congrArg v (lift_row h p q)

/-- The sums of a matrix's columns: entry q is the sum over p of entry (p, q). -/
theorem colsum_apply {a b : Nat} (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ v 0x00000000#32 h hφ hacc (ix1 q) = ∑ p : Fin a, v (ix2 p q) := by
  refine (Ideal.multiReduction_add_single v 0x00000000#32 h hφ hacc (ix1 q)).trans ?_
  exact Finset.sum_congr rfl fun p _ => congrArg v (lift_col h q p)

/-- The maxima of a matrix's rows, from -∞: entry p is the fold of `max` over q of entry (p, q). -/
theorem rowmax_apply {a b : Nat} (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) (fun q => v (ix2 p q)) := by
  refine (Ideal.multiReduction_maximumf_single v 0xFF800000#32 h hφ hacc (ix1 p)).trans ?_
  exact congrArg (fun f => (Finset.univ : Finset (Fin b)).fold max (Ideal.ofBits .f32 0xFF800000#32) f)
    (funext fun q => congrArg v (lift_row h p q))

end SoftLayout

end
-- ==== Proof.LibRowBlocks.lean ====
/-
  Three bodies of row-blocked kernels read at an entry, on the extended reals, for any extents.
  A block of R rows of a matrix times a whole matrix, each rounded to a shorter format first (a change of format is the
  identity on the extended reals) and accumulated into zeros: entry (p, q) is the sum over the contracted coordinate of the
  products of the entries. A block plus a row laid along every row of it, then the maximum with a constant: entry (p, q)
  is max(x(p, q) + b(0, q), z). And the composite of the two — a product, a row added, the maximum with a constant, a second
  product, a second row added — entry by entry. Nothing of real arithmetic is used: each side is the same expression.
-/
import Idealize.ShloMosaic.Lib.Pipeline.Value
import Idealize.ShloMosaic.Lib.ValueIdx
import Idealize.ShloMosaic.PureOps.Ideal.Laws
import Idealize.ShloMosaic.Lib.KernelVsHost
import proofs.«149904_j79456894976559_1_alg».proof.Proof.LibRowOps
import proofs.«149904_j79456894976559_1_alg».proof.Proof.LibSoftLayout

noncomputable section

open scoped BigOperators

namespace RowBlocks

open Idealize.ShloMosaic Idealize.ShloMosaic.ValueIdx

/-- The product of an [M, K] matrix by a [K, N] matrix, entry by entry. -/
def prod {M K N : Nat} (A : FVec Ideal ⟨2, ![M, K]⟩ .f32) (B : FVec Ideal ⟨2, ![K, N]⟩ .f32) : FVec Ideal ⟨2, ![M, N]⟩ .f32 :=
  fun i => ∑ k : Fin K, A (ix2 (i 0) k) * B (ix2 k (i 1))

theorem prod_apply {M K N : Nat} (A : FVec Ideal ⟨2, ![M, K]⟩ .f32) (B : FVec Ideal ⟨2, ![K, N]⟩ .f32) (p : Fin M) (q : Fin N) :
    prod A B (ix2 p q) = ∑ k : Fin K, A (ix2 p k) * B (ix2 k q) := rfl

/-- A row added to every row of a matrix. -/
def addRow {M N : Nat} (A : FVec Ideal ⟨2, ![M, N]⟩ .f32) (b : FVec Ideal ⟨2, ![1, N]⟩ .f32) : FVec Ideal ⟨2, ![M, N]⟩ .f32 :=
  fun i => A i + b (ix2 (0 : Fin 1) (i 1))

theorem addRow_apply {M N : Nat} (A : FVec Ideal ⟨2, ![M, N]⟩ .f32) (b : FVec Ideal ⟨2, ![1, N]⟩ .f32) (p : Fin M) (q : Fin N) :
    addRow A b (ix2 p q) = A (ix2 p q) + b (ix2 (0 : Fin 1) q) := rfl

/-- The maximum of every entry with the value of a 32-bit word. -/
def maxWord {M N : Nat} (A : FVec Ideal ⟨2, ![M, N]⟩ .f32) (z : BitVec 32) : FVec Ideal ⟨2, ![M, N]⟩ .f32 :=
  fun i => max (A i) (Ideal.ofBits .f32 z)

theorem maxWord_apply {M N : Nat} (A : FVec Ideal ⟨2, ![M, N]⟩ .f32) (z : BitVec 32) (p : Fin M) (q : Fin N) :
    maxWord A z (ix2 p q) = max (A (ix2 p q)) (Ideal.ofBits .f32 z) := rfl

/-- A kernel's product of a block by a matrix, both rounded to a shorter format first, into a zero accumulator. -/
theorem matmul_trunc_apply {R K N : Nat} {ψ : FTy} (D : DotDims ⟨2, ![R, K]⟩ ⟨2, ![K, N]⟩ ⟨2, ![R, N]⟩) (hD : D = DotDims.plain R K N)
    (h : ψ.bits < FTy.f32.bits) (x : FVec Ideal ⟨2, ![R, K]⟩ .f32) (w : FVec Ideal ⟨2, ![K, N]⟩ .f32) (p : Fin R) (q : Fin N) :
    matmul D none (truncf ψ x h) (truncf ψ w h) (constant ⟨2, ![R, N]⟩ .f32 0x00000000#32) (ix2 p q)
      = ∑ k : Fin K, x (ix2 p k) * w (ix2 k q) :=
  (RowOps.matmul_apply D hD none (truncf ψ x h) (truncf ψ w h) p q).trans (Finset.sum_congr rfl fun _ _ => rfl)

/-- A kernel's `max(x + row, z)` on a block: the row is cast to itself, laid along every row, added, and the maximum with a splat taken. -/
theorem addRow_max_apply {R N : Nat} (z : BitVec 32) (hc1 : (⟨2, ![R, N]⟩ : Shape).ShapeCasts ⟨2, ![R, N]⟩)
    (hc2 : (⟨2, ![1, N]⟩ : Shape).ShapeCasts ⟨2, ![1, N]⟩) (hb : (⟨2, ![1, N]⟩ : Shape).Broadcasts ⟨2, ![R, N]⟩)
    (x : FVec Ideal ⟨2, ![R, N]⟩ .f32) (b : FVec Ideal ⟨2, ![1, N]⟩ .f32) (p : Fin R) (q : Fin N) :
    maximumf (addf (shapeCast ⟨2, ![R, N]⟩ x hc1) (broadcastTo ⟨2, ![R, N]⟩ (shapeCast ⟨2, ![1, N]⟩ b hc2) hb))
        (broadcast ⟨2, ![R, N]⟩ (Scalar.ofBits (F := Ideal) .f32 z)) (ix2 p q)
      = max (x (ix2 p q) + b (ix2 (0 : Fin 1) q)) (Ideal.ofBits .f32 z) := by
  show max (shapeCast ⟨2, ![R, N]⟩ x hc1 (ix2 p q) + broadcastTo ⟨2, ![R, N]⟩ (shapeCast ⟨2, ![1, N]⟩ b hc2) hb (ix2 p q)) _ = _
  rw [shapeCast_self, SoftLayout.row_to_apply, shapeCast_self]
  rfl

/-- A row laid along every row of a block and added, with no cast of the block: `y + row`. -/
theorem addRow_apply_kernel {R N : Nat} (hc2 : (⟨2, ![1, N]⟩ : Shape).ShapeCasts ⟨2, ![1, N]⟩)
    (hb : (⟨2, ![1, N]⟩ : Shape).Broadcasts ⟨2, ![R, N]⟩)
    (y : FVec Ideal ⟨2, ![R, N]⟩ .f32) (b : FVec Ideal ⟨2, ![1, N]⟩ .f32) (p : Fin R) (q : Fin N) :
    addf y (broadcastTo ⟨2, ![R, N]⟩ (shapeCast ⟨2, ![1, N]⟩ b hc2) hb) (ix2 p q) = y (ix2 p q) + b (ix2 (0 : Fin 1) q) := by
  show y (ix2 p q) + broadcastTo ⟨2, ![R, N]⟩ (shapeCast ⟨2, ![1, N]⟩ b hc2) hb (ix2 p q) = _
  rw [SoftLayout.row_to_apply, shapeCast_self]

/-- The same product when the block is first cast to its own shape. -/
theorem matmul_cast_trunc_apply {R K N : Nat} {ψ : FTy} (D : DotDims ⟨2, ![R, K]⟩ ⟨2, ![K, N]⟩ ⟨2, ![R, N]⟩) (hD : D = DotDims.plain R K N)
    (h : ψ.bits < FTy.f32.bits) (hc : (⟨2, ![R, K]⟩ : Shape).ShapeCasts ⟨2, ![R, K]⟩)
    (x : FVec Ideal ⟨2, ![R, K]⟩ .f32) (w : FVec Ideal ⟨2, ![K, N]⟩ .f32) (p : Fin R) (q : Fin N) :
    matmul D none (truncf ψ (shapeCast ⟨2, ![R, K]⟩ x hc) h) (truncf ψ w h) (constant ⟨2, ![R, N]⟩ .f32 0x00000000#32) (ix2 p q)
      = ∑ k : Fin K, x (ix2 p k) * w (ix2 k q) := by
  rw [shapeCast_self]
  exact matmul_trunc_apply D hD h x w p q

/-- The edge network's body on a block of rows: a product, a row added, the maximum with a word's value, a second
    product, a second row added — entry (p, q). -/
theorem edge_apply {R K1 K2 N : Nat} {ψ : FTy}
    (D1 : DotDims ⟨2, ![R, K1]⟩ ⟨2, ![K1, K2]⟩ ⟨2, ![R, K2]⟩) (hD1 : D1 = DotDims.plain R K1 K2)
    (D2 : DotDims ⟨2, ![R, K2]⟩ ⟨2, ![K2, N]⟩ ⟨2, ![R, N]⟩) (hD2 : D2 = DotDims.plain R K2 N)
    (h : ψ.bits < FTy.f32.bits) (z : BitVec 32)
    (hc0 : (⟨2, ![R, K1]⟩ : Shape).ShapeCasts ⟨2, ![R, K1]⟩)
    (hcb1 : (⟨2, ![1, K2]⟩ : Shape).ShapeCasts ⟨2, ![1, K2]⟩) (hbb1 : (⟨2, ![1, K2]⟩ : Shape).Broadcasts ⟨2, ![R, K2]⟩)
    (hcb2 : (⟨2, ![1, N]⟩ : Shape).ShapeCasts ⟨2, ![1, N]⟩) (hbb2 : (⟨2, ![1, N]⟩ : Shape).Broadcasts ⟨2, ![R, N]⟩)
    (x : FVec Ideal ⟨2, ![R, K1]⟩ .f32) (w1 : FVec Ideal ⟨2, ![K1, K2]⟩ .f32) (b1 : FVec Ideal ⟨2, ![1, K2]⟩ .f32)
    (w2 : FVec Ideal ⟨2, ![K2, N]⟩ .f32) (b2 : FVec Ideal ⟨2, ![1, N]⟩ .f32) (p : Fin R) (q : Fin N) :
    addf (matmul D2 none
          (truncf ψ (maximumf (addf (matmul D1 none (truncf ψ (shapeCast ⟨2, ![R, K1]⟩ x hc0) h) (truncf ψ w1 h) (constant ⟨2, ![R, K2]⟩ .f32 0x00000000#32))
              (broadcastTo ⟨2, ![R, K2]⟩ (shapeCast ⟨2, ![1, K2]⟩ b1 hcb1) hbb1))
            (broadcast ⟨2, ![R, K2]⟩ (Scalar.ofBits (F := Ideal) .f32 z))) h)
          (truncf ψ w2 h) (constant ⟨2, ![R, N]⟩ .f32 0x00000000#32))
        (broadcastTo ⟨2, ![R, N]⟩ (shapeCast ⟨2, ![1, N]⟩ b2 hcb2) hbb2) (ix2 p q)
      = (∑ k2 : Fin K2, max ((∑ k1 : Fin K1, x (ix2 p k1) * w1 (ix2 k1 k2)) + b1 (ix2 (0 : Fin 1) k2)) (Ideal.ofBits .f32 z) * w2 (ix2 k2 q))
          + b2 (ix2 (0 : Fin 1) q) := by
  rw [addRow_apply_kernel]
  refine congrArg (· + b2 (ix2 (0 : Fin 1) q)) ?_
  rw [matmul_trunc_apply D2 hD2 h _ w2 p q]
  refine Finset.sum_congr rfl fun k2 _ => congrArg (· * w2 (ix2 k2 q)) ?_
  show max (matmul D1 none (truncf ψ (shapeCast ⟨2, ![R, K1]⟩ x hc0) h) (truncf ψ w1 h) (constant ⟨2, ![R, K2]⟩ .f32 0x00000000#32) (ix2 p k2)
      + broadcastTo ⟨2, ![R, K2]⟩ (shapeCast ⟨2, ![1, K2]⟩ b1 hcb1) hbb1 (ix2 p k2)) _ = _
  rw [matmul_cast_trunc_apply D1 hD1 h hc0 x w1 p k2, SoftLayout.row_to_apply, shapeCast_self]
  rfl

/-! ## The same three on the host: whole-array operations as the entry-by-entry functions above -/

/-- The host's product of an [M, K] by a [K, N] matrix is `prod`. -/
theorem dotGeneral_eq_prod {M K N : Nat} (D : DotDims ⟨2, ![M, K]⟩ ⟨2, ![K, N]⟩ ⟨2, ![M, N]⟩) (hD : D = DotDims.plain M K N)
    (A : FVec Ideal ⟨2, ![M, K]⟩ .f32) (B : FVec Ideal ⟨2, ![K, N]⟩ .f32) : Host.dotGeneral D none A B = prod A B := by
  funext i
  obtain ⟨p, q, rfl⟩ : ∃ (p : Fin M) (q : Fin N), i = ix2 p q := ⟨i 0, i 1, eq_ix2 i⟩
  exact RowOps.dotGeneral_apply D hD none A B p q

/-- The host's sum of a matrix and a one-row matrix broadcast down its rows is `addRow`. -/
theorem addf_oneRow_eq_addRow {M N : Nat} (hbc : (⟨2, ![1, N]⟩ : Shape).BroadcastsInDim ⟨2, ![M, N]⟩ ![0, 1])
    (A : FVec Ideal ⟨2, ![M, N]⟩ .f32) (b : FVec Ideal ⟨2, ![1, N]⟩ .f32) :
    addf A (broadcastInDim ⟨2, ![M, N]⟩ ![0, 1] hbc b) = addRow A b := by
  funext i
  obtain ⟨p, q, rfl⟩ : ∃ (p : Fin M) (q : Fin N), i = ix2 p q := ⟨i 0, i 1, eq_ix2 i⟩
  show A (ix2 p q) + broadcastInDim ⟨2, ![M, N]⟩ ![0, 1] hbc b (ix2 p q) = _
  rw [broadcastInDim_oneRow_apply]
  rfl

/-- The host's maximum of a matrix with a scalar constant broadcast over it is `maxWord`. -/
theorem maximumf_const_eq_maxWord {M N : Nat} (z : BitVec 32)
    (h0 : (⟨0, ![]⟩ : Shape).BroadcastsInDim ⟨2, ![M, N]⟩ (![] : Fin 0 → Fin 2))
    (A : FVec Ideal ⟨2, ![M, N]⟩ .f32) :
    maximumf A (broadcastInDim ⟨2, ![M, N]⟩ ![] h0 (constant ⟨0, ![]⟩ .f32 z)) = maxWord A z := by
  funext i
  rfl

/-- A vector stood up as one row by a cast is the same vector broadcast along axis 1 of a one-row matrix. -/
theorem vecRow_cast_eq_broadcast {N : Nat} {α : Type} (h : (⟨1, ![N]⟩ : Shape).ShapeCasts ⟨2, ![1, N]⟩)
    (h' : (⟨1, ![N]⟩ : Shape).BroadcastsInDim ⟨2, ![1, N]⟩ (![1] : Fin 1 → Fin 2)) (v : (⟨1, ![N]⟩ : Shape).Idx → α) :
    shapeCast ⟨2, ![1, N]⟩ v h = broadcastInDim ⟨2, ![1, N]⟩ ![1] h' v := by
  funext i
  obtain ⟨z, q, rfl⟩ : ∃ (z : Fin 1) (q : Fin N), i = ix2 z q := ⟨i 0, i 1, eq_ix2 i⟩
  rw [SoftLayout.vec_row_cast_apply]
  refine (broadcastInDim_apply ![1] h' v (ix2 z q) (ix1 q) fun a => ?_).symm
  match a with
  | ⟨0, _⟩ =>
    show q.val = if N = 1 then 0 else q.val
    split
    · have := q.isLt; omega
    · rfl

end RowBlocks

end
-- ==== Proof.KIVal0.lean ====
/-
  The first dense product as a whole array: after the launch the result array holds `x · W1`, every entry the sum over the
  two features of the products of the entries — each grid point writes the product of its block of 10000 rows, the
  blocks are the consecutive runs of 10000 rows, and together they fill the array.
-/
import proofs.«149904_j79456894976559_1_alg».proof.Proof.KIReg0
import proofs.«149904_j79456894976559_1_alg».proof.Proof.LibRowBlocks
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The whole-array function this launch computes of its operands. -/
def G0 (a0 : Vec Ideal S100000x2 .f32) (a1 : Vec Ideal S2x64 .f32) : Vec Ideal S100000x64 .f32 :=
  RowBlocks.prod a0 a1

/-- The body's arithmetic on blocks, read at an entry. -/
theorem pay0_apply (x0 : Vec Ideal S10000x2 .f32) (x1 : Vec Ideal S2x64 .f32) (p : Fin 10000) (q : Fin 64) :
    k0_pay1 x0 x1 (ix2 p q) = ∑ k : Fin 2, x0 (ix2 p k) * x1 (ix2 k q) :=
  RowBlocks.matmul_trunc_apply dot_S10000x2_S2x64_S10000x64_1_0_0_1_n_n rfl bitsLt_bf16_f32 x0 x1 p q

/-- The printed block positions, decided over the grid: grid point `t` works on row block `t` of the blocked operand and of the
    result; every other operand is one block, the whole array. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

theorem tlt0 (t : Fin cfg0.N) : t.val < 10 := lt_of_lt_of_eq t.isLt N_0

/-- Row `p` of block `t` of the blocked operand is row `t · 10000 + p` of its array. -/
theorem read0_0 (c : Dev nD) (t : Fin cfg0.N) (p : Fin 10000) (k : Fin 2) (hP : t.val * 10000 + p.val < 100000) :
    iblk0 V c 0 t (ix2 p k) = V c main_arg0 (ix2 (⟨t.val * 10000 + p.val, hP⟩ : Fin 100000) k) := by
  obtain ⟨e0, e1, e2, e3, e4, e5⟩ := idx_facts0 t
  show V c main_arg0 (((cfg0.win 0).blk t).view.emb (ix2 p k)) = _
  refine congrArg (V c main_arg0) (funext fun a => Fin.ext ?_)
  match a with
  | ⟨0, _⟩ => show win0_0.index t (0 : Fin 2) * 10000 + 1 * p.val = t.val * 10000 + p.val; omega
  | ⟨1, _⟩ => show win0_0.index t (1 : Fin 2) * 2 + 1 * k.val = k.val; omega

/-- An operand held whole: its one block is the array. -/
theorem read0_1 (c : Dev nD) (t : Fin cfg0.N) (p : Fin 2) (k : Fin 64) :
    iblk0 V c 1 t (ix2 p k) = V c main_arg3 (ix2 p k) := by
  obtain ⟨e0, e1, e2, e3, e4, e5⟩ := idx_facts0 t
  show V c main_arg3 (((cfg0.win 1).blk t).view.emb (ix2 p k)) = _
  refine congrArg (V c main_arg3) (funext fun a => Fin.ext ?_)
  match a with
  | ⟨0, _⟩ => show win0_1.index t (0 : Fin 2) * 2 + 1 * p.val = p.val; omega
  | ⟨1, _⟩ => show win0_1.index t (1 : Fin 2) * 64 + 1 * k.val = k.val; omega

/-- What grid point `t` writes back is block `t` of `G0` of the operands as the launch finds them. -/
theorem flushed0_eq (c : Dev nD) (t : Fin cfg0.N) :
    (dat0 V c).flushed 2 t = ((cfg0.win 2).blk t).view.read (Elt Ideal) (G0 (V c main_arg0) (V c main_arg3)) := by
  show (cfg0.win 2).cut (grid0.coords t) ((dat0 V c).after 2 t) = _
  rw [after0_2]
  unfold out0
  rw [View.canon_unit_zero hz0]
  simp only [View.ld_unit_zero (S := S10000x2) hz0, View.ld_unit_zero (S := S2x64) hz0]
  obtain ⟨e0, e1, e2, e3, e4, e5⟩ := idx_facts0 t
  have ht := tlt0 t
  funext j
  obtain ⟨p, q, rfl⟩ : ∃ (p : Fin 10000) (q : Fin 64), j = ix2 p q := ⟨j 0, j 1, eq_ix2 j⟩
  have hP : t.val * 10000 + p.val < 100000 := by have := p.isLt; omega
  have he : ((cfg0.win 2).blk t).view.emb (ix2 p q) = ix2 (⟨t.val * 10000 + p.val, hP⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  refine (pay0_apply (iblk0 V c 0 t) (iblk0 V c 1 t) p q).trans ?_
  show _ = G0 (V c main_arg0) (V c main_arg3) (((cfg0.win 2).blk t).view.emb (ix2 p q))
  rw [he]
  unfold G0
  simp only [RowBlocks.addRow_apply, RowBlocks.prod_apply, RowBlocks.maxWord_apply, read0_0 V c t _ _ hP, read0_1]

/-- An index of the result array is in grid point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v31).slice (win0_2.rect t)).set ↔ _
  rw [View.set_slice_whole, Rect.mem_set_unit]
  exact Iff.rfl

/-- Every row of the result is in some grid point's block: row `r` in block `r / 10000`. -/
theorem cover0_arr (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hlt : (i 0).val / 10000 < grid0.N := by rw [N_0]; omega
  refine ⟨⟨(i 0).val / 10000, hlt⟩, flush0_2 _, ?_⟩
  obtain ⟨e0, e1, e2, e3, e4, e5⟩ := idx_facts0 ⟨(i 0).val / 10000, hlt⟩
  rw [mem_blk0]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, hlt⟩ (1 : Fin 2) * 64 ≤ (i 1).val ∧ (i 1).val < win0_2.index ⟨(i 0).val / 10000, hlt⟩ (1 : Fin 2) * 64 + 64
    rw [e5]
    omega

/-- After the launch the result array is `G0` of the operands as the launch found them. -/
theorem final0 (c : Dev nD) : (dat0 V c).arrAt 2 cfg0.N = G0 (V c main_arg0) (V c main_arg3) :=
  (dat0 V c).arrAt_eq_of_cover 2 _ (fun t _ => flushed0_eq V c t) (cover0_arr)

end Cert.KernelIdeal.Hand

end
-- ==== Proof.KIVal1.lean ====
/-
  The first layer's epilogue as a whole array: after the launch the result array holds `max(agg + b, 0)` entry by entry,
  the bias row laid along every row — each grid point writes its block of 10000 rows and the blocks fill the array.
-/
import proofs.«149904_j79456894976559_1_alg».proof.Proof.KIReg1
import proofs.«149904_j79456894976559_1_alg».proof.Proof.LibRowBlocks
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The whole-array function this launch computes of its operands. -/
def G1 (a0 : Vec Ideal S100000x64 .f32) (a1 : Vec Ideal S1x64 .f32) : Vec Ideal S100000x64 .f32 :=
  RowBlocks.maxWord (RowBlocks.addRow a0 a1) 0x00000000#32

/-- The body's arithmetic on blocks, read at an entry. -/
theorem pay1_apply (x0 : Vec Ideal S10000x64 .f32) (x1 : Vec Ideal S1x64 .f32) (p : Fin 10000) (q : Fin 64) :
    k1_pay1 x0 x1 (ix2 p q) = max (x0 (ix2 p q) + x1 (ix2 (0 : Fin 1) q)) (Ideal.ofBits .f32 0x00000000#32) :=
  RowBlocks.addRow_max_apply 0x00000000#32 shapeCasts_S10000x64_S10000x64 shapeCasts_S1x64_S1x64 broadcasts_S1x64_S10000x64 x0 x1 p q

/-- The printed block positions, decided over the grid: grid point `t` works on row block `t` of the blocked operand and of the
    result; every other operand is one block, the whole array. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

theorem tlt1 (t : Fin cfg1.N) : t.val < 10 := lt_of_lt_of_eq t.isLt N_1

/-- Row `p` of block `t` of the blocked operand is row `t · 10000 + p` of its array. -/
theorem read1_0 (c : Dev nD) (t : Fin cfg1.N) (p : Fin 10000) (k : Fin 64) (hP : t.val * 10000 + p.val < 100000) :
    iblk1 V c 0 t (ix2 p k) = V c main_v44 (ix2 (⟨t.val * 10000 + p.val, hP⟩ : Fin 100000) k) := by
  obtain ⟨e0, e1, e2, e3, e4, e5⟩ := idx_facts1 t
  show V c main_v44 (((cfg1.win 0).blk t).view.emb (ix2 p k)) = _
  refine congrArg (V c main_v44) (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * k.val = k.val; omega

/-- An operand held whole: its one block is the array. -/
theorem read1_1 (c : Dev nD) (t : Fin cfg1.N) (p : Fin 1) (k : Fin 64) :
    iblk1 V c 1 t (ix2 p k) = V c main_v45 (ix2 p k) := by
  obtain ⟨e0, e1, e2, e3, e4, e5⟩ := idx_facts1 t
  show V c main_v45 (((cfg1.win 1).blk t).view.emb (ix2 p k)) = _
  refine congrArg (V c main_v45) (funext fun a => Fin.ext ?_)
  match a with
  | ⟨0, _⟩ => show win1_1.index t (0 : Fin 2) * 1 + 1 * p.val = p.val; omega
  | ⟨1, _⟩ => show win1_1.index t (1 : Fin 2) * 64 + 1 * k.val = k.val; omega

/-- What grid point `t` writes back is block `t` of `G1` of the operands as the launch finds them. -/
theorem flushed1_eq (c : Dev nD) (t : Fin cfg1.N) :
    (dat1 V c).flushed 2 t = ((cfg1.win 2).blk t).view.read (Elt Ideal) (G1 (V c main_v44) (V c main_v45)) := by
  show (cfg1.win 2).cut (grid1.coords t) ((dat1 V c).after 2 t) = _
  rw [after1_2]
  unfold out1
  rw [View.canon_unit_zero hz1]
  simp only [View.ld_unit_zero (S := S10000x64) hz1, View.ld_unit_zero (S := S1x64) hz1]
  obtain ⟨e0, e1, e2, e3, e4, e5⟩ := idx_facts1 t
  have ht := tlt1 t
  funext j
  obtain ⟨p, q, rfl⟩ : ∃ (p : Fin 10000) (q : Fin 64), j = ix2 p q := ⟨j 0, j 1, eq_ix2 j⟩
  have hP : t.val * 10000 + p.val < 100000 := by have := p.isLt; omega
  have he : ((cfg1.win 2).blk t).view.emb (ix2 p q) = ix2 (⟨t.val * 10000 + p.val, hP⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 64 + 1 * q.val = q.val; omega
  refine (pay1_apply (iblk1 V c 0 t) (iblk1 V c 1 t) p q).trans ?_
  show _ = G1 (V c main_v44) (V c main_v45) (((cfg1.win 2).blk t).view.emb (ix2 p q))
  rw [he]
  unfold G1
  simp only [RowBlocks.addRow_apply, RowBlocks.prod_apply, RowBlocks.maxWord_apply, read1_0 V c t _ _ hP, read1_1]

/-- An index of the result array is in grid point `t`'s block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v46).slice (win1_2.rect t)).set ↔ _
  rw [View.set_slice_whole, Rect.mem_set_unit]
  exact Iff.rfl

/-- Every row of the result is in some grid point's block: row `r` in block `r / 10000`. -/
theorem cover1_arr (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hlt : (i 0).val / 10000 < grid1.N := by rw [N_1]; omega
  refine ⟨⟨(i 0).val / 10000, hlt⟩, flush1_2 _, ?_⟩
  obtain ⟨e0, e1, e2, e3, e4, e5⟩ := idx_facts1 ⟨(i 0).val / 10000, hlt⟩
  rw [mem_blk1]
  intro a
  match a with
  | ⟨0, _⟩ =>
    show win1_2.index ⟨(i 0).val / 10000, hlt⟩ (0 : Fin 2) * 10000 ≤ (i 0).val ∧ (i 0).val < win1_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win1_2.index ⟨(i 0).val / 10000, hlt⟩ (1 : Fin 2) * 64 ≤ (i 1).val ∧ (i 1).val < win1_2.index ⟨(i 0).val / 10000, hlt⟩ (1 : Fin 2) * 64 + 64
    rw [e5]
    omega

/-- After the launch the result array is `G1` of the operands as the launch found them. -/
theorem final1 (c : Dev nD) : (dat1 V c).arrAt 2 cfg1.N = G1 (V c main_v44) (V c main_v45) :=
  (dat1 V c).arrAt_eq_of_cover 2 _ (fun t _ => flushed1_eq V c t) (cover1_arr)

end Cert.KernelIdeal.Hand

end
-- ==== Proof.KIVal2.lean ====
/-
  The second dense product as a whole array: after the launch the result array holds `h · W2`, every entry the sum over
  the 64 hidden features of the products of the entries; ten blocks of 10000 rows fill the array.
-/
import proofs.«149904_j79456894976559_1_alg».proof.Proof.KIReg2
import proofs.«149904_j79456894976559_1_alg».proof.Proof.LibRowBlocks
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The whole-array function this launch computes of its operands. -/
def G2 (a0 : Vec Ideal S100000x64 .f32) (a1 : Vec Ideal S64x32 .f32) : Vec Ideal S100000x32 .f32 :=
  RowBlocks.prod a0 a1

/-- The body's arithmetic on blocks, read at an entry. -/
theorem pay2_apply (x0 : Vec Ideal S10000x64 .f32) (x1 : Vec Ideal S64x32 .f32) (p : Fin 10000) (q : Fin 32) :
    k2_pay1 x0 x1 (ix2 p q) = ∑ k : Fin 64, x0 (ix2 p k) * x1 (ix2 k q) :=
  RowBlocks.matmul_cast_trunc_apply dot_S10000x64_S64x32_S10000x32_1_0_0_1_n_n rfl bitsLt_bf16_f32 shapeCasts_S10000x64_S10000x64 x0 x1 p q

/-- The printed block positions, decided over the grid: grid point `t` works on row block `t` of the blocked operand and of the
    result; every other operand is one block, the whole array. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

theorem tlt2 (t : Fin cfg2.N) : t.val < 10 := lt_of_lt_of_eq t.isLt N_2

/-- Row `p` of block `t` of the blocked operand is row `t · 10000 + p` of its array. -/
theorem read2_0 (c : Dev nD) (t : Fin cfg2.N) (p : Fin 10000) (k : Fin 64) (hP : t.val * 10000 + p.val < 100000) :
    iblk2 V c 0 t (ix2 p k) = V c main_v46 (ix2 (⟨t.val * 10000 + p.val, hP⟩ : Fin 100000) k) := by
  obtain ⟨e0, e1, e2, e3, e4, e5⟩ := idx_facts2 t
  show V c main_v46 (((cfg2.win 0).blk t).view.emb (ix2 p k)) = _
  refine congrArg (V c main_v46) (funext fun a => Fin.ext ?_)
  match a with
  | ⟨0, _⟩ => show win2_0.index t (0 : Fin 2) * 10000 + 1 * p.val = t.val * 10000 + p.val; omega
  | ⟨1, _⟩ => show win2_0.index t (1 : Fin 2) * 64 + 1 * k.val = k.val; omega

/-- An operand held whole: its one block is the array. -/
theorem read2_1 (c : Dev nD) (t : Fin cfg2.N) (p : Fin 64) (k : Fin 32) :
    iblk2 V c 1 t (ix2 p k) = V c main_arg5 (ix2 p k) := by
  obtain ⟨e0, e1, e2, e3, e4, e5⟩ := idx_facts2 t
  show V c main_arg5 (((cfg2.win 1).blk t).view.emb (ix2 p k)) = _
  refine congrArg (V c main_arg5) (funext fun a => Fin.ext ?_)
  match a with
  | ⟨0, _⟩ => show win2_1.index t (0 : Fin 2) * 64 + 1 * p.val = p.val; omega
  | ⟨1, _⟩ => show win2_1.index t (1 : Fin 2) * 32 + 1 * k.val = k.val; omega

/-- What grid point `t` writes back is block `t` of `G2` of the operands as the launch finds them. -/
theorem flushed2_eq (c : Dev nD) (t : Fin cfg2.N) :
    (dat2 V c).flushed 2 t = ((cfg2.win 2).blk t).view.read (Elt Ideal) (G2 (V c main_v46) (V c main_arg5)) := by
  show (cfg2.win 2).cut (grid2.coords t) ((dat2 V c).after 2 t) = _
  rw [after2_2]
  unfold out2
  rw [View.canon_unit_zero hz2]
  simp only [View.ld_unit_zero (S := S10000x64) hz2, View.ld_unit_zero (S := S64x32) hz2]
  obtain ⟨e0, e1, e2, e3, e4, e5⟩ := idx_facts2 t
  have ht := tlt2 t
  funext j
  obtain ⟨p, q, rfl⟩ : ∃ (p : Fin 10000) (q : Fin 32), j = ix2 p q := ⟨j 0, j 1, eq_ix2 j⟩
  have hP : t.val * 10000 + p.val < 100000 := by have := p.isLt; omega
  have he : ((cfg2.win 2).blk t).view.emb (ix2 p q) = ix2 (⟨t.val * 10000 + p.val, hP⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 32 + 1 * q.val = q.val; omega
  refine (pay2_apply (iblk2 V c 0 t) (iblk2 V c 1 t) p q).trans ?_
  show _ = G2 (V c main_v46) (V c main_arg5) (((cfg2.win 2).blk t).view.emb (ix2 p q))
  rw [he]
  unfold G2
  simp only [RowBlocks.addRow_apply, RowBlocks.prod_apply, RowBlocks.maxWord_apply, read2_0 V c t _ _ hP, read2_1]

/-- An index of the result array is in grid point `t`'s block iff each coordinate is in the block's range on its axis. -/
theorem mem_blk2 (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v74).slice (win2_2.rect t)).set ↔ _
  rw [View.set_slice_whole, Rect.mem_set_unit]
  exact Iff.rfl

/-- Every row of the result is in some grid point's block: row `r` in block `r / 10000`. -/
theorem cover2_arr (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hlt : (i 0).val / 10000 < grid2.N := by rw [N_2]; omega
  refine ⟨⟨(i 0).val / 10000, hlt⟩, flush2_2 _, ?_⟩
  obtain ⟨e0, e1, e2, e3, e4, e5⟩ := idx_facts2 ⟨(i 0).val / 10000, hlt⟩
  rw [mem_blk2]
  intro a
  match a with
  | ⟨0, _⟩ =>
    show win2_2.index ⟨(i 0).val / 10000, hlt⟩ (0 : Fin 2) * 10000 ≤ (i 0).val ∧ (i 0).val < win2_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, hlt⟩ (1 : Fin 2) * 32 ≤ (i 1).val ∧ (i 1).val < win2_2.index ⟨(i 0).val / 10000, hlt⟩ (1 : Fin 2) * 32 + 32
    rw [e5]
    omega

/-- After the launch the result array is `G2` of the operands as the launch found them. -/
theorem final2 (c : Dev nD) : (dat2 V c).arrAt 2 cfg2.N = G2 (V c main_v46) (V c main_arg5) :=
  (dat2 V c).arrAt_eq_of_cover 2 _ (fun t _ => flushed2_eq V c t) (cover2_arr)

end Cert.KernelIdeal.Hand

end
-- ==== Proof.KIVal3.lean ====
/-
  The second layer's epilogue as a whole array: after the launch the result array holds `max(agg + b, 0)` entry by entry;
  ten blocks of 10000 rows fill the array.
-/
import proofs.«149904_j79456894976559_1_alg».proof.Proof.KIReg3
import proofs.«149904_j79456894976559_1_alg».proof.Proof.LibRowBlocks
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- The whole-array function this launch computes of its operands. -/
def G3 (a0 : Vec Ideal S100000x32 .f32) (a1 : Vec Ideal S1x32 .f32) : Vec Ideal S100000x32 .f32 :=
  RowBlocks.maxWord (RowBlocks.addRow a0 a1) 0x00000000#32

/-- The body's arithmetic on blocks, read at an entry. -/
theorem pay3_apply (x0 : Vec Ideal S10000x32 .f32) (x1 : Vec Ideal S1x32 .f32) (p : Fin 10000) (q : Fin 32) :
    k3_pay1 x0 x1 (ix2 p q) = max (x0 (ix2 p q) + x1 (ix2 (0 : Fin 1) q)) (Ideal.ofBits .f32 0x00000000#32) :=
  RowBlocks.addRow_max_apply 0x00000000#32 shapeCasts_S10000x32_S10000x32 shapeCasts_S1x32_S1x32 broadcasts_S1x32_S10000x32 x0 x1 p q

/-- The printed block positions, decided over the grid: grid point `t` works on row block `t` of the blocked operand and of the
    result; every other operand is one block, the whole array. -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

theorem tlt3 (t : Fin cfg3.N) : t.val < 10 := lt_of_lt_of_eq t.isLt N_3

/-- Row `p` of block `t` of the blocked operand is row `t · 10000 + p` of its array. -/
theorem read3_0 (c : Dev nD) (t : Fin cfg3.N) (p : Fin 10000) (k : Fin 32) (hP : t.val * 10000 + p.val < 100000) :
    iblk3 V c 0 t (ix2 p k) = V c main_v87 (ix2 (⟨t.val * 10000 + p.val, hP⟩ : Fin 100000) k) := by
  obtain ⟨e0, e1, e2, e3, e4, e5⟩ := idx_facts3 t
  show V c main_v87 (((cfg3.win 0).blk t).view.emb (ix2 p k)) = _
  refine congrArg (V c main_v87) (funext fun a => Fin.ext ?_)
  match a with
  | ⟨0, _⟩ => show win3_0.index t (0 : Fin 2) * 10000 + 1 * p.val = t.val * 10000 + p.val; omega
  | ⟨1, _⟩ => show win3_0.index t (1 : Fin 2) * 32 + 1 * k.val = k.val; omega

/-- An operand held whole: its one block is the array. -/
theorem read3_1 (c : Dev nD) (t : Fin cfg3.N) (p : Fin 1) (k : Fin 32) :
    iblk3 V c 1 t (ix2 p k) = V c main_v88 (ix2 p k) := by
  obtain ⟨e0, e1, e2, e3, e4, e5⟩ := idx_facts3 t
  show V c main_v88 (((cfg3.win 1).blk t).view.emb (ix2 p k)) = _
  refine congrArg (V c main_v88) (funext fun a => Fin.ext ?_)
  match a with
  | ⟨0, _⟩ => show win3_1.index t (0 : Fin 2) * 1 + 1 * p.val = p.val; omega
  | ⟨1, _⟩ => show win3_1.index t (1 : Fin 2) * 32 + 1 * k.val = k.val; omega

/-- What grid point `t` writes back is block `t` of `G3` of the operands as the launch finds them. -/
theorem flushed3_eq (c : Dev nD) (t : Fin cfg3.N) :
    (dat3 V c).flushed 2 t = ((cfg3.win 2).blk t).view.read (Elt Ideal) (G3 (V c main_v87) (V c main_v88)) := by
  show (cfg3.win 2).cut (grid3.coords t) ((dat3 V c).after 2 t) = _
  rw [after3_2]
  unfold out3
  rw [View.canon_unit_zero hz3]
  simp only [View.ld_unit_zero (S := S10000x32) hz3, View.ld_unit_zero (S := S1x32) hz3]
  obtain ⟨e0, e1, e2, e3, e4, e5⟩ := idx_facts3 t
  have ht := tlt3 t
  funext j
  obtain ⟨p, q, rfl⟩ : ∃ (p : Fin 10000) (q : Fin 32), j = ix2 p q := ⟨j 0, j 1, eq_ix2 j⟩
  have hP : t.val * 10000 + p.val < 100000 := by have := p.isLt; omega
  have he : ((cfg3.win 2).blk t).view.emb (ix2 p q) = ix2 (⟨t.val * 10000 + p.val, hP⟩ : Fin 100000) q := by
    funext a; apply Fin.ext
    match a with
    | ⟨0, _⟩ => show win3_2.index t (0 : Fin 2) * 10000 + 1 * p.val = t.val * 10000 + p.val; omega
    | ⟨1, _⟩ => show win3_2.index t (1 : Fin 2) * 32 + 1 * q.val = q.val; omega
  refine (pay3_apply (iblk3 V c 0 t) (iblk3 V c 1 t) p q).trans ?_
  show _ = G3 (V c main_v87) (V c main_v88) (((cfg3.win 2).blk t).view.emb (ix2 p q))
  rw [he]
  unfold G3
  simp only [RowBlocks.addRow_apply, RowBlocks.prod_apply, RowBlocks.maxWord_apply, read3_0 V c t _ _ hP, read3_1]

/-- An index of the result array is in grid point `t`'s block iff each coordinate is in the block's range on its axis. -/
theorem mem_blk3 (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v89).slice (win3_2.rect t)).set ↔ _
  rw [View.set_slice_whole, Rect.mem_set_unit]
  exact Iff.rfl

/-- Every row of the result is in some grid point's block: row `r` in block `r / 10000`. -/
theorem cover3_arr (i : S100000x32.Idx) : ∃ t : Fin cfg3.N, (cfg3.win 2).flush t = true ∧ i ∈ ((cfg3.win 2).blk t).view.set := by
  have hi0 : (i 0).val < 100000 := (i 0).isLt
  have hi1 : (i 1).val < 32 := (i 1).isLt
  have hlt : (i 0).val / 10000 < grid3.N := by rw [N_3]; omega
  refine ⟨⟨(i 0).val / 10000, hlt⟩, flush3_2 _, ?_⟩
  obtain ⟨e0, e1, e2, e3, e4, e5⟩ := idx_facts3 ⟨(i 0).val / 10000, hlt⟩
  rw [mem_blk3]
  intro a
  match a with
  | ⟨0, _⟩ =>
    show win3_2.index ⟨(i 0).val / 10000, hlt⟩ (0 : Fin 2) * 10000 ≤ (i 0).val ∧ (i 0).val < win3_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win3_2.index ⟨(i 0).val / 10000, hlt⟩ (1 : Fin 2) * 32 ≤ (i 1).val ∧ (i 1).val < win3_2.index ⟨(i 0).val / 10000, hlt⟩ (1 : Fin 2) * 32 + 32
    rw [e5]
    omega

/-- After the launch the result array is `G3` of the operands as the launch found them. -/
theorem final3 (c : Dev nD) : (dat3 V c).arrAt 2 cfg3.N = G3 (V c main_v87) (V c main_v88) :=
  (dat3 V c).arrAt_eq_of_cover 2 _ (fun t _ => flushed3_eq V c t) (cover3_arr)

end Cert.KernelIdeal.Hand

end
-- ==== Proof.KIVal4.lean ====
/-
  The edge network as a whole array: after the launch the result array holds, for every edge, `max(ef · Wm1 + bm1, 0) · Wm2 + bm2`,
  the two bias rows laid along every row; eighty blocks of 20000 edge rows fill the array.
-/
import proofs.«149904_j79456894976559_1_alg».proof.Proof.KIReg4
import proofs.«149904_j79456894976559_1_alg».proof.Proof.LibRowBlocks
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- The whole-array function this launch computes of its operands. -/
def G4 (a0 : Vec Ideal S1600000x66 .f32) (a1 : Vec Ideal S66x16 .f32) (a2 : Vec Ideal S1x16 .f32) (a3 : Vec Ideal S16x1 .f32) (a4 : Vec Ideal S1x1 .f32) : Vec Ideal S1600000x1 .f32 :=
  RowBlocks.addRow (RowBlocks.prod (RowBlocks.maxWord (RowBlocks.addRow (RowBlocks.prod a0 a1) a2) 0x00000000#32) a3) a4

/-- The body's arithmetic on blocks, read at an entry. -/
theorem pay4_apply (x0 : Vec Ideal S20000x66 .f32) (x1 : Vec Ideal S66x16 .f32) (x2 : Vec Ideal S1x16 .f32) (x3 : Vec Ideal S16x1 .f32) (x4 : Vec Ideal S1x1 .f32) (p : Fin 20000) (q : Fin 1) :
    k4_pay1 x0 x1 x2 x3 x4 (ix2 p q) = (∑ k2 : Fin 16, max ((∑ k1 : Fin 66, x0 (ix2 p k1) * x1 (ix2 k1 k2)) + x2 (ix2 (0 : Fin 1) k2)) (Ideal.ofBits .f32 0x00000000#32) * x3 (ix2 k2 q)) + x4 (ix2 (0 : Fin 1) q) :=
  RowBlocks.edge_apply dot_S20000x66_S66x16_S20000x16_1_0_0_1_n_n rfl dot_S20000x16_S16x1_S20000x1_1_0_0_1_n_n rfl bitsLt_bf16_f32 0x00000000#32
    shapeCasts_S20000x66_S20000x66 shapeCasts_S1x16_S1x16 broadcasts_S1x16_S20000x16 shapeCasts_S1x1_S1x1 broadcasts_S1x1_S20000x1 x0 x1 x2 x3 x4 p q

/-- The printed block positions, decided over the grid: grid point `t` works on row block `t` of the blocked operand and of the
    result; every other operand is one block, the whole array. -/
theorem idx_facts4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = t.val
    ∧ win4_5.index t (1 : Fin 2) = 0 :=
  (by decide +kernel : ∀ t : Fin grid4.N, _)

theorem tlt4 (t : Fin cfg4.N) : t.val < 80 := lt_of_lt_of_eq t.isLt N_4

/-- Row `p` of block `t` of the blocked operand is row `t · 20000 + p` of its array. -/
theorem read4_0 (c : Dev nD) (t : Fin cfg4.N) (p : Fin 20000) (k : Fin 66) (hP : t.val * 20000 + p.val < 1600000) :
    iblk4 V c 0 t (ix2 p k) = V c main_v104 (ix2 (⟨t.val * 20000 + p.val, hP⟩ : Fin 1600000) k) := by
  obtain ⟨e0, e1, e2, e3, e4, e5, e6, e7, e8, e9, e10, e11⟩ := idx_facts4 t
  show V c main_v104 (((cfg4.win 0).blk t).view.emb (ix2 p k)) = _
  refine congrArg (V c main_v104) (funext fun a => Fin.ext ?_)
  match a with
  | ⟨0, _⟩ => show win4_0.index t (0 : Fin 2) * 20000 + 1 * p.val = t.val * 20000 + p.val; omega
  | ⟨1, _⟩ => show win4_0.index t (1 : Fin 2) * 66 + 1 * k.val = k.val; omega

/-- An operand held whole: its one block is the array. -/
theorem read4_1 (c : Dev nD) (t : Fin cfg4.N) (p : Fin 66) (k : Fin 16) :
    iblk4 V c 1 t (ix2 p k) = V c main_arg7 (ix2 p k) := by
  obtain ⟨e0, e1, e2, e3, e4, e5, e6, e7, e8, e9, e10, e11⟩ := idx_facts4 t
  show V c main_arg7 (((cfg4.win 1).blk t).view.emb (ix2 p k)) = _
  refine congrArg (V c main_arg7) (funext fun a => Fin.ext ?_)
  match a with
  | ⟨0, _⟩ => show win4_1.index t (0 : Fin 2) * 66 + 1 * p.val = p.val; omega
  | ⟨1, _⟩ => show win4_1.index t (1 : Fin 2) * 16 + 1 * k.val = k.val; omega

/-- An operand held whole: its one block is the array. -/
theorem read4_2 (c : Dev nD) (t : Fin cfg4.N) (p : Fin 1) (k : Fin 16) :
    iblk4 V c 2 t (ix2 p k) = V c main_v105 (ix2 p k) := by
  obtain ⟨e0, e1, e2, e3, e4, e5, e6, e7, e8, e9, e10, e11⟩ := idx_facts4 t
  show V c main_v105 (((cfg4.win 2).blk t).view.emb (ix2 p k)) = _
  refine congrArg (V c main_v105) (funext fun a => Fin.ext ?_)
  match a with
  | ⟨0, _⟩ => show win4_2.index t (0 : Fin 2) * 1 + 1 * p.val = p.val; omega
  | ⟨1, _⟩ => show win4_2.index t (1 : Fin 2) * 16 + 1 * k.val = k.val; omega

/-- An operand held whole: its one block is the array. -/
theorem read4_3 (c : Dev nD) (t : Fin cfg4.N) (p : Fin 16) (k : Fin 1) :
    iblk4 V c 3 t (ix2 p k) = V c main_arg9 (ix2 p k) := by
  obtain ⟨e0, e1, e2, e3, e4, e5, e6, e7, e8, e9, e10, e11⟩ := idx_facts4 t
  show V c main_arg9 (((cfg4.win 3).blk t).view.emb (ix2 p k)) = _
  refine congrArg (V c main_arg9) (funext fun a => Fin.ext ?_)
  match a with
  | ⟨0, _⟩ => show win4_3.index t (0 : Fin 2) * 16 + 1 * p.val = p.val; omega
  | ⟨1, _⟩ => show win4_3.index t (1 : Fin 2) * 1 + 1 * k.val = k.val; omega

/-- An operand held whole: its one block is the array. -/
theorem read4_4 (c : Dev nD) (t : Fin cfg4.N) (p : Fin 1) (k : Fin 1) :
    iblk4 V c 4 t (ix2 p k) = V c main_v106 (ix2 p k) := by
  obtain ⟨e0, e1, e2, e3, e4, e5, e6, e7, e8, e9, e10, e11⟩ := idx_facts4 t
  show V c main_v106 (((cfg4.win 4).blk t).view.emb (ix2 p k)) = _
  refine congrArg (V c main_v106) (funext fun a => Fin.ext ?_)
  match a with
  | ⟨0, _⟩ => show win4_4.index t (0 : Fin 2) * 1 + 1 * p.val = p.val; omega
  | ⟨1, _⟩ => show win4_4.index t (1 : Fin 2) * 1 + 1 * k.val = k.val; omega

/-- What grid point `t` writes back is block `t` of `G4` of the operands as the launch finds them. -/
theorem flushed4_eq (c : Dev nD) (t : Fin cfg4.N) :
    (dat4 V c).flushed 5 t = ((cfg4.win 5).blk t).view.read (Elt Ideal) (G4 (V c main_v104) (V c main_arg7) (V c main_v105) (V c main_arg9) (V c main_v106)) := by
  show (cfg4.win 5).cut (grid4.coords t) ((dat4 V c).after 5 t) = _
  rw [after4_5]
  unfold out4
  rw [View.canon_unit_zero hz4]
  simp only [View.ld_unit_zero (S := S20000x66) hz4, View.ld_unit_zero (S := S66x16) hz4, View.ld_unit_zero (S := S1x16) hz4, View.ld_unit_zero (S := S16x1) hz4, View.ld_unit_zero (S := S1x1) hz4]
  obtain ⟨e0, e1, e2, e3, e4, e5, e6, e7, e8, e9, e10, e11⟩ := idx_facts4 t
  have ht := tlt4 t
  funext j
  obtain ⟨p, q, rfl⟩ : ∃ (p : Fin 20000) (q : Fin 1), j = ix2 p q := ⟨j 0, j 1, eq_ix2 j⟩
  have hP : t.val * 20000 + p.val < 1600000 := by have := p.isLt; omega
  have he : ((cfg4.win 5).blk t).view.emb (ix2 p q) = ix2 (⟨t.val * 20000 + p.val, hP⟩ : Fin 1600000) q := by
    funext a; apply Fin.ext
    match a with
    | ⟨0, _⟩ => show win4_5.index t (0 : Fin 2) * 20000 + 1 * p.val = t.val * 20000 + p.val; omega
    | ⟨1, _⟩ => show win4_5.index t (1 : Fin 2) * 1 + 1 * q.val = q.val; omega
  refine (pay4_apply (iblk4 V c 0 t) (iblk4 V c 1 t) (iblk4 V c 2 t) (iblk4 V c 3 t) (iblk4 V c 4 t) p q).trans ?_
  show _ = G4 (V c main_v104) (V c main_arg7) (V c main_v105) (V c main_arg9) (V c main_v106) (((cfg4.win 5).blk t).view.emb (ix2 p q))
  rw [he]
  unfold G4
  simp only [RowBlocks.addRow_apply, RowBlocks.prod_apply, RowBlocks.maxWord_apply, read4_0 V c t _ _ hP, read4_1, read4_2, read4_3, read4_4]

/-- An index of the result array is in grid point `t`'s block iff each coordinate is in the block's range on its axis. -/
theorem mem_blk4 (t : Fin cfg4.N) (i : S1600000x1.Idx) :
    i ∈ ((cfg4.win 5).blk t).view.set ↔ ∀ a : Fin 2, win4_5.index t a * S20000x1.size a ≤ (i a).val ∧ (i a).val < win4_5.index t a * S20000x1.size a + S20000x1.size a := by
  show i ∈ ((View.whole main_v107).slice (win4_5.rect t)).set ↔ _
  rw [View.set_slice_whole, Rect.mem_set_unit]
  exact Iff.rfl

/-- Every row of the result is in some grid point's block: row `r` in block `r / 20000`. -/
theorem cover4_arr (i : S1600000x1.Idx) : ∃ t : Fin cfg4.N, (cfg4.win 5).flush t = true ∧ i ∈ ((cfg4.win 5).blk t).view.set := by
  have hi0 : (i 0).val < 1600000 := (i 0).isLt
  have hi1 : (i 1).val < 1 := (i 1).isLt
  have hlt : (i 0).val / 20000 < grid4.N := by rw [N_4]; omega
  refine ⟨⟨(i 0).val / 20000, hlt⟩, flush4_5 _, ?_⟩
  obtain ⟨e0, e1, e2, e3, e4, e5, e6, e7, e8, e9, e10, e11⟩ := idx_facts4 ⟨(i 0).val / 20000, hlt⟩
  rw [mem_blk4]
  intro a
  match a with
  | ⟨0, _⟩ =>
    show win4_5.index ⟨(i 0).val / 20000, hlt⟩ (0 : Fin 2) * 20000 ≤ (i 0).val ∧ (i 0).val < win4_5.index ⟨(i 0).val / 20000, hlt⟩ (0 : Fin 2) * 20000 + 20000
    rw [e10]
    show (i 0).val / 20000 * 20000 ≤ (i 0).val ∧ (i 0).val < (i 0).val / 20000 * 20000 + 20000
    omega
  | ⟨1, _⟩ =>
    show win4_5.index ⟨(i 0).val / 20000, hlt⟩ (1 : Fin 2) * 1 ≤ (i 1).val ∧ (i 1).val < win4_5.index ⟨(i 0).val / 20000, hlt⟩ (1 : Fin 2) * 1 + 1
    rw [e11]
    omega

/-- After the launch the result array is `G4` of the operands as the launch found them. -/
theorem final4 (c : Dev nD) : (dat4 V c).arrAt 5 cfg4.N = G4 (V c main_v104) (V c main_arg7) (V c main_v105) (V c main_arg9) (V c main_v106) :=
  (dat4 V c).arrAt_eq_of_cover 5 _ (fun t _ => flushed4_eq V c t) (cover4_arr)

end Cert.KernelIdeal.Hand

end
-- ==== Proof.LibHostFold.lean ====
/-
  A straight line of host operations run in two parts: the contents after the whole line are the contents after the
  second part run from the contents after the first. (The fold of the operations' results over a list splits at any
  point of the list.)
-/
import Idealize.ShloMosaic.Lib.StableHlo.Run

namespace HostFold

open Idealize.ShloMosaic Idealize.ShloMosaic.StableHlo

variable {τ : Topo} {sig : RefSig} {Val : EltTy → Type}

/-- Two stretches run one after the other: the second folds over what the first left. -/
theorem after_append (l₁ l₂ : List (HloOp τ sig Val)) :
    ∀ V : Valuation τ sig Val, after (l₁ ++ l₂) V = after l₂ (after l₁ V) := by
  induction l₁ with
  | nil => intro V; rfl
  | cons op l ih => intro V; simp only [List.cons_append, after_cons, ih]

end HostFold
-- ==== Proof.Bridge.lean ====
/-
  The two programs compute one function. Between the kernel launches both programs apply the same host operations to the
  same values — the edge lists, the degrees and their inverse square roots, the gathers of rows, the scaling and the
  accumulating scatters — and each launch's result array is the reference's corresponding stage: the dense products are
  the reference's products, the epilogues are its bias-add and maximum with zero, and the edge network is its two
  products with their bias rows. Stage by stage, in program order, each buffer of the idealized kernel's run is the
  reference's value of the same arguments; the last one is the result.
-/
import proofs.«149904_j79456894976559_1_alg».proof.Proof.KIRun
import proofs.«149904_j79456894976559_1_alg».proof.Proof.KIVal0
import proofs.«149904_j79456894976559_1_alg».proof.Proof.KIVal1
import proofs.«149904_j79456894976559_1_alg».proof.Proof.KIVal2
import proofs.«149904_j79456894976559_1_alg».proof.Proof.KIVal3
import proofs.«149904_j79456894976559_1_alg».proof.Proof.KIVal4
import proofs.«149904_j79456894976559_1_alg».proof.Proof.RefReadP
import proofs.«149904_j79456894976559_1_alg».proof.Proof.LibRowBlocks
import proofs.«149904_j79456894976559_1_alg».proof.Proof.LibHostFold
import Idealize.ShloMosaic.Lib.StableHlo.Run

set_option maxRecDepth 16384

noncomputable section

namespace Cert.Bridge

open Cert.KernelIdeal Cert.KernelIdeal.Gen Cert.KernelIdeal.Hand
open Cert.ReferenceIdeal.ReadP
open Idealize.ShloMosaic Idealize.ShloMosaic.TcCoe Idealize.ShloMosaic.ValueIdx Idealize.ShloMosaic.StableHlo
open Idealize.SL.Sem

/-! ## The reference's stages after each launch's counterpart, as the launch's whole-array function -/

/-- The reference's first product is the entry-by-entry product. -/
theorem ref_v4 (x0 : (⟨Cert.ReferenceIdeal.S100000x2, .f32⟩ : BufTy).Contents (Elt Ideal)) (x3 : (⟨Cert.ReferenceIdeal.S2x64, .f32⟩ : BufTy).Contents (Elt Ideal)) :
    (val_main_v4 (F := Ideal) x0 x3) = RowBlocks.prod x0 x3 := by
  unfold val_main_v4
  exact RowBlocks.dotGeneral_eq_prod Cert.ReferenceIdeal.dot_S100000x2_S2x64_S100000x64_1_0_0_1_n_n rfl x0 x3

/-- The reference's first activations: the bias row added to every row of the aggregate, then the maximum with zero. -/
theorem ref_v48 (x0 : (⟨Cert.ReferenceIdeal.S100000x2, .f32⟩ : BufTy).Contents (Elt Ideal)) (x1 : (⟨Cert.ReferenceIdeal.S2x1600000, .i32⟩ : BufTy).Contents (Elt Ideal)) (x3 : (⟨Cert.ReferenceIdeal.S2x64, .f32⟩ : BufTy).Contents (Elt Ideal)) (x4 : (⟨Cert.ReferenceIdeal.S64, .f32⟩ : BufTy).Contents (Elt Ideal)) :
    (val_main_v48 (F := Ideal) x0 x1 x3 x4) = RowBlocks.maxWord (RowBlocks.addRow (val_main_v44 (F := Ideal) x0 x1 x3) (val_main_v45 (F := Ideal) x4)) 0x00000000#32 := by
  unfold val_main_v48 val_main_v47 val_main_v46 val_main_call1_v0 val_main_call1_cst
  rw [RowBlocks.addf_oneRow_eq_addRow, RowBlocks.maximumf_const_eq_maxWord]

/-- The reference's second product. -/
theorem ref_v49 (x0 : (⟨Cert.ReferenceIdeal.S100000x2, .f32⟩ : BufTy).Contents (Elt Ideal)) (x1 : (⟨Cert.ReferenceIdeal.S2x1600000, .i32⟩ : BufTy).Contents (Elt Ideal)) (x3 : (⟨Cert.ReferenceIdeal.S2x64, .f32⟩ : BufTy).Contents (Elt Ideal)) (x4 : (⟨Cert.ReferenceIdeal.S64, .f32⟩ : BufTy).Contents (Elt Ideal)) (x5 : (⟨Cert.ReferenceIdeal.S64x32, .f32⟩ : BufTy).Contents (Elt Ideal)) :
    (val_main_v49 (F := Ideal) x0 x1 x3 x4 x5) = RowBlocks.prod (val_main_v48 (F := Ideal) x0 x1 x3 x4) x5 := by
  unfold val_main_v49
  exact RowBlocks.dotGeneral_eq_prod Cert.ReferenceIdeal.dot_S100000x64_S64x32_S100000x32_1_0_0_1_n_n rfl _ x5

/-- The reference's second activations. -/
theorem ref_v93 (x0 : (⟨Cert.ReferenceIdeal.S100000x2, .f32⟩ : BufTy).Contents (Elt Ideal)) (x1 : (⟨Cert.ReferenceIdeal.S2x1600000, .i32⟩ : BufTy).Contents (Elt Ideal)) (x3 : (⟨Cert.ReferenceIdeal.S2x64, .f32⟩ : BufTy).Contents (Elt Ideal)) (x4 : (⟨Cert.ReferenceIdeal.S64, .f32⟩ : BufTy).Contents (Elt Ideal)) (x5 : (⟨Cert.ReferenceIdeal.S64x32, .f32⟩ : BufTy).Contents (Elt Ideal)) (x6 : (⟨Cert.ReferenceIdeal.S32, .f32⟩ : BufTy).Contents (Elt Ideal)) :
    (val_main_v93 (F := Ideal) x0 x1 x3 x4 x5 x6) = RowBlocks.maxWord (RowBlocks.addRow (val_main_v89 (F := Ideal) x0 x1 x3 x4 x5) (val_main_v90 (F := Ideal) x6)) 0x00000000#32 := by
  unfold val_main_v93 val_main_v92 val_main_v91 val_main_call3_v0 val_main_call3_cst
  rw [RowBlocks.addf_oneRow_eq_addRow, RowBlocks.maximumf_const_eq_maxWord]

/-- The reference's edge network: a product, a bias row, the maximum with zero, a second product, a second bias row. -/
theorem ref_v117 (x0 : (⟨Cert.ReferenceIdeal.S100000x2, .f32⟩ : BufTy).Contents (Elt Ideal)) (x1 : (⟨Cert.ReferenceIdeal.S2x1600000, .i32⟩ : BufTy).Contents (Elt Ideal)) (x2 : (⟨Cert.ReferenceIdeal.S1600000x2, .f32⟩ : BufTy).Contents (Elt Ideal)) (x3 : (⟨Cert.ReferenceIdeal.S2x64, .f32⟩ : BufTy).Contents (Elt Ideal)) (x4 : (⟨Cert.ReferenceIdeal.S64, .f32⟩ : BufTy).Contents (Elt Ideal)) (x5 : (⟨Cert.ReferenceIdeal.S64x32, .f32⟩ : BufTy).Contents (Elt Ideal)) (x6 : (⟨Cert.ReferenceIdeal.S32, .f32⟩ : BufTy).Contents (Elt Ideal)) (x7 : (⟨Cert.ReferenceIdeal.S66x16, .f32⟩ : BufTy).Contents (Elt Ideal)) (x8 : (⟨Cert.ReferenceIdeal.S16, .f32⟩ : BufTy).Contents (Elt Ideal)) (x9 : (⟨Cert.ReferenceIdeal.S16x1, .f32⟩ : BufTy).Contents (Elt Ideal)) (x10 : (⟨Cert.ReferenceIdeal.S1, .f32⟩ : BufTy).Contents (Elt Ideal)) :
    (val_main_v117 (F := Ideal) x0 x1 x2 x3 x4 x5 x6 x7 x8 x9 x10) = RowBlocks.addRow (RowBlocks.prod (RowBlocks.maxWord (RowBlocks.addRow (RowBlocks.prod (val_main_v108 (F := Ideal) x0 x1 x2 x3 x4 x5 x6) x7) (val_main_v110 (F := Ideal) x8)) 0x00000000#32) x9) (val_main_v115 (F := Ideal) x10) := by
  unfold val_main_v117 val_main_v116 val_main_v114 val_main_v113 val_main_call4_v0 val_main_call4_cst val_main_v112 val_main_v111 val_main_v109
  rw [RowBlocks.addf_oneRow_eq_addRow, RowBlocks.dotGeneral_eq_prod Cert.ReferenceIdeal.dot_S1600000x16_S16x1_S1600000x1_1_0_0_1_n_n rfl,
    RowBlocks.maximumf_const_eq_maxWord, RowBlocks.addf_oneRow_eq_addRow,
    RowBlocks.dotGeneral_eq_prod Cert.ReferenceIdeal.dot_S1600000x66_S66x16_S1600000x16_1_0_0_1_n_n rfl]

/-! ## The kernel's buffers, stage by stage -/

variable (m : (ℓ : Loc nD τ sig) → Buf (Elt Ideal) ℓ) (ρ : Dev nD → PrngReg) (c : Dev nD)

theorem K_main_v1 : W1 m ρ c (Proc.devRef .tc main_v1) = (val_main_v1 (F := Ideal) (m ((c : Thread nD τ).loc main_arg1))) := by
  have h0 : W0 m ρ c (Proc.devRef .tc main_arg1) = (m ((c : Thread nD τ).loc main_arg1)) := rfl
  show StableHlo.after hostOps0 (W0 m ρ c) (Proc.devRef .tc main_v1) = _
  generalize W0 m ρ c = X at h0 ⊢
  dsimp only [hostOps0]
  after_results
  try rw [h0]
  simp only [val_main_v1, val_main_v0]
  all_goals rfl

theorem K_main_v3 : W1 m ρ c (Proc.devRef .tc main_v3) = (val_main_v3 (F := Ideal) (m ((c : Thread nD τ).loc main_arg1))) := by
  have h0 : W0 m ρ c (Proc.devRef .tc main_arg1) = (m ((c : Thread nD τ).loc main_arg1)) := rfl
  show StableHlo.after hostOps0 (W0 m ρ c) (Proc.devRef .tc main_v3) = _
  generalize W0 m ρ c = X at h0 ⊢
  dsimp only [hostOps0]
  after_results
  try rw [h0]
  simp only [val_main_v3, val_main_v2]
  all_goals rfl

theorem K_main_v5 : W1 m ρ c (Proc.devRef .tc main_v5) = (val_main_v6 (F := Ideal) (m ((c : Thread nD τ).loc main_arg1))) := by
  have h0 : W0 m ρ c (Proc.devRef .tc main_arg1) = (m ((c : Thread nD τ).loc main_arg1)) := rfl
  show StableHlo.after hostOps0 (W0 m ρ c) (Proc.devRef .tc main_v5) = _
  generalize W0 m ρ c = X at h0 ⊢
  dsimp only [hostOps0]
  after_results
  try rw [h0]
  simp only [val_main_v6, val_main_v1, val_main_v0, val_main_v5]
  all_goals rfl

theorem K_main_v6 : W1 m ρ c (Proc.devRef .tc main_v6) = (val_main_v7 (F := Ideal) (m ((c : Thread nD τ).loc main_arg1))) := by
  have h0 : W0 m ρ c (Proc.devRef .tc main_arg1) = (m ((c : Thread nD τ).loc main_arg1)) := rfl
  show StableHlo.after hostOps0 (W0 m ρ c) (Proc.devRef .tc main_v6) = _
  generalize W0 m ρ c = X at h0 ⊢
  dsimp only [hostOps0]
  after_results
  try rw [h0]
  simp only [val_main_v7, val_main_v3, val_main_v2, val_main_v5]
  all_goals rfl

theorem K_main_v12 : W1 m ρ c (Proc.devRef .tc main_v12) = (val_main_v13 (F := Ideal) (m ((c : Thread nD τ).loc main_arg1))) := by
  have h0 : W0 m ρ c (Proc.devRef .tc main_arg1) = (m ((c : Thread nD τ).loc main_arg1)) := rfl
  show StableHlo.after hostOps0 (W0 m ρ c) (Proc.devRef .tc main_v12) = _
  generalize W0 m ρ c = X at h0 ⊢
  dsimp only [hostOps0]
  after_results
  try rw [h0]
  simp only [val_main_v13, val_main_v11, val_main_v9, val_main_cst_0, val_main_v10, val_main_v7, val_main_v3, val_main_v2, val_main_v5, val_main_v8, val_main_cst, val_main_v12, val_main_cst_1]
  all_goals rfl

theorem K_main_v14 : W1 m ρ c (Proc.devRef .tc main_v14) = (val_main_v15 (F := Ideal) (m ((c : Thread nD τ).loc main_arg1))) := by
  have h0 : W0 m ρ c (Proc.devRef .tc main_arg1) = (m ((c : Thread nD τ).loc main_arg1)) := rfl
  show StableHlo.after hostOps0 (W0 m ρ c) (Proc.devRef .tc main_v14) = _
  generalize W0 m ρ c = X at h0 ⊢
  dsimp only [hostOps0]
  after_results
  try rw [h0]
  simp only [val_main_v15, val_main_v11, val_main_v9, val_main_cst_0, val_main_v10, val_main_v7, val_main_v3, val_main_v2, val_main_v5, val_main_v8, val_main_cst, val_main_v14, val_main_cst_2]
  all_goals rfl

theorem K_main_cst_3 : W1 m ρ c (Proc.devRef .tc main_cst_3) = (val_main_cst_3 (F := Ideal)) := by
  have h0 : W0 m ρ c (Proc.devRef .tc main_arg1) = (m ((c : Thread nD τ).loc main_arg1)) := rfl
  show StableHlo.after hostOps0 (W0 m ρ c) (Proc.devRef .tc main_cst_3) = _
  generalize W0 m ρ c = X at h0 ⊢
  dsimp only [hostOps0]
  after_results
  try rw [h0]
  simp only [val_main_cst_3]
  all_goals rfl

theorem K_main_v15 : W2 m ρ c (Proc.devRef .tc main_v15) = (val_main_v16 (F := Ideal) (m ((c : Thread nD τ).loc main_arg1))) := by
  have h0 : W1 m ρ c (Proc.devRef .tc main_cst_3) = (val_main_cst_3 (F := Ideal)) := (K_main_cst_3 m ρ c)
  have h1 : W1 m ρ c (Proc.devRef .tc main_v12) = (val_main_v13 (F := Ideal) (m ((c : Thread nD τ).loc main_arg1))) := (K_main_v12 m ρ c)
  have h2 : W1 m ρ c (Proc.devRef .tc main_v14) = (val_main_v15 (F := Ideal) (m ((c : Thread nD τ).loc main_arg1))) := (K_main_v14 m ρ c)
  show StableHlo.after hostOps0_1 (W1 m ρ c) (Proc.devRef .tc main_v15) = _
  generalize W1 m ρ c = X at h0 h1 h2 ⊢
  dsimp only [hostOps0_1]
  after_results
  dsimp only [TRef.of]
  try rw [h0]
  try rw [h1]
  try rw [h2]
  simp only [val_main_v16, val_main_call0_v1, val_main_call0_v0]
  refine eq_of_heq ((cast_heq _ _).trans (heq_of_eq ?_))
  refine congr (congr (congrArg select (eq_of_heq (cast_heq _ _))) (eq_of_heq (cast_heq _ _))) ?_
  refine (eq_of_heq (cast_heq _ _)).trans ((eq_of_heq (cast_heq _ _)).trans ?_)
  refine congrArg (broadcastInDim (s := S_) S100000 ![] bcast_S_S100000) ?_
  refine (eq_of_heq (cast_heq _ _)).trans ((eq_of_heq (cast_heq _ _)).trans ?_)
  exact congrArg id (eq_of_heq (cast_heq _ _))

theorem K_main_v30 : W3 m ρ c (Proc.devRef .tc main_v30) = (val_main_v31 (F := Ideal) (m ((c : Thread nD τ).loc main_arg1))) := by
  have h0 : W2 m ρ c (Proc.devRef .tc main_v5) = (val_main_v6 (F := Ideal) (m ((c : Thread nD τ).loc main_arg1))) := ((W2_of m ρ c main_v5 (by decide)).trans (K_main_v5 m ρ c))
  have h1 : W2 m ρ c (Proc.devRef .tc main_v6) = (val_main_v7 (F := Ideal) (m ((c : Thread nD τ).loc main_arg1))) := ((W2_of m ρ c main_v6 (by decide)).trans (K_main_v6 m ρ c))
  have h2 : W2 m ρ c (Proc.devRef .tc main_v15) = (val_main_v16 (F := Ideal) (m ((c : Thread nD τ).loc main_arg1))) := (K_main_v15 m ρ c)
  show StableHlo.after hostOps0_2 (W2 m ρ c) (Proc.devRef .tc main_v30) = _
  generalize W2 m ρ c = X at h0 h1 h2 ⊢
  dsimp only [hostOps0_2]
  after_results_simp
  try rw [h0]
  try rw [h1]
  try rw [h2]
  simp only [val_main_v31, val_main_v23, val_main_v22, val_main_v21, val_main_v18, val_main_v17, val_main_c, val_main_v20, val_main_v19, val_main_c_4, val_main_v30, val_main_v29, val_main_v28, val_main_v25, val_main_v24, val_main_c_5, val_main_v27, val_main_v26, val_main_c_6]
  all_goals rfl

theorem K_main_v31 : W4 m ρ c (Proc.devRef .tc main_v31) = (val_main_v4 (F := Ideal) (m ((c : Thread nD τ).loc main_arg0)) (m ((c : Thread nD τ).loc main_arg3))) := by
  have e0 : B3 m ρ c main_arg0 = (m ((c : Thread nD τ).loc main_arg0)) := ((((W3_of m ρ c main_arg0 (by decide)).trans (W2_of m ρ c main_arg0 (by decide))).trans (W1_of m ρ c main_arg0 (by decide))).trans rfl)
  have e1 : B3 m ρ c main_arg3 = (m ((c : Thread nD τ).loc main_arg3)) := ((((W3_of m ρ c main_arg3 (by decide)).trans (W2_of m ρ c main_arg3 (by decide))).trans (W1_of m ρ c main_arg3 (by decide))).trans rfl)
  refine (W4_arr m ρ c 2).trans ((final0 (B3 m ρ) c).trans ?_)
  rw [e0, e1]
  exact (ref_v4 _ _).symm

theorem K_main_v44 : W5 m ρ c (Proc.devRef .tc main_v44) = (val_main_v44 (F := Ideal) (m ((c : Thread nD τ).loc main_arg0)) (m ((c : Thread nD τ).loc main_arg1)) (m ((c : Thread nD τ).loc main_arg3))) := by
  have h0 : W4 m ρ c (Proc.devRef .tc main_v30) = (val_main_v31 (F := Ideal) (m ((c : Thread nD τ).loc main_arg1))) := ((W4_of_ne m ρ c main_v30 (by decide)).trans (K_main_v30 m ρ c))
  have h1 : W4 m ρ c (Proc.devRef .tc main_v5) = (val_main_v6 (F := Ideal) (m ((c : Thread nD τ).loc main_arg1))) := ((((W4_of_ne m ρ c main_v5 (by decide)).trans (W3_of m ρ c main_v5 (by decide))).trans (W2_of m ρ c main_v5 (by decide))).trans (K_main_v5 m ρ c))
  have h2 : W4 m ρ c (Proc.devRef .tc main_v6) = (val_main_v7 (F := Ideal) (m ((c : Thread nD τ).loc main_arg1))) := ((((W4_of_ne m ρ c main_v6 (by decide)).trans (W3_of m ρ c main_v6 (by decide))).trans (W2_of m ρ c main_v6 (by decide))).trans (K_main_v6 m ρ c))
  have h3 : W4 m ρ c (Proc.devRef .tc main_v31) = (val_main_v4 (F := Ideal) (m ((c : Thread nD τ).loc main_arg0)) (m ((c : Thread nD τ).loc main_arg3))) := (K_main_v31 m ρ c)
  show StableHlo.after hostOps1 (W4 m ρ c) (Proc.devRef .tc main_v44) = _
  generalize W4 m ρ c = X at h0 h1 h2 h3 ⊢
  dsimp only [hostOps1]
  after_results_simp
  try rw [h0]
  try rw [h1]
  try rw [h2]
  try rw [h3]
  simp only [val_main_v44, val_main_v42, val_main_cst_9, val_main_v43, val_main_v41, val_main_v40, val_main_v32, val_main_v39, val_main_v38, val_main_v37, val_main_v34, val_main_v33, val_main_c_7, val_main_v36, val_main_v35, val_main_c_8]
  all_goals rfl

theorem K_main_v45 : W5 m ρ c (Proc.devRef .tc main_v45) = (val_main_v45 (F := Ideal) (m ((c : Thread nD τ).loc main_arg4))) := by
  have h0 : W4 m ρ c (Proc.devRef .tc main_arg4) = (m ((c : Thread nD τ).loc main_arg4)) := (((((W4_of_ne m ρ c main_arg4 (by decide)).trans (W3_of m ρ c main_arg4 (by decide))).trans (W2_of m ρ c main_arg4 (by decide))).trans (W1_of m ρ c main_arg4 (by decide))).trans rfl)
  show StableHlo.after hostOps1 (W4 m ρ c) (Proc.devRef .tc main_v45) = _
  generalize W4 m ρ c = X at h0 ⊢
  dsimp only [hostOps1]
  after_results_simp
  try rw [h0]
  exact RowBlocks.vecRow_cast_eq_broadcast _ _ _

theorem K_main_v46 : W6 m ρ c (Proc.devRef .tc main_v46) = (val_main_v48 (F := Ideal) (m ((c : Thread nD τ).loc main_arg0)) (m ((c : Thread nD τ).loc main_arg1)) (m ((c : Thread nD τ).loc main_arg3)) (m ((c : Thread nD τ).loc main_arg4))) := by
  have e0 : B5 m ρ c main_v44 = (val_main_v44 (F := Ideal) (m ((c : Thread nD τ).loc main_arg0)) (m ((c : Thread nD τ).loc main_arg1)) (m ((c : Thread nD τ).loc main_arg3))) := (K_main_v44 m ρ c)
  have e1 : B5 m ρ c main_v45 = (val_main_v45 (F := Ideal) (m ((c : Thread nD τ).loc main_arg4))) := (K_main_v45 m ρ c)
  refine (W6_arr m ρ c 2).trans ((final1 (B5 m ρ) c).trans ?_)
  rw [e0, e1]
  exact (ref_v48 _ _ _ _).symm

theorem K_main_v48 : W7 m ρ c (Proc.devRef .tc main_v48) = (val_main_v51 (F := Ideal) (m ((c : Thread nD τ).loc main_arg1))) := by
  have h0 : W6 m ρ c (Proc.devRef .tc main_v1) = (val_main_v1 (F := Ideal) (m ((c : Thread nD τ).loc main_arg1))) := ((((((W6_of_ne m ρ c main_v1 (by decide)).trans (W5_of m ρ c main_v1 (by decide))).trans (W4_of_ne m ρ c main_v1 (by decide))).trans (W3_of m ρ c main_v1 (by decide))).trans (W2_of m ρ c main_v1 (by decide))).trans (K_main_v1 m ρ c))
  have h1 : W6 m ρ c (Proc.devRef .tc main_v3) = (val_main_v3 (F := Ideal) (m ((c : Thread nD τ).loc main_arg1))) := ((((((W6_of_ne m ρ c main_v3 (by decide)).trans (W5_of m ρ c main_v3 (by decide))).trans (W4_of_ne m ρ c main_v3 (by decide))).trans (W3_of m ρ c main_v3 (by decide))).trans (W2_of m ρ c main_v3 (by decide))).trans (K_main_v3 m ρ c))
  show StableHlo.after hostOps2 (W6 m ρ c) (Proc.devRef .tc main_v48) = _
  generalize W6 m ρ c = X at h0 h1 ⊢
  dsimp only [hostOps2]
  after_results
  try rw [h0]
  try rw [h1]
  simp only [val_main_v51, val_main_v50]
  all_goals rfl

theorem K_main_v49 : W7 m ρ c (Proc.devRef .tc main_v49) = (val_main_v52 (F := Ideal) (m ((c : Thread nD τ).loc main_arg1))) := by
  have h0 : W6 m ρ c (Proc.devRef .tc main_v1) = (val_main_v1 (F := Ideal) (m ((c : Thread nD τ).loc main_arg1))) := ((((((W6_of_ne m ρ c main_v1 (by decide)).trans (W5_of m ρ c main_v1 (by decide))).trans (W4_of_ne m ρ c main_v1 (by decide))).trans (W3_of m ρ c main_v1 (by decide))).trans (W2_of m ρ c main_v1 (by decide))).trans (K_main_v1 m ρ c))
  have h1 : W6 m ρ c (Proc.devRef .tc main_v3) = (val_main_v3 (F := Ideal) (m ((c : Thread nD τ).loc main_arg1))) := ((((((W6_of_ne m ρ c main_v3 (by decide)).trans (W5_of m ρ c main_v3 (by decide))).trans (W4_of_ne m ρ c main_v3 (by decide))).trans (W3_of m ρ c main_v3 (by decide))).trans (W2_of m ρ c main_v3 (by decide))).trans (K_main_v3 m ρ c))
  show StableHlo.after hostOps2 (W6 m ρ c) (Proc.devRef .tc main_v49) = _
  generalize W6 m ρ c = X at h0 h1 ⊢
  dsimp only [hostOps2]
  after_results
  try rw [h0]
  try rw [h1]
  simp only [val_main_v52, val_main_v50]
  all_goals rfl

theorem K_main_v55 : W7 m ρ c (Proc.devRef .tc main_v55) = (val_main_v58 (F := Ideal) (m ((c : Thread nD τ).loc main_arg1))) := by
  have h0 : W6 m ρ c (Proc.devRef .tc main_v1) = (val_main_v1 (F := Ideal) (m ((c : Thread nD τ).loc main_arg1))) := ((((((W6_of_ne m ρ c main_v1 (by decide)).trans (W5_of m ρ c main_v1 (by decide))).trans (W4_of_ne m ρ c main_v1 (by decide))).trans (W3_of m ρ c main_v1 (by decide))).trans (W2_of m ρ c main_v1 (by decide))).trans (K_main_v1 m ρ c))
  have h1 : W6 m ρ c (Proc.devRef .tc main_v3) = (val_main_v3 (F := Ideal) (m ((c : Thread nD τ).loc main_arg1))) := ((((((W6_of_ne m ρ c main_v3 (by decide)).trans (W5_of m ρ c main_v3 (by decide))).trans (W4_of_ne m ρ c main_v3 (by decide))).trans (W3_of m ρ c main_v3 (by decide))).trans (W2_of m ρ c main_v3 (by decide))).trans (K_main_v3 m ρ c))
  show StableHlo.after hostOps2 (W6 m ρ c) (Proc.devRef .tc main_v55) = _
  generalize W6 m ρ c = X at h0 h1 ⊢
  dsimp only [hostOps2]
  after_results
  try rw [h0]
  try rw [h1]
  simp only [val_main_v58, val_main_v56, val_main_v54, val_main_cst_11, val_main_v55, val_main_v52, val_main_v50, val_main_v53, val_main_cst_10, val_main_v57, val_main_cst_12]
  all_goals rfl

theorem K_main_v57 : W7 m ρ c (Proc.devRef .tc main_v57) = (val_main_v60 (F := Ideal) (m ((c : Thread nD τ).loc main_arg1))) := by
  have h0 : W6 m ρ c (Proc.devRef .tc main_v1) = (val_main_v1 (F := Ideal) (m ((c : Thread nD τ).loc main_arg1))) := ((((((W6_of_ne m ρ c main_v1 (by decide)).trans (W5_of m ρ c main_v1 (by decide))).trans (W4_of_ne m ρ c main_v1 (by decide))).trans (W3_of m ρ c main_v1 (by decide))).trans (W2_of m ρ c main_v1 (by decide))).trans (K_main_v1 m ρ c))
  have h1 : W6 m ρ c (Proc.devRef .tc main_v3) = (val_main_v3 (F := Ideal) (m ((c : Thread nD τ).loc main_arg1))) := ((((((W6_of_ne m ρ c main_v3 (by decide)).trans (W5_of m ρ c main_v3 (by decide))).trans (W4_of_ne m ρ c main_v3 (by decide))).trans (W3_of m ρ c main_v3 (by decide))).trans (W2_of m ρ c main_v3 (by decide))).trans (K_main_v3 m ρ c))
  show StableHlo.after hostOps2 (W6 m ρ c) (Proc.devRef .tc main_v57) = _
  generalize W6 m ρ c = X at h0 h1 ⊢
  dsimp only [hostOps2]
  after_results
  try rw [h0]
  try rw [h1]
  simp only [val_main_v60, val_main_v56, val_main_v54, val_main_cst_11, val_main_v55, val_main_v52, val_main_v50, val_main_v53, val_main_cst_10, val_main_v59, val_main_cst_13]
  all_goals rfl

theorem K_main_cst_14 : W7 m ρ c (Proc.devRef .tc main_cst_14) = (val_main_cst_14 (F := Ideal)) := by
  have h0 : W6 m ρ c (Proc.devRef .tc main_v1) = (val_main_v1 (F := Ideal) (m ((c : Thread nD τ).loc main_arg1))) := ((((((W6_of_ne m ρ c main_v1 (by decide)).trans (W5_of m ρ c main_v1 (by decide))).trans (W4_of_ne m ρ c main_v1 (by decide))).trans (W3_of m ρ c main_v1 (by decide))).trans (W2_of m ρ c main_v1 (by decide))).trans (K_main_v1 m ρ c))
  have h1 : W6 m ρ c (Proc.devRef .tc main_v3) = (val_main_v3 (F := Ideal) (m ((c : Thread nD τ).loc main_arg1))) := ((((((W6_of_ne m ρ c main_v3 (by decide)).trans (W5_of m ρ c main_v3 (by decide))).trans (W4_of_ne m ρ c main_v3 (by decide))).trans (W3_of m ρ c main_v3 (by decide))).trans (W2_of m ρ c main_v3 (by decide))).trans (K_main_v3 m ρ c))
  show StableHlo.after hostOps2 (W6 m ρ c) (Proc.devRef .tc main_cst_14) = _
  generalize W6 m ρ c = X at h0 h1 ⊢
  dsimp only [hostOps2]
  after_results
  try rw [h0]
  try rw [h1]
  simp only [val_main_cst_14]
  all_goals rfl

theorem K_main_v58 : W8 m ρ c (Proc.devRef .tc main_v58) = (val_main_v61 (F := Ideal) (m ((c : Thread nD τ).loc main_arg1))) := by
  have h0 : W7 m ρ c (Proc.devRef .tc main_cst_14) = (val_main_cst_14 (F := Ideal)) := (K_main_cst_14 m ρ c)
  have h1 : W7 m ρ c (Proc.devRef .tc main_v55) = (val_main_v58 (F := Ideal) (m ((c : Thread nD τ).loc main_arg1))) := (K_main_v55 m ρ c)
  have h2 : W7 m ρ c (Proc.devRef .tc main_v57) = (val_main_v60 (F := Ideal) (m ((c : Thread nD τ).loc main_arg1))) := (K_main_v57 m ρ c)
  show StableHlo.after hostOps2_1 (W7 m ρ c) (Proc.devRef .tc main_v58) = _
  generalize W7 m ρ c = X at h0 h1 h2 ⊢
  dsimp only [hostOps2_1]
  after_results
  dsimp only [TRef.of]
  try rw [h0]
  try rw [h1]
  try rw [h2]
  simp only [val_main_v61, val_main_call2_v1, val_main_call2_v0]
  refine eq_of_heq ((cast_heq _ _).trans (heq_of_eq ?_))
  refine congr (congr (congrArg select (eq_of_heq (cast_heq _ _))) (eq_of_heq (cast_heq _ _))) ?_
  refine (eq_of_heq (cast_heq _ _)).trans ((eq_of_heq (cast_heq _ _)).trans ?_)
  refine congrArg (broadcastInDim (s := S_) S100000 ![] bcast_S_S100000) ?_
  refine (eq_of_heq (cast_heq _ _)).trans ((eq_of_heq (cast_heq _ _)).trans ?_)
  exact congrArg id (eq_of_heq (cast_heq _ _))

theorem K_main_v73 : W9 m ρ c (Proc.devRef .tc main_v73) = (val_main_v76 (F := Ideal) (m ((c : Thread nD τ).loc main_arg1))) := by
  have h0 : W8 m ρ c (Proc.devRef .tc main_v48) = (val_main_v51 (F := Ideal) (m ((c : Thread nD τ).loc main_arg1))) := ((W8_of m ρ c main_v48 (by decide)).trans (K_main_v48 m ρ c))
  have h1 : W8 m ρ c (Proc.devRef .tc main_v49) = (val_main_v52 (F := Ideal) (m ((c : Thread nD τ).loc main_arg1))) := ((W8_of m ρ c main_v49 (by decide)).trans (K_main_v49 m ρ c))
  have h2 : W8 m ρ c (Proc.devRef .tc main_v58) = (val_main_v61 (F := Ideal) (m ((c : Thread nD τ).loc main_arg1))) := (K_main_v58 m ρ c)
  show StableHlo.after hostOps2_2 (W8 m ρ c) (Proc.devRef .tc main_v73) = _
  generalize W8 m ρ c = X at h0 h1 h2 ⊢
  dsimp only [hostOps2_2]
  after_results_simp
  try rw [h0]
  try rw [h1]
  try rw [h2]
  simp only [val_main_v76, val_main_v68, val_main_v67, val_main_v66, val_main_v63, val_main_v62, val_main_c_15, val_main_v65, val_main_v64, val_main_c_16, val_main_v75, val_main_v74, val_main_v73, val_main_v70, val_main_v69, val_main_c_17, val_main_v72, val_main_v71, val_main_c_18]
  all_goals rfl

theorem K_main_v74 : W10 m ρ c (Proc.devRef .tc main_v74) = (val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  have e0 : B9 m ρ c main_v46 = (val_main_v48 (F := Ideal) (m ((c : Thread nD τ).loc main_arg0)) (m ((c : Thread nD τ).loc main_arg1)) (m ((c : Thread nD τ).loc main_arg3)) (m ((c : Thread nD τ).loc main_arg4))) := ((((W9_of m ρ c main_v46 (by decide)).trans (W8_of m ρ c main_v46 (by decide))).trans (W7_of m ρ c main_v46 (by decide))).trans (K_main_v46 m ρ c))
  have e1 : B9 m ρ c main_arg5 = (m ((c : Thread nD τ).loc main_arg5)) := ((((((((((W9_of m ρ c main_arg5 (by decide)).trans (W8_of m ρ c main_arg5 (by decide))).trans (W7_of m ρ c main_arg5 (by decide))).trans (W6_of_ne m ρ c main_arg5 (by decide))).trans (W5_of m ρ c main_arg5 (by decide))).trans (W4_of_ne m ρ c main_arg5 (by decide))).trans (W3_of m ρ c main_arg5 (by decide))).trans (W2_of m ρ c main_arg5 (by decide))).trans (W1_of m ρ c main_arg5 (by decide))).trans rfl)
  refine (W10_arr m ρ c 2).trans ((final2 (B9 m ρ) c).trans ?_)
  rw [e0, e1]
  exact (ref_v49 _ _ _ _ _).symm

theorem K_main_v87 : W11 m ρ c (Proc.devRef .tc main_v87) = (val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  have h0 : W10 m ρ c (Proc.devRef .tc main_v73) = (val_main_v76 (F := Ideal) (m ((c : Thread nD τ).loc main_arg1))) := ((W10_of_ne m ρ c main_v73 (by decide)).trans (K_main_v73 m ρ c))
  have h1 : W10 m ρ c (Proc.devRef .tc main_v48) = (val_main_v51 (F := Ideal) (m ((c : Thread nD τ).loc main_arg1))) := ((((W10_of_ne m ρ c main_v48 (by decide)).trans (W9_of m ρ c main_v48 (by decide))).trans (W8_of m ρ c main_v48 (by decide))).trans (K_main_v48 m ρ c))
  have h2 : W10 m ρ c (Proc.devRef .tc main_v49) = (val_main_v52 (F := Ideal) (m ((c : Thread nD τ).loc main_arg1))) := ((((W10_of_ne m ρ c main_v49 (by decide)).trans (W9_of m ρ c main_v49 (by decide))).trans (W8_of m ρ c main_v49 (by decide))).trans (K_main_v49 m ρ c))
  have h3 : W10 m ρ c (Proc.devRef .tc main_v74) = (val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := (K_main_v74 m ρ c)
  show StableHlo.after hostOps3 (W10 m ρ c) (Proc.devRef .tc main_v87) = _
  generalize W10 m ρ c = X at h0 h1 h2 h3 ⊢
  dsimp only [hostOps3]
  after_results_simp
  try rw [h0]
  try rw [h1]
  try rw [h2]
  try rw [h3]
  simp only [val_main_v89, val_main_v87, val_main_cst_21, val_main_v88, val_main_v86, val_main_v85, val_main_v77, val_main_v84, val_main_v83, val_main_v82, val_main_v79, val_main_v78, val_main_c_19, val_main_v81, val_main_v80, val_main_c_20]
  all_goals rfl

theorem K_main_v88 : W11 m ρ c (Proc.devRef .tc main_v88) = (val_main_v90 (F := Ideal) (m ((c : Thread nD τ).loc main_arg6))) := by
  have h0 : W10 m ρ c (Proc.devRef .tc main_arg6) = (m ((c : Thread nD τ).loc main_arg6)) := (((((((((((W10_of_ne m ρ c main_arg6 (by decide)).trans (W9_of m ρ c main_arg6 (by decide))).trans (W8_of m ρ c main_arg6 (by decide))).trans (W7_of m ρ c main_arg6 (by decide))).trans (W6_of_ne m ρ c main_arg6 (by decide))).trans (W5_of m ρ c main_arg6 (by decide))).trans (W4_of_ne m ρ c main_arg6 (by decide))).trans (W3_of m ρ c main_arg6 (by decide))).trans (W2_of m ρ c main_arg6 (by decide))).trans (W1_of m ρ c main_arg6 (by decide))).trans rfl)
  show StableHlo.after hostOps3 (W10 m ρ c) (Proc.devRef .tc main_v88) = _
  generalize W10 m ρ c = X at h0 ⊢
  dsimp only [hostOps3]
  after_results_simp
  try rw [h0]
  exact RowBlocks.vecRow_cast_eq_broadcast _ _ _

theorem K_main_v89 : W12 m ρ c (Proc.devRef .tc main_v89) = (val_main_v93 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  have e0 : B11 m ρ c main_v87 = (val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := (K_main_v87 m ρ c)
  have e1 : B11 m ρ c main_v88 = (val_main_v90 (F := Ideal) (m ((c : Thread nD τ).loc main_arg6))) := (K_main_v88 m ρ c)
  refine (W12_arr m ρ c 2).trans ((final3 (B11 m ρ) c).trans ?_)
  rw [e0, e1]
  exact (ref_v93 _ _ _ _ _ _).symm

/-! ### The edge features: the two endpoint rows gathered, then joined with the edge attributes

The stretch is run in two parts (the fold of a list of operations splits at any point): the gathers first, then the join
read over whatever the gathers left. -/

/-- The stretch before the fifth launch, up to the join: the two gathers of endpoint rows. -/
abbrev edgeGather : List (HloOp τ sig (Elt Ideal)) :=
  [ StableHlo.nullary main_c_22 (constantI S_ 32 0#32),
    StableHlo.unary main_c_22 main_v90 (broadcastInDim S1600000 ![] bcast_S_S1600000 : (⟨S_, .i32⟩ : BufTy).Contents (Elt Ideal) → (⟨S1600000, .i32⟩ : BufTy).Contents (Elt Ideal)),
    StableHlo.binary main_v1 main_v90 main_v91 (cmpi .slt : (⟨S1600000, .i32⟩ : BufTy).Contents (Elt Ideal) → (⟨S1600000, .i32⟩ : BufTy).Contents (Elt Ideal) → (⟨S1600000, .i1⟩ : BufTy).Contents (Elt Ideal)),
    StableHlo.nullary main_c_23 (constantI S_ 32 100000#32),
    StableHlo.unary main_c_23 main_v92 (broadcastInDim S1600000 ![] bcast_S_S1600000 : (⟨S_, .i32⟩ : BufTy).Contents (Elt Ideal) → (⟨S1600000, .i32⟩ : BufTy).Contents (Elt Ideal)),
    StableHlo.binary main_v1 main_v92 main_v93 (addi : (⟨S1600000, .i32⟩ : BufTy).Contents (Elt Ideal) → (⟨S1600000, .i32⟩ : BufTy).Contents (Elt Ideal) → (⟨S1600000, .i32⟩ : BufTy).Contents (Elt Ideal)),
    StableHlo.ternary main_v91 main_v93 main_v1 main_v94 (select : (⟨S1600000, .i1⟩ : BufTy).Contents (Elt Ideal) → (⟨S1600000, .i32⟩ : BufTy).Contents (Elt Ideal) → (⟨S1600000, .i32⟩ : BufTy).Contents (Elt Ideal) → (⟨S1600000, .i32⟩ : BufTy).Contents (Elt Ideal)),
    StableHlo.unary main_v94 main_v95 (broadcastInDim S1600000x1 ![0] bcast_S1600000_S1600000x1_0 : (⟨S1600000, .i32⟩ : BufTy).Contents (Elt Ideal) → (⟨S1600000x1, .i32⟩ : BufTy).Contents (Elt Ideal)),
    StableHlo.binary main_v89 main_v95 main_v96 ((fun x i => Host.gather gather_S100000x32_S1600000x1_S1600000x32_1_0_n_n_0_1_132 x i) : (⟨S100000x32, .f32⟩ : BufTy).Contents (Elt Ideal) → (⟨S1600000x1, .i32⟩ : BufTy).Contents (Elt Ideal) → (⟨S1600000x32, .f32⟩ : BufTy).Contents (Elt Ideal)),
    StableHlo.nullary main_c_24 (constantI S_ 32 0#32),
    StableHlo.unary main_c_24 main_v97 (broadcastInDim S1600000 ![] bcast_S_S1600000 : (⟨S_, .i32⟩ : BufTy).Contents (Elt Ideal) → (⟨S1600000, .i32⟩ : BufTy).Contents (Elt Ideal)),
    StableHlo.binary main_v3 main_v97 main_v98 (cmpi .slt : (⟨S1600000, .i32⟩ : BufTy).Contents (Elt Ideal) → (⟨S1600000, .i32⟩ : BufTy).Contents (Elt Ideal) → (⟨S1600000, .i1⟩ : BufTy).Contents (Elt Ideal)),
    StableHlo.nullary main_c_25 (constantI S_ 32 100000#32),
    StableHlo.unary main_c_25 main_v99 (broadcastInDim S1600000 ![] bcast_S_S1600000 : (⟨S_, .i32⟩ : BufTy).Contents (Elt Ideal) → (⟨S1600000, .i32⟩ : BufTy).Contents (Elt Ideal)),
    StableHlo.binary main_v3 main_v99 main_v100 (addi : (⟨S1600000, .i32⟩ : BufTy).Contents (Elt Ideal) → (⟨S1600000, .i32⟩ : BufTy).Contents (Elt Ideal) → (⟨S1600000, .i32⟩ : BufTy).Contents (Elt Ideal)),
    StableHlo.ternary main_v98 main_v100 main_v3 main_v101 (select : (⟨S1600000, .i1⟩ : BufTy).Contents (Elt Ideal) → (⟨S1600000, .i32⟩ : BufTy).Contents (Elt Ideal) → (⟨S1600000, .i32⟩ : BufTy).Contents (Elt Ideal) → (⟨S1600000, .i32⟩ : BufTy).Contents (Elt Ideal)),
    StableHlo.unary main_v101 main_v102 (broadcastInDim S1600000x1 ![0] bcast_S1600000_S1600000x1_0 : (⟨S1600000, .i32⟩ : BufTy).Contents (Elt Ideal) → (⟨S1600000x1, .i32⟩ : BufTy).Contents (Elt Ideal)),
    StableHlo.binary main_v89 main_v102 main_v103 ((fun x i => Host.gather gather_S100000x32_S1600000x1_S1600000x32_1_0_n_n_0_1_132 x i) : (⟨S100000x32, .f32⟩ : BufTy).Contents (Elt Ideal) → (⟨S1600000x1, .i32⟩ : BufTy).Contents (Elt Ideal) → (⟨S1600000x32, .f32⟩ : BufTy).Contents (Elt Ideal)) ]
/-- The join of the two gathered blocks with the edge attributes, and the two bias rows stood up as one-row matrices. -/
abbrev edgeJoin : List (HloOp τ sig (Elt Ideal)) :=
  [ StableHlo.nary ![main_v96, main_v103, main_arg2] main_v104 (fun u => concatenate S1600000x66 1 [⟨S1600000x32, u 0⟩, ⟨S1600000x32, u 1⟩, ⟨S1600000x2, u 2⟩] concatenates_S1600000x32_S1600000x32_S1600000x2_S1600000x66_d1),
    StableHlo.reshape main_arg8 main_v105 rfl shapeCasts_S16_S1x16,
    StableHlo.reshape main_arg10 main_v106 rfl shapeCasts_S1_S1x1 ]
theorem hostOps4_split : (hostOps4 : List (HloOp τ sig (Elt Ideal))) = edgeGather ++ edgeJoin := rfl

theorem Ka_main_v96 : StableHlo.after edgeGather (W12 m ρ c) (Proc.devRef .tc main_v96) = (val_main_v100 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  have h0 : W12 m ρ c (Proc.devRef .tc main_v1) = (val_main_v1 (F := Ideal) (m ((c : Thread nD τ).loc main_arg1))) := ((((((((((((W12_of_ne m ρ c main_v1 (by decide)).trans (W11_of m ρ c main_v1 (by decide))).trans (W10_of_ne m ρ c main_v1 (by decide))).trans (W9_of m ρ c main_v1 (by decide))).trans (W8_of m ρ c main_v1 (by decide))).trans (W7_of m ρ c main_v1 (by decide))).trans (W6_of_ne m ρ c main_v1 (by decide))).trans (W5_of m ρ c main_v1 (by decide))).trans (W4_of_ne m ρ c main_v1 (by decide))).trans (W3_of m ρ c main_v1 (by decide))).trans (W2_of m ρ c main_v1 (by decide))).trans (K_main_v1 m ρ c))
  have h1 : W12 m ρ c (Proc.devRef .tc main_v89) = (val_main_v93 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := (K_main_v89 m ρ c)
  generalize W12 m ρ c = X at h0 h1 ⊢
  dsimp only [edgeGather]
  after_results_simp
  try rw [h0]
  try rw [h1]
  simp only [val_main_v100, val_main_v99, val_main_v98, val_main_v95, val_main_v94, val_main_c_22, val_main_v97, val_main_v96, val_main_c_23]
  all_goals rfl

theorem Ka_main_v103 : StableHlo.after edgeGather (W12 m ρ c) (Proc.devRef .tc main_v103) = (val_main_v107 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  have h0 : W12 m ρ c (Proc.devRef .tc main_v3) = (val_main_v3 (F := Ideal) (m ((c : Thread nD τ).loc main_arg1))) := ((((((((((((W12_of_ne m ρ c main_v3 (by decide)).trans (W11_of m ρ c main_v3 (by decide))).trans (W10_of_ne m ρ c main_v3 (by decide))).trans (W9_of m ρ c main_v3 (by decide))).trans (W8_of m ρ c main_v3 (by decide))).trans (W7_of m ρ c main_v3 (by decide))).trans (W6_of_ne m ρ c main_v3 (by decide))).trans (W5_of m ρ c main_v3 (by decide))).trans (W4_of_ne m ρ c main_v3 (by decide))).trans (W3_of m ρ c main_v3 (by decide))).trans (W2_of m ρ c main_v3 (by decide))).trans (K_main_v3 m ρ c))
  have h1 : W12 m ρ c (Proc.devRef .tc main_v89) = (val_main_v93 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := (K_main_v89 m ρ c)
  generalize W12 m ρ c = X at h0 h1 ⊢
  dsimp only [edgeGather]
  after_results_simp
  try rw [h0]
  try rw [h1]
  simp only [val_main_v107, val_main_v106, val_main_v105, val_main_v102, val_main_v101, val_main_c_24, val_main_v104, val_main_v103, val_main_c_25]
  all_goals rfl

theorem Ka_main_arg2 : StableHlo.after edgeGather (W12 m ρ c) (Proc.devRef .tc main_arg2) = (m ((c : Thread nD τ).loc main_arg2)) := by
  have h0 : W12 m ρ c (Proc.devRef .tc main_arg2) = (m ((c : Thread nD τ).loc main_arg2)) := (((((((((((((W12_of_ne m ρ c main_arg2 (by decide)).trans (W11_of m ρ c main_arg2 (by decide))).trans (W10_of_ne m ρ c main_arg2 (by decide))).trans (W9_of m ρ c main_arg2 (by decide))).trans (W8_of m ρ c main_arg2 (by decide))).trans (W7_of m ρ c main_arg2 (by decide))).trans (W6_of_ne m ρ c main_arg2 (by decide))).trans (W5_of m ρ c main_arg2 (by decide))).trans (W4_of_ne m ρ c main_arg2 (by decide))).trans (W3_of m ρ c main_arg2 (by decide))).trans (W2_of m ρ c main_arg2 (by decide))).trans (W1_of m ρ c main_arg2 (by decide))).trans rfl)
  generalize W12 m ρ c = X at h0 ⊢
  dsimp only [edgeGather]
  after_results_simp
  exact h0

theorem K_main_v104 : W13 m ρ c (Proc.devRef .tc main_v104) = (val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  have h0 := Ka_main_v96 m ρ c
  have h1 := Ka_main_v103 m ρ c
  have h2 := Ka_main_arg2 m ρ c
  show StableHlo.after hostOps4 (W12 m ρ c) (Proc.devRef .tc main_v104) = _
  rw [hostOps4_split, HostFold.after_append]
  generalize StableHlo.after edgeGather (W12 m ρ c) = Y at h0 h1 h2 ⊢
  dsimp only [edgeJoin]
  after_results_simp
  dsimp only [Matrix.cons_val_zero, Matrix.cons_val_one, Matrix.cons_val_two, Matrix.head_cons, Matrix.vecHead, Matrix.vecTail, Function.comp, Fin.succ_zero_eq_one]
  rw [h0, h1, h2]
  simp only [val_main_v108]
  all_goals rfl

theorem K_main_v105 : W13 m ρ c (Proc.devRef .tc main_v105) = (val_main_v110 (F := Ideal) (m ((c : Thread nD τ).loc main_arg8))) := by
  have h0 : W12 m ρ c (Proc.devRef .tc main_arg8) = (m ((c : Thread nD τ).loc main_arg8)) := (((((((((((((W12_of_ne m ρ c main_arg8 (by decide)).trans (W11_of m ρ c main_arg8 (by decide))).trans (W10_of_ne m ρ c main_arg8 (by decide))).trans (W9_of m ρ c main_arg8 (by decide))).trans (W8_of m ρ c main_arg8 (by decide))).trans (W7_of m ρ c main_arg8 (by decide))).trans (W6_of_ne m ρ c main_arg8 (by decide))).trans (W5_of m ρ c main_arg8 (by decide))).trans (W4_of_ne m ρ c main_arg8 (by decide))).trans (W3_of m ρ c main_arg8 (by decide))).trans (W2_of m ρ c main_arg8 (by decide))).trans (W1_of m ρ c main_arg8 (by decide))).trans rfl)
  show StableHlo.after hostOps4 (W12 m ρ c) (Proc.devRef .tc main_v105) = _
  generalize W12 m ρ c = X at h0 ⊢
  dsimp only [hostOps4]
  after_results_simp
  try rw [h0]
  exact RowBlocks.vecRow_cast_eq_broadcast _ _ _

theorem K_main_v106 : W13 m ρ c (Proc.devRef .tc main_v106) = (val_main_v115 (F := Ideal) (m ((c : Thread nD τ).loc main_arg10))) := by
  have h0 : W12 m ρ c (Proc.devRef .tc main_arg10) = (m ((c : Thread nD τ).loc main_arg10)) := (((((((((((((W12_of_ne m ρ c main_arg10 (by decide)).trans (W11_of m ρ c main_arg10 (by decide))).trans (W10_of_ne m ρ c main_arg10 (by decide))).trans (W9_of m ρ c main_arg10 (by decide))).trans (W8_of m ρ c main_arg10 (by decide))).trans (W7_of m ρ c main_arg10 (by decide))).trans (W6_of_ne m ρ c main_arg10 (by decide))).trans (W5_of m ρ c main_arg10 (by decide))).trans (W4_of_ne m ρ c main_arg10 (by decide))).trans (W3_of m ρ c main_arg10 (by decide))).trans (W2_of m ρ c main_arg10 (by decide))).trans (W1_of m ρ c main_arg10 (by decide))).trans rfl)
  show StableHlo.after hostOps4 (W12 m ρ c) (Proc.devRef .tc main_v106) = _
  generalize W12 m ρ c = X at h0 ⊢
  dsimp only [hostOps4]
  after_results_simp
  try rw [h0]
  exact RowBlocks.vecRow_cast_eq_broadcast _ _ _

theorem K_main_v107 : W14 m ρ c (Proc.devRef .tc main_v107) = (val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  have e0 : B13 m ρ c main_v104 = (val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := (K_main_v104 m ρ c)
  have e1 : B13 m ρ c main_arg7 = (m ((c : Thread nD τ).loc main_arg7)) := ((((((((((((((W13_of m ρ c main_arg7 (by decide)).trans (W12_of_ne m ρ c main_arg7 (by decide))).trans (W11_of m ρ c main_arg7 (by decide))).trans (W10_of_ne m ρ c main_arg7 (by decide))).trans (W9_of m ρ c main_arg7 (by decide))).trans (W8_of m ρ c main_arg7 (by decide))).trans (W7_of m ρ c main_arg7 (by decide))).trans (W6_of_ne m ρ c main_arg7 (by decide))).trans (W5_of m ρ c main_arg7 (by decide))).trans (W4_of_ne m ρ c main_arg7 (by decide))).trans (W3_of m ρ c main_arg7 (by decide))).trans (W2_of m ρ c main_arg7 (by decide))).trans (W1_of m ρ c main_arg7 (by decide))).trans rfl)
  have e2 : B13 m ρ c main_v105 = (val_main_v110 (F := Ideal) (m ((c : Thread nD τ).loc main_arg8))) := (K_main_v105 m ρ c)
  have e3 : B13 m ρ c main_arg9 = (m ((c : Thread nD τ).loc main_arg9)) := ((((((((((((((W13_of m ρ c main_arg9 (by decide)).trans (W12_of_ne m ρ c main_arg9 (by decide))).trans (W11_of m ρ c main_arg9 (by decide))).trans (W10_of_ne m ρ c main_arg9 (by decide))).trans (W9_of m ρ c main_arg9 (by decide))).trans (W8_of m ρ c main_arg9 (by decide))).trans (W7_of m ρ c main_arg9 (by decide))).trans (W6_of_ne m ρ c main_arg9 (by decide))).trans (W5_of m ρ c main_arg9 (by decide))).trans (W4_of_ne m ρ c main_arg9 (by decide))).trans (W3_of m ρ c main_arg9 (by decide))).trans (W2_of m ρ c main_arg9 (by decide))).trans (W1_of m ρ c main_arg9 (by decide))).trans rfl)
  have e4 : B13 m ρ c main_v106 = (val_main_v115 (F := Ideal) (m ((c : Thread nD τ).loc main_arg10))) := (K_main_v106 m ρ c)
  refine (W14_arr m ρ c 5).trans ((final4 (B13 m ρ) c).trans ?_)
  rw [e0, e1, e2, e3, e4]
  exact (ref_v117 _ _ _ _ _ _ _ _ _ _ _).symm

theorem K_main_v108 : W15 m ρ c (Proc.devRef .tc main_v108) = (val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  have h0 : W14 m ρ c (Proc.devRef .tc main_v107) = (val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := (K_main_v107 m ρ c)
  show StableHlo.after hostOps5 (W14 m ρ c) (Proc.devRef .tc main_v108) = _
  generalize W14 m ρ c = X at h0 ⊢
  dsimp only [hostOps5]
  after_results_simp
  try rw [h0]
  simp only [val_main_v118]
  all_goals rfl

/-- The idealized kernel's result is the reference's function of the same arguments. -/
theorem result_eq : W15 m ρ c (Proc.devRef .tc main_v108) = (val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := K_main_v108 m ρ c

end Cert.Bridge

end
-- ==== Proof.lean ====
/-
  A two-layer graph convolution followed by an edge network, as five kernel launches among host operations, against the
  same computation written in plain array operations.

  Both programs build the edge lists with self-loops, count in-degrees by an accumulating scatter of ones, take the
  inverse square roots where the degree is positive, and scale each gathered row by the product of its endpoints'
  factors; both then aggregate by an accumulating scatter, add the bias, and take the maximum with zero — twice — and
  finally gather the two endpoint rows of every edge, join them with the edge attributes, and apply two dense layers.
  The kernel program computes the four dense steps on the node axis and the edge network in launches over blocks of
  rows (the operands of a product rounded to a shorter format first, which on the extended reals is the identity); the
  reference computes them as whole-array products, sums and maxima. Block by block the launches fill their result
  arrays with exactly the reference's stage (Proof/KIVal0 … KIVal4), every other operation is the same operation on the
  same values (Proof/Bridge), and no arithmetic law beyond "a product into a zero accumulator is the product" is used,
  so the inputs' finiteness is never needed.

  The frames: each kernel program is its fifteen stretches run in order (Proof/KRun for the program as printed,
  Proof/KIRun for the idealized one), the reference its straight line of host operations (Proof/RefRunP).
-/
import proofs.«149904_j79456894976559_1_alg».proof.Defs
import proofs.«149904_j79456894976559_1_alg».proof.Proof.Gen.Kernel
import proofs.«149904_j79456894976559_1_alg».proof.Proof.Gen.KernelIdeal
import proofs.«149904_j79456894976559_1_alg».proof.Proof.Gen.ReferenceIdeal
import proofs.«149904_j79456894976559_1_alg».proof.Proof.Gen.Pre_finite_inputs
import proofs.«149904_j79456894976559_1_alg».proof.Proof.KRun
import proofs.«149904_j79456894976559_1_alg».proof.Proof.KIRun
import proofs.«149904_j79456894976559_1_alg».proof.Proof.RefRunP
import proofs.«149904_j79456894976559_1_alg».proof.Proof.RefReadP
import proofs.«149904_j79456894976559_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The program as printed runs to the end, faults nowhere, and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does the idealized program. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- And the reference: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The idealized kernel is the kernel's own text read on the extended reals: nothing was rewritten. -/
theorem preserves : Cert.preserves_Kernel_KernelIdeal := trivial

/-- From memories agreeing on the arguments the two idealized programs end with equal results: the kernel's at the last
    value of its fold (Proof/KIRun), the reference's at its composed term (Proof/RefRunP), and the two are one function of
    the arguments (Proof/Bridge). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W15 m ρ c (Proc.devRef .tc Cert.KernelIdeal.main_v108), ?_, ?_⟩
  · exact (θ_run Cert.KernelIdeal.defs _ _).mono (fun r h c => ⟨h c _ (Cert.KernelIdeal.Hand.mem_uc Cert.KernelIdeal.main_v108 (by decide)),
      (h c _ (Cert.KernelIdeal.Hand.mem_uc Cert.KernelIdeal.main_arg0 (by decide))).trans (Cert.KernelIdeal.Hand.W15_main_arg0 m ρ c),
      (h c _ (Cert.KernelIdeal.Hand.mem_uc Cert.KernelIdeal.main_arg1 (by decide))).trans (Cert.KernelIdeal.Hand.W15_main_arg1 m ρ c),
      (h c _ (Cert.KernelIdeal.Hand.mem_uc Cert.KernelIdeal.main_arg2 (by decide))).trans (Cert.KernelIdeal.Hand.W15_main_arg2 m ρ c),
      (h c _ (Cert.KernelIdeal.Hand.mem_uc Cert.KernelIdeal.main_arg3 (by decide))).trans (Cert.KernelIdeal.Hand.W15_main_arg3 m ρ c),
      (h c _ (Cert.KernelIdeal.Hand.mem_uc Cert.KernelIdeal.main_arg4 (by decide))).trans (Cert.KernelIdeal.Hand.W15_main_arg4 m ρ c),
      (h c _ (Cert.KernelIdeal.Hand.mem_uc Cert.KernelIdeal.main_arg5 (by decide))).trans (Cert.KernelIdeal.Hand.W15_main_arg5 m ρ c),
      (h c _ (Cert.KernelIdeal.Hand.mem_uc Cert.KernelIdeal.main_arg6 (by decide))).trans (Cert.KernelIdeal.Hand.W15_main_arg6 m ρ c),
      (h c _ (Cert.KernelIdeal.Hand.mem_uc Cert.KernelIdeal.main_arg7 (by decide))).trans (Cert.KernelIdeal.Hand.W15_main_arg7 m ρ c),
      (h c _ (Cert.KernelIdeal.Hand.mem_uc Cert.KernelIdeal.main_arg8 (by decide))).trans (Cert.KernelIdeal.Hand.W15_main_arg8 m ρ c),
      (h c _ (Cert.KernelIdeal.Hand.mem_uc Cert.KernelIdeal.main_arg9 (by decide))).trans (Cert.KernelIdeal.Hand.W15_main_arg9 m ρ c),
      (h c _ (Cert.KernelIdeal.Hand.mem_uc Cert.KernelIdeal.main_arg10 (by decide))).trans (Cert.KernelIdeal.Hand.W15_main_arg10 m ρ c)⟩) (Cert.KernelIdeal.Hand.run_all m ρ)
  · refine (θ_run Cert.ReferenceIdeal.defs _ _).mono (fun _ h c => ⟨(h c).1.trans ?_, (h c).2⟩) (Cert.ReferenceIdeal.ValueP.run (F := Ideal) m' ρ')
    obtain ⟨h0, h1, h2, h3, h4, h5, h6, h7, h8, h9, h10⟩ := hagree c
    rw [Cert.ReferenceIdeal.ReadP.val_main_v118_eq, h0, h1, h2, h3, h4, h5, h6, h7, h8, h9, h10]
    exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
